-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S8192 : Shape := ⟨1, ![8192]⟩
abbrev S128x256 : Shape := ⟨2, ![128, 256]⟩
abbrev S256 : Shape := ⟨1, ![256]⟩
abbrev S256x1024 : Shape := ⟨2, ![256, 1024]⟩
abbrev S1024 : Shape := ⟨1, ![1024]⟩
abbrev S1024x512 : Shape := ⟨2, ![1024, 512]⟩
abbrev S512 : Shape := ⟨1, ![512]⟩
abbrev S512x16 : Shape := ⟨2, ![512, 16]⟩
abbrev S16 : Shape := ⟨1, ![16]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x1024 : S_.BroadcastsInDim S256x1024 (![] : Fin 0 → Fin S256x1024.rank)
  reducesTo_S256x1024_S_d0_1 : S256x1024.ReducesTo [0, 1] S_
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_

variable [Facts]

def fn_part3 {F : FTy → Type} [FloatOps F] (main_arg13 : FVec F S512x16 .f32) (main_arg14 : FVec F S16 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512x16 .f32 := Host.absf main_arg13
  let main_cst_20 : FVec F S_ .f32 := constant S_ .f32 0x7F800000#32
  let main_v55 : FVec F S512x16 .f32 := broadcastInDim S512x16 ![] bcast_S_S512x16 main_cst_20
  let main_v56 : IVec S512x16 1 := cmpf .olt main_v54 main_v55
  let main_c_21 : IVec S_ 1 := constantI S_ 1 1#1
  let main_v57 : IVec S_ 1 := (fun x v => Host.reduce IntOp.andi x v reducesTo_S512x16_S_d0_1 h_S_) main_v56 main_c_21
  let main_v58 : IVec S_ 1 := andi main_v53 main_v57
  let main_v59 : FVec F S16 .f32 := Host.absf main_arg14
  let main_cst_22 : FVec F S_ .f32 := constant S_ .f32 0x7F800000#32
  let main_v60 : FVec F S16 .f32 := broadcastInDim S16 ![] bcast_S_S16 main_cst_22
  let main_v61 : IVec S16 1 := cmpf .olt main_v59 main_v60
  let main_c_23 : IVec S_ 1 := constantI S_ 1 1#1
  let main_v62 : IVec S_ 1 := (fun x v => Host.reduce IntOp.andi x v reducesTo_S16_S_d0 h_S_) main_v61 main_c_23
  let main_v63 : IVec S_ 1 := andi main_v58 main_v62
  main_v63

def fn_part2 {F : FTy → Type} [FloatOps F] (main_arg9 : FVec F S1024x512 .f32) (main_arg10 : FVec F S512 .f32) (main_arg11 : FVec F S512 .f32) (main_arg12 : FVec F S512 .f32) (main_arg13 : FVec F S512x16 .f32) (main_arg14 : FVec F S16 .f32) (main_v33 : IVec S_ 1) : IVec S_ 1 :=
  let main_v34 : FVec F S1024x512 .f32 := Host.absf main_arg9
  let main_cst_12 : FVec F S_ .f32 := constant S_ .f32 0x7F800000#32
  let main_v35 : FVec F S1024x512 .f32 := broadcastInDim S1024x512 ![] bcast_S_S1024x512 main_cst_12
  let main_v36 : IVec S1024x512 1 := cmpf .olt main_v34 main_v35
  let main_c_13 : IVec S_ 1 := constantI S_ 1 1#1
  let main_v37 : IVec S_ 1 := (fun x v => Host.reduce IntOp.andi x v reducesTo_S1024x512_S_d0_1 h_S_) main_v36 main_c_13
  let main_v38 : IVec S_ 1 := andi main_v33 main_v37
  let main_v39 : FVec F S512 .f32 := Host.absf main_arg10
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512 .f32 := Host.absf main_arg11
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512 .f32 := Host.absf main_arg12
  let main_cst_18 : FVec F S_ .f32 := constant S_ .f32 0x7F800000#32
  let main_v50 : FVec F S512 .f32 := broadcastInDim S512 ![] bcast_S_S512 main_cst_18
  fn_part3 (F := F) main_arg13 main_arg14 main_v48 main_v49 main_v50

def fn_part1 {F : FTy → Type} [FloatOps F] (main_arg6 : FVec F S1024 .f32) (main_arg7 : FVec F S1024 .f32) (main_arg8 : FVec F S1024 .f32) (main_arg9 : FVec F S1024x512 .f32) (main_arg10 : FVec F S512 .f32) (main_arg11 : FVec F S512 .f32) (main_arg12 : FVec F S512 .f32) (main_arg13 : FVec F S512x16 .f32) (main_arg14 : FVec F S16 .f32) (main_v13 : IVec S_ 1) (main_v16 : IVec S256x1024 1) : IVec S_ 1 :=
  let main_c_5 : IVec S_ 1 := constantI S_ 1 1#1
  let main_v17 : IVec S_ 1 := (fun x v => Host.reduce IntOp.andi x v reducesTo_S256x1024_S_d0_1 h_S_) main_v16 main_c_5
  let main_v18 : IVec S_ 1 := andi main_v13 main_v17
  let main_v19 : FVec F S1024 .f32 := Host.absf main_arg6
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg7
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg8
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S50000x128 .f32) (main_arg1 : IVec S2x800000 32) (main_arg2 : IVec S8192 32) (main_arg3 : FVec F S128x256 .f32) (main_arg4 : FVec F S256 .f32) (main_arg5 : FVec F S256x1024 .f32) (main_arg6 : FVec F S1024 .f32) (main_arg7 : FVec F S1024 .f32) (main_arg8 : FVec F S1024 .f32) (main_arg9 : FVec F S1024x512 .f32) (main_arg10 : FVec F S512 .f32) (main_arg11 : FVec F S512 .f32) (main_arg12 : FVec F S512 .f32) (main_arg13 : FVec F S512x16 .f32) (main_arg14 : FVec F S16 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x1024 .f32 := Host.absf main_arg5
  let main_cst_4 : FVec F S_ .f32 := constant S_ .f32 0x7F800000#32
  let main_v15 : FVec F S256x1024 .f32 := broadcastInDim S256x1024 ![] bcast_S_S256x1024 main_cst_4
  let main_v16 : IVec S256x1024 1 := cmpf .olt main_v14 main_v15
  fn_part1 (F := F) main_arg6 main_arg7 main_arg8 main_arg9 main_arg10 main_arg11 main_arg12 main_arg13 main_arg14 main_v13 main_v16
-- ==== Kernel.lean ====
abbrev S50000x128 : Shape := ⟨2, ![50000, 128]⟩
abbrev S2x800000 : Shape := ⟨2, ![2, 800000]⟩
abbrev S8192 : Shape := ⟨1, ![8192]⟩
abbrev S128x256 : Shape := ⟨2, ![128, 256]⟩
abbrev S256 : Shape := ⟨1, ![256]⟩
abbrev S256x1024 : Shape := ⟨2, ![256, 1024]⟩
abbrev S1024 : Shape := ⟨1, ![1024]⟩
abbrev S1024x512 : Shape := ⟨2, ![1024, 512]⟩
abbrev S512 : Shape := ⟨1, ![512]⟩
abbrev S512x16 : Shape := ⟨2, ![512, 16]⟩
abbrev S16 : Shape := ⟨1, ![16]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S8192x1 : Shape := ⟨2, ![8192, 1]⟩
abbrev S8192x128 : Shape := ⟨2, ![8192, 128]⟩
abbrev S1x256 : Shape := ⟨2, ![1, 256]⟩
abbrev S1x1024 : Shape := ⟨2, ![1, 1024]⟩
abbrev S1x512 : Shape := ⟨2, ![1, 512]⟩
abbrev S1x16 : Shape := ⟨2, ![1, 16]⟩
abbrev S8192x16 : Shape := ⟨2, ![8192, 16]⟩
abbrev S2048x128 : Shape := ⟨2, ![2048, 128]⟩
abbrev S2048x16 : Shape := ⟨2, ![2048, 16]⟩
abbrev S2048x256 : Shape := ⟨2, ![2048, 256]⟩
abbrev S2048x1024 : Shape := ⟨2, ![2048, 1024]⟩
abbrev S2048 : Shape := ⟨1, ![2048]⟩
abbrev S2048x1 : Shape := ⟨2, ![2048, 1]⟩
abbrev S2048x512 : Shape := ⟨2, ![2048, 512]⟩

abbrev nBuf : Space → Nat
  | .hbm => 95
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S8192, .i32⟩
  | .hbm, ⟨3, _⟩ => ⟨S128x256, .f32⟩
  | .hbm, ⟨4, _⟩ => ⟨S256, .f32⟩
  | .hbm, ⟨5, _⟩ => ⟨S256x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024x512, .f32⟩
  | .hbm, ⟨10, _⟩ => ⟨S512, .f32⟩
  | .hbm, ⟨11, _⟩ => ⟨S512, .f32⟩
  | .hbm, ⟨12, _⟩ => ⟨S512, .f32⟩
  | .hbm, ⟨13, _⟩ => ⟨S512x16, .f32⟩
  | .hbm, ⟨14, _⟩ => ⟨S16, .f32⟩
  | .hbm, ⟨15, _⟩ => ⟨S50000, .i32⟩
  | .hbm, ⟨16, _⟩ => ⟨S1x800000, .i32⟩
  | .hbm, ⟨17, _⟩ => ⟨S800000, .i32⟩
  | .hbm, ⟨18, _⟩ => ⟨S850000, .i32⟩
  | .hbm, ⟨19, _⟩ => ⟨S1x800000, .i32⟩
  | .hbm, ⟨20, _⟩ => ⟨S800000, .i32⟩
  | .hbm, ⟨21, _⟩ => ⟨S850000, .i32⟩
  | .hbm, ⟨22, _⟩ => ⟨S_, .f32⟩
  | .hbm, ⟨23, _⟩ => ⟨S850000, .f32⟩
  | .hbm, ⟨24, _⟩ => ⟨S_, .f32⟩
  | .hbm, ⟨25, _⟩ => ⟨S50000, .f32⟩
  | .hbm, ⟨26, _⟩ => ⟨S850000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .i1⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000, .f32⟩
  | .hbm, ⟨35, _⟩ => ⟨S_, .f32⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000, .f32⟩
  | .hbm, ⟨57, _⟩ => ⟨S850000, .f32⟩
  | .hbm, ⟨58, _⟩ => ⟨S_, .i32⟩
  | .hbm, ⟨59, _⟩ => ⟨S850000, .i32⟩
  | .hbm, ⟨60, _⟩ => ⟨S850000, .i1⟩
  | .hbm, ⟨61, _⟩ => ⟨S_, .i32⟩
  | .hbm, ⟨62, _⟩ => ⟨S850000, .i32⟩
  | .hbm, ⟨63, _⟩ => ⟨S850000, .i32⟩
  | .hbm, ⟨64, _⟩ => ⟨S850000, .i32⟩
  | .hbm, ⟨65, _⟩ => ⟨S850000x1, .i32⟩
  | .hbm, ⟨66, _⟩ => ⟨S850000x128, .f32⟩
  | .hbm, ⟨67, _⟩ => ⟨S850000x1, .f32⟩
  | .hbm, ⟨68, _⟩ => ⟨S850000x128, .f32⟩
  | .hbm, ⟨69, _⟩ => ⟨S850000x128, .f32⟩
  | .hbm, ⟨70, _⟩ => ⟨S_, .f32⟩
  | .hbm, ⟨71, _⟩ => ⟨S50000x128, .f32⟩
  | .hbm, ⟨72, _⟩ => ⟨S850000x1, .i32⟩
  | .hbm, ⟨73, _⟩ => ⟨S50000x128, .f32⟩
  | .hbm, ⟨74, _⟩ => ⟨S_, .i32⟩
  | .hbm, ⟨75, _⟩ => ⟨S8192, .i32⟩
  | .hbm, ⟨76, _⟩ => ⟨S8192, .i1⟩
  | .hbm, ⟨77, _⟩ => ⟨S_, .i32⟩
  | .hbm, ⟨78, _⟩ => ⟨S8192, .i32⟩
  | .hbm, ⟨79, _⟩ => ⟨S8192, .i32⟩
  | .hbm, ⟨80, _⟩ => ⟨S8192, .i32⟩
  | .hbm, ⟨81, _⟩ => ⟨S8192x1, .i32⟩
  | .hbm, ⟨82, _⟩ => ⟨S8192x128, .f32⟩
  | .hbm, ⟨83, _⟩ => ⟨S256x1024, .bf16⟩
  | .hbm, ⟨84, _⟩ => ⟨S1024x512, .bf16⟩
  | .hbm, ⟨85, _⟩ => ⟨S512x16, .bf16⟩
  | .hbm, ⟨86, _⟩ => ⟨S1x256, .f32⟩
  | .hbm, ⟨87, _⟩ => ⟨S1x1024, .f32⟩
  | .hbm, ⟨88, _⟩ => ⟨S1x1024, .f32⟩
  | .hbm, ⟨89, _⟩ => ⟨S1x1024, .f32⟩
  | .hbm, ⟨90, _⟩ => ⟨S1x512, .f32⟩
  | .hbm, ⟨91, _⟩ => ⟨S1x512, .f32⟩
  | .hbm, ⟨92, _⟩ => ⟨S1x512, .f32⟩
  | .hbm, ⟨93, _⟩ => ⟨S1x16, .f32⟩
  | .hbm, ⟨94, _⟩ => ⟨S8192x16, .f32⟩
  | .local _ .vmem, ⟨0, _⟩ => ⟨S2048x128, .f32⟩
  | .local _ .vmem, ⟨1, _⟩ => ⟨S2048x128, .f32⟩
  | .local _ .vmem, ⟨2, _⟩ => ⟨S128x256, .f32⟩
  | .local _ .vmem, ⟨3, _⟩ => ⟨S1x256, .f32⟩
  | .local _ .vmem, ⟨4, _⟩ => ⟨S256x1024, .bf16⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1024x512, .bf16⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S512x16, .bf16⟩
  | .local _ .vmem, ⟨13, _⟩ => ⟨S1x16, .f32⟩
  | .local _ .vmem, ⟨14, _⟩ => ⟨S2048x16, .f32⟩
  | .local _ .vmem, ⟨15, _⟩ => ⟨S2048x16, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_cst_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_v16 : Ref sig .tc := ⟨.hbm, 38, rfl⟩
abbrev main_c : Ref sig .tc := ⟨.hbm, 39, rfl⟩
abbrev main_v17 : Ref sig .tc := ⟨.hbm, 40, rfl⟩
abbrev main_v18 : Ref sig .tc := ⟨.hbm, 41, rfl⟩
abbrev main_c_4 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_c_5 : Ref sig .tc := ⟨.hbm, 48, rfl⟩
abbrev main_v24 : Ref sig .tc := ⟨.hbm, 49, rfl⟩
abbrev main_v25 : Ref sig .tc := ⟨.hbm, 50, rfl⟩
abbrev main_c_6 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_c_7 : Ref sig .tc := ⟨.hbm, 58, rfl⟩
abbrev main_v32 : Ref sig .tc := ⟨.hbm, 59, rfl⟩
abbrev main_v33 : Ref sig .tc := ⟨.hbm, 60, rfl⟩
abbrev main_c_8 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_9 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_c_10 : Ref sig .tc := ⟨.hbm, 74, rfl⟩
abbrev main_v45 : Ref sig .tc := ⟨.hbm, 75, rfl⟩
abbrev main_v46 : Ref sig .tc := ⟨.hbm, 76, rfl⟩
abbrev main_c_11 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x16 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x16 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S2048x16 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S_S8192 : S_.BroadcastsInDim S8192 (![] : Fin 0 → Fin S8192.rank)
  bcast_S8192_S8192x1_0 : S8192.BroadcastsInDim S8192x1 (![0] : Fin 1 → Fin S8192x1.rank)
  bitsLt_bf16_f32 : FTy.bits .bf16 < FTy.bits .f32
  shapeCasts_S256_S1x256 : S256.ShapeCasts S1x256
  shapeCasts_S1024_S1x1024 : S1024.ShapeCasts S1x1024
  shapeCasts_S512_S1x512 : S512.ShapeCasts S1x512
  shapeCasts_S16_S1x16 : S16.ShapeCasts S1x16
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  reduces_S2048x1024_S2048 : S2048x1024.Reduces [1] S2048
  shapeCasts_S2048_S2048x1 : S2048.ShapeCasts S2048x1
  broadcasts_S2048x1_S2048x1024 : S2048x1.Broadcasts S2048x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  reduces_S2048x512_S2048 : S2048x512.Reduces [1] S2048
  broadcasts_S2048x1_S2048x512 : S2048x1.Broadcasts S2048x512
  inb_S512x16_S512x16_0_0 : ∀ a, (![0, 0] : Fin 2 → Nat) a + S512x16.size a ≤ S512x16.size a
  h_S512x16 : 0 < S512x16.numel
  shapeCasts_S512x16_S512x16 : S512x16.ShapeCasts S512x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2048x16 : S1x16.Broadcasts S2048x16
  inb_S2048x16_S2048x16_0_0 : ∀ a, (![0, 0] : Fin 2 → Nat) a + S2048x16.size a ≤ S2048x16.size a
  h_S2048x16 : 0 < S2048x16.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  gather_S50000x128_S8192x1_S8192x128_1_0_n_n_0_1_1128_wf : GatherDims.WF S50000x128 S8192x1 S8192x128 [1] [0] [] [0] [] 1 ![1, 128]
  dot_S2048x128_S128x256_S2048x256_1_0_0_1_n_n_wf : DotDims.WF S2048x128 S128x256 S2048x256 [1] [0] [0] [1] [] []
  dot_S2048x256_S256x1024_S2048x1024_1_0_0_1_n_n_wf : DotDims.WF S2048x256 S256x1024 S2048x1024 [1] [0] [0] [1] [] []
  dot_S2048x1024_S1024x512_S2048x512_1_0_0_1_n_n_wf : DotDims.WF S2048x1024 S1024x512 S2048x512 [1] [0] [0] [1] [] []
  dot_S2048x512_S512x16_S2048x16_1_0_0_1_n_n_wf : DotDims.WF S2048x512 S512x16 S2048x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S8192x128.size a
  hwx0_0 : ∀ i : grid0.Coords, EltTy.bits .f32 = 32 ∨ (Rect.block (s := S8192x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S256x1024.size a
  hwx0_3 : ∀ i : grid0.Coords, EltTy.bits .bf16 = 32 ∨ (Rect.block (s := S256x1024) S256x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x512.size a ≤ S1024x512.size a
  hwx0_7 : ∀ i : grid0.Coords, EltTy.bits .bf16 = 32 ∨ (Rect.block (s := S1024x512) S1024x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x512.size a
  hwx0_8 : ∀ i : grid0.Coords, EltTy.bits .f32 = 32 ∨ (Rect.block (s := S1x512) S1x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x512.size a
  hwx0_9 : ∀ i : grid0.Coords, EltTy.bits .f32 = 32 ∨ (Rect.block (s := S1x512) S1x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x512.size a ≤ S1x512.size a
  hwx0_10 : ∀ i : grid0.Coords, EltTy.bits .f32 = 32 ∨ (Rect.block (s := S1x512) S1x512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512x16.size a ≤ S512x16.size a
  hwx0_11 : ∀ i : grid0.Coords, EltTy.bits .bf16 = 32 ∨ (Rect.block (s := S512x16) S512x16.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x16.size a ≤ S1x16.size a
  hwx0_12 : ∀ i : grid0.Coords, EltTy.bits .f32 = 32 ∨ (Rect.block (s := S1x16) S1x16.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2048x16.size a ≤ S8192x16.size a
  hwx0_13 : ∀ i : grid0.Coords, EltTy.bits .f32 = 32 ∨ (Rect.block (s := S8192x16) S2048x16.size (cc0_transform_13 i) (hinb0_13 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def gather_S50000x128_S8192x1_S8192x128_1_0_n_n_0_1_1128 : GatherDims S50000x128 S8192x1 S8192x128 where
  offsetDims := [1]
  collapsedSliceDims := [0]
  operandBatchingDims := []
  startIndicesBatchingDims := []
  startIndexMap := [0]
  indexVectorDim := 1
  sliceSizes := ![1, 128]
  wf := gather_S50000x128_S8192x1_S8192x128_1_0_n_n_0_1_1128_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def dot_S2048x256_S256x1024_S2048x1024_1_0_0_1_n_n : DotDims S2048x256 S256x1024 S2048x1024 where
  lhsContracting := [1]
  rhsContracting := [0]
  lhsNonContracting := [0]
  rhsNonContracting := [1]
  lhsBatch := []
  rhsBatch := []
  wf := dot_S2048x256_S256x1024_S2048x1024_1_0_0_1_n_n_wf
def dot_S2048x1024_S1024x512_S2048x512_1_0_0_1_n_n : DotDims S2048x1024 S1024x512 S2048x512 where
  lhsContracting := [1]
  rhsContracting := [0]
  lhsNonContracting := [0]
  rhsNonContracting := [1]
  lhsBatch := []
  rhsBatch := []
  wf := dot_S2048x1024_S1024x512_S2048x512_1_0_0_1_n_n_wf
def dot_S2048x512_S512x16_S2048x16_1_0_0_1_n_n : DotDims S2048x512 S512x16 S2048x16 where
  lhsContracting := [1]
  rhsContracting := [0]
  lhsNonContracting := [0]
  rhsNonContracting := [1]
  lhsBatch := []
  rhsBatch := []
  wf := dot_S2048x512_S512x16_S2048x16_1_0_0_1_n_n_wf

abbrev win0_0 : Pipeline.Window sig grid0 :=
  Pipeline.Window.ofSpec (Memref.whole main_v51) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v55) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v52) S256x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v56) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v57) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v58) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v53) S1024x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v59) S1x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v60) S1x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v61) S1x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v54) S512x16.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v62) S1x16.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v63) S2048x16.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S8192 : Shape := ⟨1, ![8192]⟩
abbrev S128x256 : Shape := ⟨2, ![128, 256]⟩
abbrev S256 : Shape := ⟨1, ![256]⟩
abbrev S256x1024 : Shape := ⟨2, ![256, 1024]⟩
abbrev S1024 : Shape := ⟨1, ![1024]⟩
abbrev S1024x512 : Shape := ⟨2, ![1024, 512]⟩
abbrev S512 : Shape := ⟨1, ![512]⟩
abbrev S512x16 : Shape := ⟨2, ![512, 16]⟩
abbrev S16 : Shape := ⟨1, ![16]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩
abbrev S8192x1 : Shape := ⟨2, ![8192, 1]⟩
abbrev S8192x256 : Shape := ⟨2, ![8192, 256]⟩
abbrev S8192x1024 : Shape := ⟨2, ![8192, 1024]⟩
abbrev S1x1024 : Shape := ⟨2, ![1, 1024]⟩
abbrev S8192x512 : Shape := ⟨2, ![8192, 512]⟩
abbrev S1x512 : Shape := ⟨2, ![1, 512]⟩
abbrev S8192x16 : Shape := ⟨2, ![8192, 16]⟩
abbrev S1x16 : Shape := ⟨2, ![1, 16]⟩

abbrev nBuf : Space → Nat
  | .hbm => 174
  | .vmem => 0
  | .smem => 0
  | _ => 0

abbrev hbmTy0_0 (i : Nat) : BufTy := match i % 128 with
  | 0 => ⟨S50000x128, .f32⟩
  | 1 => ⟨S2x800000, .i32⟩
  | 2 => ⟨S8192, .i32⟩
  | 3 => ⟨S128x256, .f32⟩
  | 4 => ⟨S256, .f32⟩
  | 5 => ⟨S256x1024, .f32⟩
  | 6 => ⟨S1024, .f32⟩
  | 7 => ⟨S1024, .f32⟩
  | 8 => ⟨S1024, .f32⟩
  | 9 => ⟨S1024x512, .f32⟩
  | 10 => ⟨S512, .f32⟩
  | 11 => ⟨S512, .f32⟩
  | 12 => ⟨S512, .f32⟩
  | 13 => ⟨S512x16, .f32⟩
  | 14 => ⟨S16, .f32⟩
  | 15 => ⟨S50000, .i32⟩
  | 16 => ⟨S1x800000, .i32⟩
  | 17 => ⟨S800000, .i32⟩
  | 18 => ⟨S850000, .i32⟩
  | 19 => ⟨S1x800000, .i32⟩
  | 20 => ⟨S800000, .i32⟩
  | 21 => ⟨S850000, .i32⟩
  | 22 => ⟨S_, .f32⟩
  | 23 => ⟨S850000, .f32⟩
  | 24 => ⟨S_, .f32⟩
  | 25 => ⟨S50000, .f32⟩
  | 26 => ⟨S850000x1, .i32⟩
  | 27 => ⟨S50000, .f32⟩
  | 28 => ⟨S_, .f32⟩
  | 29 => ⟨S50000, .f32⟩
  | 30 => ⟨S50000, .i1⟩
  | 31 => ⟨S_, .f32⟩
  | 32 => ⟨S50000, .f32⟩
  | 33 => ⟨S50000, .f32⟩
  | 34 => ⟨S50000, .f32⟩
  | 35 => ⟨S_, .f32⟩
  | 36 => ⟨S_, .f32⟩
  | 37 => ⟨S50000, .f32⟩
  | 38 => ⟨S50000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S_, .i32⟩
  | 49 => ⟨S850000, .i32⟩
  | 50 => ⟨S850000, .i1⟩
  | 51 => ⟨S_, .i32⟩
  | 52 => ⟨S850000, .i32⟩
  | 53 => ⟨S850000, .i32⟩
  | 54 => ⟨S850000, .i32⟩
  | 55 => ⟨S850000x1, .i32⟩
  | 56 => ⟨S850000, .f32⟩
  | 57 => ⟨S850000, .f32⟩
  | 58 => ⟨S50000x256, .f32⟩
  | 59 => ⟨S_, .i32⟩
  | 60 => ⟨S850000, .i32⟩
  | 61 => ⟨S850000, .i1⟩
  | 62 => ⟨S_, .i32⟩
  | 63 => ⟨S850000, .i32⟩
  | 64 => ⟨S850000, .i32⟩
  | 65 => ⟨S850000, .i32⟩
  | 66 => ⟨S850000x1, .i32⟩
  | 67 => ⟨S850000x256, .f32⟩
  | 68 => ⟨S850000x1, .f32⟩
  | 69 => ⟨S850000x256, .f32⟩
  | 70 => ⟨S850000x256, .f32⟩
  | 71 => ⟨S_, .f32⟩
  | 72 => ⟨S50000x256, .f32⟩
  | 73 => ⟨S850000x1, .i32⟩
  | 74 => ⟨S50000x256, .f32⟩
  | 75 => ⟨S1x256, .f32⟩
  | 76 => ⟨S50000x256, .f32⟩
  | 77 => ⟨S50000x256, .f32⟩
  | 78 => ⟨S_, .i32⟩
  | 79 => ⟨S8192, .i32⟩
  | 80 => ⟨S8192, .i1⟩
  | 81 => ⟨S_, .i32⟩
  | 82 => ⟨S8192, .i32⟩
  | 83 => ⟨S8192, .i32⟩
  | 84 => ⟨S8192, .i32⟩
  | 85 => ⟨S8192x1, .i32⟩
  | 86 => ⟨S8192x256, .f32⟩
  | 87 => ⟨S_, .f32⟩
  | 88 => ⟨S8192x256, .f32⟩
  | 89 => ⟨S8192x256, .f32⟩
  | 90 => ⟨S8192x1024, .f32⟩
  | 91 => ⟨S1x1024, .f32⟩
  | 92 => ⟨S8192x1024, .f32⟩
  | 93 => ⟨S8192x1024, .f32⟩
  | 94 => ⟨S_, .f32⟩
  | 95 => ⟨S8192, .f32⟩
  | 96 => ⟨S8192x1, .f32⟩
  | 97 => ⟨S_, .f32⟩
  | 98 => ⟨S8192x1, .f32⟩
  | 99 => ⟨S8192x1, .f32⟩
  | 100 => ⟨S8192x1024, .f32⟩
  | 101 => ⟨S8192x1024, .f32⟩
  | 102 => ⟨S8192x1024, .f32⟩
  | 103 => ⟨S_, .f32⟩
  | 104 => ⟨S8192, .f32⟩
  | 105 => ⟨S8192x1, .f32⟩
  | 106 => ⟨S_, .f32⟩
  | 107 => ⟨S8192x1, .f32⟩
  | 108 => ⟨S8192x1, .f32⟩
  | 109 => ⟨S8192x1024, .f32⟩
  | 110 => ⟨S8192x1024, .f32⟩
  | 111 => ⟨S_, .f32⟩
  | 112 => ⟨S8192x1, .f32⟩
  | 113 => ⟨S8192x1, .f32⟩
  | 114 => ⟨S8192x1, .f32⟩
  | 115 => ⟨S8192x1024, .f32⟩
  | 116 => ⟨S8192x1024, .f32⟩
  | 117 => ⟨S1x1024, .f32⟩
  | 118 => ⟨S8192x1024, .f32⟩
  | 119 => ⟨S8192x1024, .f32⟩
  | 120 => ⟨S1x1024, .f32⟩
  | 121 => ⟨S8192x1024, .f32⟩
  | 122 => ⟨S8192x1024, .f32⟩
  | 123 => ⟨S_, .f32⟩
  | 124 => ⟨S8192x1024, .f32⟩
  | 125 => ⟨S8192x1024, .f32⟩
  | 126 => ⟨S8192x512, .f32⟩
  | 127 => ⟨S1x512, .f32⟩
  | _ => ⟨S50000x128, .f32⟩

abbrev hbmTy0_1 (i : Nat) : BufTy := match i % 128 with
  | 0 => ⟨S8192x512, .f32⟩
  | 1 => ⟨S8192x512, .f32⟩
  | 2 => ⟨S_, .f32⟩
  | 3 => ⟨S8192, .f32⟩
  | 4 => ⟨S8192x1, .f32⟩
  | 5 => ⟨S_, .f32⟩
  | 6 => ⟨S8192x1, .f32⟩
  | 7 => ⟨S8192x1, .f32⟩
  | 8 => ⟨S8192x512, .f32⟩
  | 9 => ⟨S8192x512, .f32⟩
  | 10 => ⟨S8192x512, .f32⟩
  | 11 => ⟨S_, .f32⟩
  | 12 => ⟨S8192, .f32⟩
  | 13 => ⟨S8192x1, .f32⟩
  | 14 => ⟨S_, .f32⟩
  | 15 => ⟨S8192x1, .f32⟩
  | 16 => ⟨S8192x1, .f32⟩
  | 17 => ⟨S8192x512, .f32⟩
  | 18 => ⟨S8192x512, .f32⟩
  | 19 => ⟨S_, .f32⟩
  | 20 => ⟨S8192x1, .f32⟩
  | 21 => ⟨S8192x1, .f32⟩
  | 22 => ⟨S8192x1, .f32⟩
  | 23 => ⟨S8192x512, .f32⟩
  | 24 => ⟨S8192x512, .f32⟩
  | 25 => ⟨S1x512, .f32⟩
  | 26 => ⟨S8192x512, .f32⟩
  | 27 => ⟨S8192x512, .f32⟩
  | 28 => ⟨S1x512, .f32⟩
  | 29 => ⟨S8192x512, .f32⟩
  | 30 => ⟨S8192x512, .f32⟩
  | 31 => ⟨S_, .f32⟩
  | 32 => ⟨S8192x512, .f32⟩
  | 33 => ⟨S8192x512, .f32⟩
  | 34 => ⟨S8192x16, .f32⟩
  | 35 => ⟨S1x16, .f32⟩
  | 36 => ⟨S8192x16, .f32⟩
  | 37 => ⟨S8192x16, .f32⟩
  | 38 => ⟨S8192x16, .f32⟩
  | 39 => ⟨S8192x16, .f32⟩
  | 40 => ⟨S_, .f32⟩
  | 41 => ⟨S8192x16, .f32⟩
  | 42 => ⟨S8192x16, .f32⟩
  | 43 => ⟨S_, .f32⟩
  | 44 => ⟨S8192x16, .f32⟩
  | 45 => ⟨S8192x16, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_cst_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_v16 : Ref sig .tc := ⟨.hbm, 38, rfl⟩
abbrev main_c : Ref sig .tc := ⟨.hbm, 39, rfl⟩
abbrev main_v17 : Ref sig .tc := ⟨.hbm, 40, rfl⟩
abbrev main_v18 : Ref sig .tc := ⟨.hbm, 41, rfl⟩
abbrev main_c_4 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_c_5 : Ref sig .tc := ⟨.hbm, 48, rfl⟩
abbrev main_v24 : Ref sig .tc := ⟨.hbm, 49, rfl⟩
abbrev main_v25 : Ref sig .tc := ⟨.hbm, 50, rfl⟩
abbrev main_c_6 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_c_7 : Ref sig .tc := ⟨.hbm, 59, rfl⟩
abbrev main_v33 : Ref sig .tc := ⟨.hbm, 60, rfl⟩
abbrev main_v34 : Ref sig .tc := ⟨.hbm, 61, rfl⟩
abbrev main_c_8 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_9 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_c_10 : Ref sig .tc := ⟨.hbm, 78, rfl⟩
abbrev main_v49 : Ref sig .tc := ⟨.hbm, 79, rfl⟩
abbrev main_v50 : Ref sig .tc := ⟨.hbm, 80, rfl⟩
abbrev main_c_11 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_call1_cst : Ref sig .tc := ⟨.hbm, 87, rfl⟩
abbrev main_call1_v0 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_12 : Ref sig .tc := ⟨.hbm, 94, rfl⟩
abbrev main_v61 : Ref sig .tc := ⟨.hbm, 95, rfl⟩
abbrev main_v62 : Ref sig .tc := ⟨.hbm, 96, rfl⟩
abbrev main_cst_13 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_cst_14 : Ref sig .tc := ⟨.hbm, 103, rfl⟩
abbrev main_v68 : Ref sig .tc := ⟨.hbm, 104, rfl⟩
abbrev main_v69 : Ref sig .tc := ⟨.hbm, 105, rfl⟩
abbrev main_cst_15 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_cst_16 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_call2_cst : Ref sig .tc := ⟨.hbm, 123, rfl⟩
abbrev main_call2_v0 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_cst_17 : Ref sig .tc := ⟨.hbm, 130, rfl⟩
abbrev main_v90 : Ref sig .tc := ⟨.hbm, 131, rfl⟩
abbrev main_v91 : Ref sig .tc := ⟨.hbm, 132, rfl⟩
abbrev main_cst_18 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_cst_19 : Ref sig .tc := ⟨.hbm, 139, rfl⟩
abbrev main_v97 : Ref sig .tc := ⟨.hbm, 140, rfl⟩
abbrev main_v98 : Ref sig .tc := ⟨.hbm, 141, rfl⟩
abbrev main_cst_20 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_cst_21 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_call3_cst : Ref sig .tc := ⟨.hbm, 159, rfl⟩
abbrev main_call3_v0 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_cst_22 : Ref sig .tc := ⟨.hbm, 168, rfl⟩
abbrev main_v121 : Ref sig .tc := ⟨.hbm, 169, rfl⟩
abbrev main_v122 : Ref sig .tc := ⟨.hbm, 170, rfl⟩
abbrev main_cst_23 : Ref sig .tc := ⟨.hbm, 171, rfl⟩
abbrev main_v123 : Ref sig .tc := ⟨.hbm, 172, rfl⟩
abbrev main_v124 : Ref sig .tc := ⟨.hbm, 173, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S8192 : S_.BroadcastsInDim S8192 (![] : Fin 0 → Fin S8192.rank)
  bcast_S8192_S8192x1_0 : S8192.BroadcastsInDim S8192x1 (![0] : Fin 1 → Fin S8192x1.rank)
  bcast_S_S8192x256 : S_.BroadcastsInDim S8192x256 (![] : Fin 0 → Fin S8192x256.rank)
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  reducesTo_S8192x1024_S8192_d1 : S8192x1024.ReducesTo [1] S8192
  h_S_ : 0 < S_.numel
  bcast_S_S8192x1 : S_.BroadcastsInDim S8192x1 (![] : Fin 0 → Fin S8192x1.rank)
  bcast_S8192x1_S8192x1024_0_1 : S8192x1.BroadcastsInDim S8192x1024 (![0, 1] : Fin 2 → Fin S8192x1024.rank)
  bcast_S_S8192x1024 : S_.BroadcastsInDim S8192x1024 (![] : Fin 0 → Fin S8192x1024.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  reducesTo_S8192x512_S8192_d1 : S8192x512.ReducesTo [1] S8192
  bcast_S8192x1_S8192x512_0_1 : S8192x1.BroadcastsInDim S8192x512 (![0, 1] : Fin 2 → Fin S8192x512.rank)
  bcast_S_S8192x512 : S_.BroadcastsInDim S8192x512 (![] : Fin 0 → Fin S8192x512.rank)
  bcast_S16_S1x16_1 : S16.BroadcastsInDim S1x16 (![1] : Fin 1 → Fin S1x16.rank)
  bcast_S1x16_S8192x16_0_1 : S1x16.BroadcastsInDim S8192x16 (![0, 1] : Fin 2 → Fin S8192x16.rank)
  bcast_S_S8192x16 : S_.BroadcastsInDim S8192x16 (![] : Fin 0 → Fin S8192x16.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x256_S50000x256_1_0_0_1_n_n_wf : DotDims.WF S50000x128 S128x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  gather_S50000x256_S8192x1_S8192x256_1_0_n_n_0_1_1256_wf : GatherDims.WF S50000x256 S8192x1 S8192x256 [1] [0] [] [0] [] 1 ![1, 256]
  dot_S8192x256_S256x1024_S8192x1024_1_0_0_1_n_n_wf : DotDims.WF S8192x256 S256x1024 S8192x1024 [1] [0] [0] [1] [] []
  dot_S8192x1024_S1024x512_S8192x512_1_0_0_1_n_n_wf : DotDims.WF S8192x1024 S1024x512 S8192x512 [1] [0] [0] [1] [] []
  dot_S8192x512_S512x16_S8192x16_1_0_0_1_n_n_wf : DotDims.WF S8192x512 S512x16 S8192x16 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def gather_S50000x256_S8192x1_S8192x256_1_0_n_n_0_1_1256 : GatherDims S50000x256 S8192x1 S8192x256 where
  offsetDims := [1]
  collapsedSliceDims := [0]
  operandBatchingDims := []
  startIndicesBatchingDims := []
  startIndexMap := [0]
  indexVectorDim := 1
  sliceSizes := ![1, 256]
  wf := gather_S50000x256_S8192x1_S8192x256_1_0_n_n_0_1_1256_wf
def dot_S8192x256_S256x1024_S8192x1024_1_0_0_1_n_n : DotDims S8192x256 S256x1024 S8192x1024 where
  lhsContracting := [1]
  rhsContracting := [0]
  lhsNonContracting := [0]
  rhsNonContracting := [1]
  lhsBatch := []
  rhsBatch := []
  wf := dot_S8192x256_S256x1024_S8192x1024_1_0_0_1_n_n_wf
def dot_S8192x1024_S1024x512_S8192x512_1_0_0_1_n_n : DotDims S8192x1024 S1024x512 S8192x512 where
  lhsContracting := [1]
  rhsContracting := [0]
  lhsNonContracting := [0]
  rhsNonContracting := [1]
  lhsBatch := []
  rhsBatch := []
  wf := dot_S8192x1024_S1024x512_S8192x512_1_0_0_1_n_n_wf
def dot_S8192x512_S512x16_S8192x16_1_0_0_1_n_n : DotDims S8192x512 S512x16 S8192x16 where
  lhsContracting := [1]
  rhsContracting := [0]
  lhsNonContracting := [0]
  rhsNonContracting := [1]
  lhsBatch := []
  rhsBatch := []
  wf := dot_S8192x512_S512x16_S8192x16_1_0_0_1_n_n_wf

class Facts : Prop extends Facts₀ where

variable [Facts]
-- ==== Proof.FiniteInputs.lean ====
/-
  From the precondition to real entries.

  The precondition is the conjunction, over the thirteen float arguments, of `all (|a| < +∞)`. An extended real
  whose absolute value `max a (-a)` is below `+∞` is a real number. The graph convolution's commutation needs this of
  the node features and of the projection matrix, the first two conjuncts.
-/
import proofs.«177900_j35081292874064_2_alg».proof.Pre_finite_inputs
import Idealize.ShloMosaic.Lib.ReduceAll
import Idealize.ShloMosaic.Lib.Affine
import Idealize.ShloMosaic.Lib.ValueIdx
import Idealize.ShloMosaic.Lib.Pipeline.Value
import Idealize.ShloMosaic.PureOps.Ideal.Laws

noncomputable section

open Idealize.ShloMosaic Cert.Pre_finite_inputs

namespace Cert.FiniteInputs

/-- A rank-0 shape has one index. -/
instance : Subsingleton (⟨0, ![]⟩ : Shape).Idx := ⟨fun _ _ => funext fun d => d.elim0⟩

/-- The float word of `+∞` denotes `⊤`. -/
theorem ofBits_inf : Ideal.ofBits .f32 0x7F800000#32 = ⊤ := by
  simp [Ideal.ofBits, Ideal.ieee]

/-- An extended real whose absolute value is below `+∞` is a real number. -/
theorem real_of_abs_lt_top (x : EReal) (h : max x (-x) < ⊤) : ∃ r : ℝ, x = (r : EReal) := by
  induction x using EReal.rec with
  | bot => simp at h
  | top => simp at h
  | coe r => exact ⟨r, rfl⟩

/-- One conjunct of the precondition: `all (|a| < +∞)` makes every entry of `a` a real number. -/
theorem real_of_all {s : Shape} {axes : List (Fin s.rank)} (a : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (h : Host.reduce IntOp.andi (cmpf .olt (Host.absf a) (broadcastInDim s ![] hb (constant (F := Ideal) ⟨0, ![]⟩ .f32 0x7F800000#32)))
      (constantI ⟨0, ![]⟩ 1 1#1) hr hu ValueIdx.ix0 = 1#1) (i : s.Idx) :
    ∃ r : ℝ, a i = (r : EReal) := by
  have e := Host.reduce_andi_all _ _ hr hu _ h i
  have hB : broadcastInDim s ![] hb (constant (F := Ideal) ⟨0, ![]⟩ .f32 0x7F800000#32) i = Ideal.ofBits .f32 0x7F800000#32 :=
    broadcastInDim_apply _ hb _ i (fun d => d.elim0) (fun d => d.elim0)
  have e' : Ideal.cmp .olt (max (a i) (-(a i)))
      (broadcastInDim s ![] hb (constant (F := Ideal) ⟨0, ![]⟩ .f32 0x7F800000#32) i) = 1#1 := e
  rw [hB, ofBits_inf] at e'
  refine real_of_abs_lt_top (a i) ?_
  by_contra hn
  have h0 : Ideal.cmp .olt (max (a i) (-(a i))) ⊤ = 0#1 := by
    show BitVec.ofBool (decide (max (a i) (-(a i)) < ⊤)) = 0#1
    rw [decide_eq_false hn]
    rfl
  rw [h0] at e'
  exact absurd e' (by decide)

/-- UNDER THE PRECONDITION every node feature and every entry of the projection matrix is a real number. -/
theorem features_and_projection_real [Cert.Pre_finite_inputs.Facts]
    (a0 : FVec Ideal S50000x128 .f32) (a1 : IVec S2x800000 32) (a2 : IVec S8192 32) (a3 : FVec Ideal S128x256 .f32)
    (a4 : FVec Ideal S256 .f32) (a5 : FVec Ideal S256x1024 .f32) (a6 a7 a8 : FVec Ideal S1024 .f32)
    (a9 : FVec Ideal S1024x512 .f32) (a10 a11 a12 : FVec Ideal S512 .f32) (a13 : FVec Ideal S512x16 .f32)
    (a14 : FVec Ideal S16 .f32)
    (h : fn (F := Ideal) a0 a1 a2 a3 a4 a5 a6 a7 a8 a9 a10 a11 a12 a13 a14 = fun _ => 1#1) :
    (∀ i, ∃ r : ℝ, a0 i = (r : EReal)) ∧ (∀ i, ∃ r : ℝ, a3 i = (r : EReal)) := by
  have h0 := congrFun h ValueIdx.ix0
  dsimp only [fn, fn_part1, fn_part2, fn_part3] at h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨hx, hw⟩ := IntOp.andi_eq_one.1 h0
  exact ⟨real_of_all a0 _ _ _ hx, real_of_all a3 _ _ _ hw⟩

end Cert.FiniteInputs

end
-- ==== Proof.ActorHead.lean ====
/-
  The dense head of the actor network, row by row, on the extended reals.

  One row `h` of 256 pre-activations goes through: the positive part; an affine map to 1024 entries; layer
  normalisation (subtract the row's mean, scale by the reciprocal square root of the row's variance plus a small
  constant, then an elementwise gain and shift); the positive part; an affine map to 512 entries; layer normalisation;
  the positive part; an affine map to 16 entries; the logistic function. Sums are finite sums of extended reals, the
  quotient, the reciprocal square root and the logistic function are the ideal instance's, and the two float constants
  (the row length as a float, and the small constant) are parameters: the same binary words on both sides.
-/
import Idealize.ShloMosaic.PureOps.Ideal
import Idealize.ShloMosaic.Lib.ValueIdx

noncomputable section

open scoped BigOperators
open Idealize.ShloMosaic

namespace Cert.ActorHead

/-- An affine map of a row: `(a · W + b) j = Σ k, a k * W k j + b j`. -/
def dense {n p : Nat} (a : Fin n → EReal) (W : Fin n → Fin p → EReal) (b : Fin p → EReal) (j : Fin p) : EReal :=
  ∑ k : Fin n, a k * W k j + b j

/-- The mean of a row, its length given as the extended real `cnt`. -/
def mean {n : Nat} (cnt : EReal) (z : Fin n → EReal) : EReal :=
  Ideal.div (∑ l : Fin n, z l) cnt

/-- The (biased) variance of a row: the mean of the squared deviations from the mean. -/
def variance {n : Nat} (cnt : EReal) (z : Fin n → EReal) : EReal :=
  Ideal.div (∑ l : Fin n, (z l - mean cnt z) * (z l - mean cnt z)) cnt

/-- Layer normalisation of a row with gain `g` and shift `be`. -/
def layerNorm {n : Nat} (cnt eps : EReal) (z g be : Fin n → EReal) (k : Fin n) : EReal :=
  (z k - mean cnt z) * Ideal.rsqrt (variance cnt z + eps) * g k + be k

/-- The float 1024 (the first hidden width), 512 (the second), and the small constant added to a variance. -/
abbrev c1024 : EReal := Ideal.ofBits .f32 0x44800000#32
abbrev c512 : EReal := Ideal.ofBits .f32 0x44000000#32
abbrev epsLN : EReal := Ideal.ofBits .f32 0x3727C5AC#32

/-- The first hidden layer's activations of a row of pre-activations `h`. -/
def hidden1 (h : Fin 256 → EReal) (W1 : Fin 256 → Fin 1024 → EReal) (b1 g1 be1 : Fin 1024 → EReal) (n : Fin 1024) : EReal :=
  max (layerNorm c1024 epsLN (dense (fun j => max (h j) 0) W1 b1) g1 be1 n) 0

/-- The second hidden layer's activations. -/
def hidden2 (a1 : Fin 1024 → EReal) (W2 : Fin 1024 → Fin 512 → EReal) (b2 g2 be2 : Fin 512 → EReal) (p : Fin 512) : EReal :=
  max (layerNorm c512 epsLN (dense a1 W2 b2) g2 be2 p) 0

/-- THE HEAD of one row: 256 pre-activations to 16 action probabilities. -/
def head (h : Fin 256 → EReal) (W1 : Fin 256 → Fin 1024 → EReal) (b1 g1 be1 : Fin 1024 → EReal)
    (W2 : Fin 1024 → Fin 512 → EReal) (b2 g2 be2 : Fin 512 → EReal)
    (Wmu : Fin 512 → Fin 16 → EReal) (bmu : Fin 16 → EReal) (o : Fin 16) : EReal :=
  Ideal.logistic (dense (hidden2 (hidden1 h W1 b1 g1 be1) W2 b2 g2 be2) Wmu bmu o)

end Cert.ActorHead

end
-- ==== Proof.LibKeepdims.lean ====
/-
  Three layout facts for row-wise reductions with a kept unit axis (`jnp.sum(x, axis=-1, keepdims=True)` and what
  consumes it), read at an index built from literal coordinates:
    • a column [a, 1] broadcast to [a, b] reads, at (p, c), the column's entry of row p;
    • a vector [a] cast to the column [a, 1] reads, at (i, u), the vector's entry i;
    • the sum of a matrix [a, b] along its second axis, at the extended reals, is at row i the sum over k of the
      entries (i, k).
  They complete the library's small-shape lemmas (which have the row forms [1, b] → [a, b] and [a] → [1, a]).
-/
import Idealize.ShloMosaic.Lib.Pipeline.Value
import Idealize.ShloMosaic.Lib.ValueIdx
import Idealize.ShloMosaic.PureOps.Ideal.Laws

noncomputable section

namespace Cert.Lib.Keepdims

open Idealize.ShloMosaic Idealize.ShloMosaic.ValueIdx
open scoped BigOperators

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to the column `[a, 1]` reads, at `(i, u)`, the vector's entry `i`, whatever the unit
    coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The float sum of an `[a, b]` matrix along its second axis, at the extended reals, is at row `i` the sum of
    that row's entries. -/
theorem rowSum_apply {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (i : Fin a) :
    multiReduction .add [(1 : Fin 2)] ⟨1, ![a]⟩ src acc h hφ hacc (ix1 i) = ∑ k : Fin b, src (ix2 i k) :=
  (Ideal.multiReduction_add_single src acc h hφ hacc (ix1 i)).trans
    (Finset.sum_congr rfl fun k _ => congrArg src (funext fun c => Fin.ext (by
      match c with
      | ⟨0, _⟩ => rfl
      | ⟨1, _⟩ => rfl)))

end Cert.Lib.Keepdims

end
-- ==== Proof.KernelHead.lean ====
/-
  The kernel side of the dense head: the idealized kernel body's stored value, read at an index (p, q), is the
  specification's head of row p.

  The body is a chain of five pure values. Each is read at an index through a few small facts, every one stated for
  matrices of arbitrary extents and every one saying what ONE composite reads at (p, q) in terms of what its operands
  read on row p:
    • a matrix product into the zero accumulator plus a bias row is the affine map  Σ k, a k * W k q + b q;
    • the positive part followed by a change of format is  max · 0  (a change of format is the identity on extended reals);
    • the sum of a row divided by the row length is the mean; the deviations from it, the mean of their squares (the
      variance), and the deviation times the reciprocal square root of (variance + small constant) are the
      normalisation of the row;
    • a gain row multiplies and a shift row adds entry by entry.
  The float constants (the two row lengths and the small constant) stay as their binary words on both sides; only the
  zero word is evaluated.
-/
import proofs.«177900_j35081292874064_2_alg».proof.Proof.Gen.KernelIdeal.Skeleton
import proofs.«177900_j35081292874064_2_alg».proof.Proof.ActorHead
import proofs.«177900_j35081292874064_2_alg».proof.Proof.LibKeepdims
import Idealize.ShloMosaic.Lib.ValueLayout

noncomputable section

open scoped BigOperators
open Idealize.ShloMosaic Idealize.ShloMosaic.ValueIdx Cert.KernelIdeal Cert.KernelIdeal.Gen

namespace Cert.KernelHead

open Cert.ActorHead Cert.Lib.Keepdims

/-! ## One matrix product read at an index -/

/-- A plain matrix product (contract the left operand's columns with the right operand's rows, no batch axes) into the
    zero accumulator reads, at `(p, q)`, the sum over `k` of the products of the entries `(p, k)` and `(k, q)`. -/
theorem matmul_zero_apply {M K N : ℕ} {φ₁ φ₂ : FTy}
    (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision)
    (lhs : FVec Ideal ⟨2, ![M, K]⟩ φ₁) (rhs : FVec Ideal ⟨2, ![K, N]⟩ φ₂) (p : Fin M) (q : Fin N) :
    matmul D prec lhs rhs (constant ⟨2, ![M, N]⟩ .f32 0x00000000#32) (ix2 p q)
      = ∑ k : Fin K, lhs (ix2 p k) * rhs (ix2 k q) := by
  obtain ⟨lc, rc, ln, rn, lb, rb, wf⟩ := D
  simp only at hlc hrc hln hrn hlb hrb
  subst hlc hrc hln hrn hlb hrb
  refine (Ideal.matmul_constant_zero_apply _ prec lhs rhs (ix2 p q)).trans ?_
  rw [← Equiv.sum_comp (contrEquiv1 (DotDims.mk [1] [0] [0] [1] [] [] wf) K rfl rfl).symm]
  refine Finset.sum_congr rfl fun k _ => ?_
  have hk := contrEquiv1_symm_val (DotDims.mk [1] [0] [0] [1] [] [] wf) K rfl rfl k
  have el : (DotDims.mk [1] [0] [0] [1] [] [] wf).lhsIdx (ix2 p q)
      ((contrEquiv1 (DotDims.mk [1] [0] [0] [1] [] [] wf) K rfl rfl).symm k) = ix2 p k :=
    funext fun a => Fin.ext (by
      match a with
      | ⟨0, h0⟩ =>
        unfold DotDims.lhsIdx
        rw [dif_neg (List.not_mem_nil : ¬ (⟨0, h0⟩ : Fin (Shape.rank ⟨2, ![M, K]⟩)) ∈ []),
          dif_pos (List.mem_singleton.mpr rfl : (⟨0, h0⟩ : Fin (Shape.rank ⟨2, ![M, K]⟩)) ∈ [0])]
        rfl
      | ⟨1, _⟩ => exact (DotDims.lhsIdx_val_of_single _ rfl _ _).trans hk)
  have er : (DotDims.mk [1] [0] [0] [1] [] [] wf).rhsIdx (ix2 p q)
      ((contrEquiv1 (DotDims.mk [1] [0] [0] [1] [] [] wf) K rfl rfl).symm k) = ix2 k q :=
    funext fun a => Fin.ext (by
      match a with
      | ⟨0, _⟩ => exact (DotDims.rhsIdx_val_of_single _ rfl _ _).trans hk
      | ⟨1, h1⟩ =>
        unfold DotDims.rhsIdx
        rw [dif_neg (List.not_mem_nil : ¬ (⟨1, h1⟩ : Fin (Shape.rank ⟨2, ![K, N]⟩)) ∈ []),
          dif_pos (List.mem_singleton.mpr rfl : (⟨1, h1⟩ : Fin (Shape.rank ⟨2, ![K, N]⟩)) ∈ [1])]
        rfl)
  rw [el, er]

/-- An affine layer: the product into the zero accumulator plus a bias row broadcast over the rows is, at `(p, q)`,
    the specification's affine map of row `p` — whatever the operands are known to read at the indices used. -/
theorem affine_apply {M K N : ℕ} {φ₁ φ₂ : FTy}
    (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision)
    (lhs : FVec Ideal ⟨2, ![M, K]⟩ φ₁) (rhs : FVec Ideal ⟨2, ![K, N]⟩ φ₂) (bias : FVec Ideal ⟨2, ![1, N]⟩ .f32)
    (hb : (⟨2, ![1, N]⟩ : Shape).Broadcasts ⟨2, ![M, N]⟩) (p : Fin M) (q : Fin N)
    (ar : Fin K → EReal) (W : Fin K → Fin N → EReal) (b : Fin N → EReal)
    (hl : ∀ k, lhs (ix2 p k) = ar k) (hr : ∀ k j, rhs (ix2 k j) = W k j) (hbias : ∀ j, bias (ix2 (0 : Fin 1) j) = b j) :
    addf (matmul D prec lhs rhs (constant ⟨2, ![M, N]⟩ .f32 0x00000000#32)) (broadcastTo ⟨2, ![M, N]⟩ bias hb) (ix2 p q)
      = dense ar W b q := by
  show matmul D prec lhs rhs (constant ⟨2, ![M, N]⟩ .f32 0x00000000#32) (ix2 p q) + broadcastTo ⟨2, ![M, N]⟩ bias hb (ix2 p q) = _
  rw [matmul_zero_apply D hlc hrc hln hrn hlb hrb, broadcastTo_1b_ab_apply, hbias]
  unfold dense
  exact congrArg (· + b q) (Finset.sum_congr rfl fun k _ => by rw [hl k, hr k q])

/-- The positive part followed by a narrowing of the format (the identity on extended reals). -/
theorem relu_apply {s : Shape} (x : FVec Ideal s .f32) (h : FTy.bits .bf16 < FTy.bits .f32) (i : s.Idx) (y : EReal)
    (hx : x i = y) :
    truncf .bf16 (maximumf x (broadcast s (Scalar.ofBits .f32 0x00000000#32))) h i = max y 0 := by
  show max (x i) (Ideal.ofBits .f32 0x00000000#32) = _
  rw [Ideal.ofBits_zero_f32, hx]

/-- A row added to every row of a matrix. -/
theorem addRow_apply {a b : ℕ} (y : FVec Ideal ⟨2, ![a, b]⟩ .f32) (be : FVec Ideal ⟨2, ![1, b]⟩ .f32)
    (hb : (⟨2, ![1, b]⟩ : Shape).Broadcasts ⟨2, ![a, b]⟩) (p : Fin a) (n : Fin b) (yr br : EReal)
    (hy : y (ix2 p n) = yr) (hbe : be (ix2 (0 : Fin 1) n) = br) :
    addf y (broadcastTo ⟨2, ![a, b]⟩ be hb) (ix2 p n) = yr + br := by
  show y (ix2 p n) + broadcastTo ⟨2, ![a, b]⟩ be hb (ix2 p n) = _
  rw [broadcastTo_1b_ab_apply, hy, hbe]

/-- Every row of a matrix multiplied entry by entry by a row. -/
theorem mulRow_apply {a b : ℕ} (y : FVec Ideal ⟨2, ![a, b]⟩ .f32) (g : FVec Ideal ⟨2, ![1, b]⟩ .f32)
    (hb : (⟨2, ![1, b]⟩ : Shape).Broadcasts ⟨2, ![a, b]⟩) (p : Fin a) (n : Fin b) (yr gr : EReal)
    (hy : y (ix2 p n) = yr) (hg : g (ix2 (0 : Fin 1) n) = gr) :
    mulf y (broadcastTo ⟨2, ![a, b]⟩ g hb) (ix2 p n) = yr * gr := by
  show y (ix2 p n) * broadcastTo ⟨2, ![a, b]⟩ g hb (ix2 p n) = _
  rw [broadcastTo_1b_ab_apply, hy, hg]

/-! ## Row normalisation read at an index -/

/-- The sum of a matrix along its second axis with the zero accumulator, at row `i`. -/
theorem rowSum_zero_apply {a b : ℕ} (src : FVec Ideal ⟨2, ![a, b]⟩ .f32)
    (h : (⟨2, ![a, b]⟩ : Shape).Reduces [(1 : Fin 2)] ⟨1, ![a]⟩) (i : Fin a) :
    multiReduction .add [(1 : Fin 2)] ⟨1, ![a]⟩ src 0x00000000#32 h (.inl rfl) rfl (ix1 i) = ∑ k : Fin b, src (ix2 i k) :=
  rowSum_apply src 0x00000000#32 h (.inl rfl) rfl i

/-- The column of row means: each row's sum, kept as a column, divided by the float `wc`. -/
abbrev meanCol {a b : ℕ} (z : FVec Ideal ⟨2, ![a, b]⟩ .f32) (wc : BitVec 32)
    (hr : (⟨2, ![a, b]⟩ : Shape).Reduces [(1 : Fin 2)] ⟨1, ![a]⟩)
    (hsc : (⟨1, ![a]⟩ : Shape).ShapeCasts ⟨2, ![a, 1]⟩) : FVec Ideal ⟨2, ![a, 1]⟩ .f32 :=
  divf (shapeCast ⟨2, ![a, 1]⟩ (multiReduction .add [(1 : Fin 2)] ⟨1, ![a]⟩ z 0x00000000#32 hr (.inl rfl) rfl) hsc)
    (broadcast ⟨2, ![a, 1]⟩ (Scalar.ofBits .f32 wc))

/-- The matrix minus its column of row means. -/
abbrev centred {a b : ℕ} (z : FVec Ideal ⟨2, ![a, b]⟩ .f32) (wc : BitVec 32)
    (hr : (⟨2, ![a, b]⟩ : Shape).Reduces [(1 : Fin 2)] ⟨1, ![a]⟩)
    (hsc : (⟨1, ![a]⟩ : Shape).ShapeCasts ⟨2, ![a, 1]⟩)
    (hbc : (⟨2, ![a, 1]⟩ : Shape).Broadcasts ⟨2, ![a, b]⟩) : FVec Ideal ⟨2, ![a, b]⟩ .f32 :=
  subf z (broadcastTo ⟨2, ![a, b]⟩ (meanCol z wc hr hsc) hbc)

/-- The centred matrix times the column of reciprocal square roots of (row variance plus the float `we`). -/
abbrev normed {a b : ℕ} (z : FVec Ideal ⟨2, ![a, b]⟩ .f32) (wc we : BitVec 32)
    (hr : (⟨2, ![a, b]⟩ : Shape).Reduces [(1 : Fin 2)] ⟨1, ![a]⟩)
    (hsc : (⟨1, ![a]⟩ : Shape).ShapeCasts ⟨2, ![a, 1]⟩)
    (hbc : (⟨2, ![a, 1]⟩ : Shape).Broadcasts ⟨2, ![a, b]⟩) : FVec Ideal ⟨2, ![a, b]⟩ .f32 :=
  mulf (centred z wc hr hsc hbc)
    (broadcastTo ⟨2, ![a, b]⟩
      (rsqrt (addf
        (divf (shapeCast ⟨2, ![a, 1]⟩
            (multiReduction .add [(1 : Fin 2)] ⟨1, ![a]⟩ (mulf (centred z wc hr hsc hbc) (centred z wc hr hsc hbc))
              0x00000000#32 hr (.inl rfl) rfl) hsc)
          (broadcast ⟨2, ![a, 1]⟩ (Scalar.ofBits .f32 wc)))
        (broadcast ⟨2, ![a, 1]⟩ (Scalar.ofBits .f32 we))))
      hbc)

theorem meanCol_apply {a b : ℕ} (z : FVec Ideal ⟨2, ![a, b]⟩ .f32) (wc : BitVec 32)
    (hr : (⟨2, ![a, b]⟩ : Shape).Reduces [(1 : Fin 2)] ⟨1, ![a]⟩)
    (hsc : (⟨1, ![a]⟩ : Shape).ShapeCasts ⟨2, ![a, 1]⟩) (p : Fin a) (u : Fin 1)
    (zr : Fin b → EReal) (hz : ∀ l, z (ix2 p l) = zr l) :
    meanCol z wc hr hsc (ix2 p u) = mean (Ideal.ofBits .f32 wc) zr := by
  show Ideal.div (shapeCast ⟨2, ![a, 1]⟩ (multiReduction .add [(1 : Fin 2)] ⟨1, ![a]⟩ z 0x00000000#32 hr (.inl rfl) rfl) hsc (ix2 p u))
      (Ideal.ofBits .f32 wc) = _
  rw [shapeCast_a_a1_apply, rowSum_zero_apply]
  unfold mean
  exact congrArg (Ideal.div · (Ideal.ofBits .f32 wc)) (Finset.sum_congr rfl fun l _ => hz l)

theorem centred_apply {a b : ℕ} (z : FVec Ideal ⟨2, ![a, b]⟩ .f32) (wc : BitVec 32)
    (hr : (⟨2, ![a, b]⟩ : Shape).Reduces [(1 : Fin 2)] ⟨1, ![a]⟩)
    (hsc : (⟨1, ![a]⟩ : Shape).ShapeCasts ⟨2, ![a, 1]⟩)
    (hbc : (⟨2, ![a, 1]⟩ : Shape).Broadcasts ⟨2, ![a, b]⟩) (p : Fin a) (n : Fin b)
    (zr : Fin b → EReal) (hz : ∀ l, z (ix2 p l) = zr l) :
    centred z wc hr hsc hbc (ix2 p n) = zr n - mean (Ideal.ofBits .f32 wc) zr := by
  show z (ix2 p n) - broadcastTo ⟨2, ![a, b]⟩ (meanCol z wc hr hsc) hbc (ix2 p n) = _
  rw [broadcastTo_a1_ab_apply, meanCol_apply z wc hr hsc p 0 zr hz, hz]

/-- THE NORMALISATION of a row: at `(p, n)` the deviation from the row's mean times the reciprocal square root of the
    row's variance plus the small constant. -/
theorem normed_apply {a b : ℕ} (z : FVec Ideal ⟨2, ![a, b]⟩ .f32) (wc we : BitVec 32)
    (hr : (⟨2, ![a, b]⟩ : Shape).Reduces [(1 : Fin 2)] ⟨1, ![a]⟩)
    (hsc : (⟨1, ![a]⟩ : Shape).ShapeCasts ⟨2, ![a, 1]⟩)
    (hbc : (⟨2, ![a, 1]⟩ : Shape).Broadcasts ⟨2, ![a, b]⟩) (p : Fin a) (n : Fin b)
    (zr : Fin b → EReal) (hz : ∀ l, z (ix2 p l) = zr l) :
    normed z wc we hr hsc hbc (ix2 p n)
      = (zr n - mean (Ideal.ofBits .f32 wc) zr) * Ideal.rsqrt (variance (Ideal.ofBits .f32 wc) zr + Ideal.ofBits .f32 we) := by
  have hc : ∀ l, centred z wc hr hsc hbc (ix2 p l) = zr l - mean (Ideal.ofBits .f32 wc) zr :=
    fun l => centred_apply z wc hr hsc hbc p l zr hz
  show centred z wc hr hsc hbc (ix2 p n) * broadcastTo ⟨2, ![a, b]⟩ _ hbc (ix2 p n) = _
  rw [broadcastTo_a1_ab_apply, hc n]
  show _ * Ideal.rsqrt (Ideal.div (shapeCast ⟨2, ![a, 1]⟩
      (multiReduction .add [(1 : Fin 2)] ⟨1, ![a]⟩ (mulf (centred z wc hr hsc hbc) (centred z wc hr hsc hbc))
        0x00000000#32 hr (.inl rfl) rfl) hsc (ix2 p (0 : Fin 1))) (Ideal.ofBits .f32 wc) + Ideal.ofBits .f32 we) = _
  rw [shapeCast_a_a1_apply, rowSum_zero_apply]
  unfold variance
  refine congrArg (fun t => (zr n - mean (Ideal.ofBits .f32 wc) zr) * Ideal.rsqrt (Ideal.div t (Ideal.ofBits .f32 wc) + Ideal.ofBits .f32 we)) ?_
  refine Finset.sum_congr rfl fun l _ => ?_
  show centred z wc hr hsc hbc (ix2 p l) * centred z wc hr hsc hbc (ix2 p l) = _
  rw [hc l]

/-! ## The payloads read at an index -/

/-- The first block: the projected row, its positive part, the first affine layer, normalised (gain and shift are
    applied by the next block). -/
theorem pay2_apply (x0 : Vec Ideal S2048x128 .f32) (x1 : Vec Ideal S128x256 .f32) (x2 : Vec Ideal S1x256 .f32)
    (x3 : Vec Ideal S256x1024 .bf16) (x4 : Vec Ideal S1x1024 .f32) (p : Fin 2048) (n : Fin 1024) :
    k0_pay2 x0 x1 x2 x3 x4 (ix2 p n)
      = (dense (fun j => max (dense (fun k => x0 (ix2 p k)) (fun k j => x1 (ix2 k j)) (fun j => x2 (ix2 (0 : Fin 1) j)) j) 0)
            (fun k n => x3 (ix2 k n)) (fun n => x4 (ix2 (0 : Fin 1) n)) n
          - mean c1024 (dense (fun j => max (dense (fun k => x0 (ix2 p k)) (fun k j => x1 (ix2 k j)) (fun j => x2 (ix2 (0 : Fin 1) j)) j) 0)
            (fun k n => x3 (ix2 k n)) (fun n => x4 (ix2 (0 : Fin 1) n))))
        * Ideal.rsqrt (variance c1024 (dense (fun j => max (dense (fun k => x0 (ix2 p k)) (fun k j => x1 (ix2 k j)) (fun j => x2 (ix2 (0 : Fin 1) j)) j) 0)
            (fun k n => x3 (ix2 k n)) (fun n => x4 (ix2 (0 : Fin 1) n))) + epsLN) := by
  unfold k0_pay2
  refine normed_apply _ _ _ _ _ _ p n _ (fun l => ?_)
  refine affine_apply _ rfl rfl rfl rfl rfl rfl _ _ _ _ _ p l _ _ _ (fun j => ?_)
    (fun _ _ => congrFun (shapeCast_self _ _) _) (fun _ => congrFun (shapeCast_self _ _) _)
  refine relu_apply _ _ _ _ ?_
  exact affine_apply _ rfl rfl rfl rfl rfl rfl _ _ _ _ _ p j _ _ _ (fun _ => congrFun (shapeCast_self _ _) _)
    (fun _ _ => rfl) (fun _ => congrFun (shapeCast_self _ _) _)

/-- The first gain, as a matrix: every row is the gain row. -/
theorem pay3_apply (x5 : Vec Ideal S1x1024 .f32) (p : Fin 2048) (n : Fin 1024) :
    k0_pay3 x5 (ix2 p n) = x5 (ix2 (0 : Fin 1) n) := by
  unfold k0_pay3
  rw [broadcastTo_1b_ab_apply]
  exact congrFun (shapeCast_self _ _) _

/-- The second block, over whatever the first block produced: gain and shift, the positive part, the second affine
    layer, layer normalisation. -/
theorem pay4_apply (v35 v38 : FVec Ideal S2048x1024 .f32) (x6 : Vec Ideal S1x1024 .f32) (x7 : Vec Ideal S1024x512 .bf16)
    (x8 x9 x10 : Vec Ideal S1x512 .f32) (p : Fin 2048) (r : Fin 512) (a1 : Fin 1024 → EReal)
    (ha : ∀ n, max (v35 (ix2 p n) * v38 (ix2 p n) + x6 (ix2 (0 : Fin 1) n)) 0 = a1 n) :
    k0_pay4 v35 v38 x6 x7 x8 x9 x10 (ix2 p r)
      = layerNorm c512 epsLN (dense a1 (fun n r => x7 (ix2 n r)) (fun r => x8 (ix2 (0 : Fin 1) r)))
          (fun r => x9 (ix2 (0 : Fin 1) r)) (fun r => x10 (ix2 (0 : Fin 1) r)) r := by
  unfold k0_pay4 layerNorm
  refine addRow_apply _ _ _ p r _ _ ?_ (congrFun (shapeCast_self _ _) _)
  refine mulRow_apply _ _ _ p r _ _ ?_ (congrFun (shapeCast_self _ _) _)
  refine normed_apply _ _ _ _ _ _ p r _ (fun l => ?_)
  refine affine_apply _ rfl rfl rfl rfl rfl rfl _ _ _ _ _ p l _ _ _ (fun n => ?_)
    (fun _ _ => congrFun (shapeCast_self _ _) _) (fun _ => congrFun (shapeCast_self _ _) _)
  exact (relu_apply _ _ _ _ (addRow_apply _ _ _ p n _ _ rfl (congrFun (shapeCast_self _ _) _))).trans (ha n)

/-- The zero matrix the last positive part compares with. -/
theorem pay5_apply (p : Fin 2048) (r : Fin 512) : k0_pay5 (F := Ideal) (ix2 p r) = 0 := by
  unfold k0_pay5
  exact Ideal.ofBits_zero_f32

/-- The last block, over whatever the second block produced: the positive part, the last affine layer, the logistic
    function. -/
theorem pay1_apply (v79 v80 : FVec Ideal S2048x512 .f32) (x11 : Vec Ideal S512x16 .bf16) (x12 : Vec Ideal S1x16 .f32)
    (p : Fin 2048) (q : Fin 16) (a2 : Fin 512 → EReal) (ha : ∀ r, max (v79 (ix2 p r)) (v80 (ix2 p r)) = a2 r) :
    k0_pay1 v79 v80 x11 x12 (ix2 p q)
      = Ideal.logistic (dense a2 (fun r o => x11 (ix2 r o)) (fun o => x12 (ix2 (0 : Fin 1) o)) q) := by
  unfold k0_pay1
  refine congrArg Ideal.logistic ?_
  exact affine_apply _ rfl rfl rfl rfl rfl rfl _ _ _ _ _ p q _ _ _ (fun r => ha r)
    (fun _ _ => congrFun (shapeCast_self _ _) _) (fun _ => congrFun (shapeCast_self _ _) _)

/-- THE KERNEL BODY'S STORED VALUE at `(p, q)` is the specification's head of the projected row `p`. -/
theorem payload_apply (x0 : Vec Ideal S2048x128 .f32) (x1 : Vec Ideal S128x256 .f32) (x2 : Vec Ideal S1x256 .f32)
    (x3 : Vec Ideal S256x1024 .bf16) (x4 x5 x6 : Vec Ideal S1x1024 .f32) (x7 : Vec Ideal S1024x512 .bf16)
    (x8 x9 x10 : Vec Ideal S1x512 .f32) (x11 : Vec Ideal S512x16 .bf16) (x12 : Vec Ideal S1x16 .f32)
    (p : Fin 2048) (q : Fin 16) :
    k0_pay1 (k0_pay4 (k0_pay2 x0 x1 x2 x3 x4) (k0_pay3 x5) x6 x7 x8 x9 x10) (k0_pay5 (F := Ideal)) x11 x12 (ix2 p q)
      = Cert.ActorHead.head (Cert.ActorHead.dense (fun k => x0 (ix2 p k)) (fun k j => x1 (ix2 k j)) (fun j => x2 (ix2 (0 : Fin 1) j)))
          (fun k n => x3 (ix2 k n)) (fun n => x4 (ix2 (0 : Fin 1) n)) (fun n => x5 (ix2 (0 : Fin 1) n)) (fun n => x6 (ix2 (0 : Fin 1) n))
          (fun n r => x7 (ix2 n r)) (fun r => x8 (ix2 (0 : Fin 1) r)) (fun r => x9 (ix2 (0 : Fin 1) r)) (fun r => x10 (ix2 (0 : Fin 1) r))
          (fun r o => x11 (ix2 r o)) (fun o => x12 (ix2 (0 : Fin 1) o)) q := by
  unfold head
  refine pay1_apply _ _ _ _ p q _ (fun r => ?_)
  unfold hidden2
  refine congrArg₂ max ?_ (pay5_apply p r)
  refine pay4_apply _ _ _ _ _ _ _ p r _ (fun n => ?_)
  unfold hidden1 layerNorm
  rw [pay2_apply, pay3_apply]

end Cert.KernelHead

end
-- ==== Proof.LibRowGather.lean ====
/-
  `stablehlo.gather` of ROWS of a matrix and of ENTRIES of a vector at a column of start indices, read at an index.

  `x[idx]` of a matrix `x : [N, K]` (or a vector `x : [N]`) at an integer array `idx : [R]` lowers to a gather over the
  indices reshaped to `[R, 1]`: index_vector_dim 1, start_index_map `[0]`, collapsed_slice_dims `[0]`, and for the
  matrix offset_dims `[1]` with slice_sizes `[1, K]`. Result row `r` is the operand's row at the start index
  `idx[r, 0]`, read as a signed integer and clamped into `[0, N − 1]`.
-/
import Idealize.ShloMosaic.Lib.ValueIdx

noncomputable section

open Idealize.ShloMosaic Idealize.ShloMosaic.ValueIdx

namespace Cert.Lib.RowGather

variable {α : Type}

/-- The second axis is not the first. -/
private theorem one_ne_zero2 : ¬ ((1 : Fin 2) = 0) := by decide

/-- The dimension numbers of a row gather: operand `[N, K]`, start indices `[R, 1]`, result `[R, K]`; the conditions
    `wf` are decided on a program's literal shapes. -/
abbrev rowGatherDims (N K R : Nat)
    (wf : GatherDims.WF ⟨2, ![N, K]⟩ ⟨2, ![R, 1]⟩ ⟨2, ![R, K]⟩ [1] [0] [] [0] [] 1 ![1, K]) :
    GatherDims ⟨2, ![N, K]⟩ ⟨2, ![R, 1]⟩ ⟨2, ![R, K]⟩ where
  offsetDims := [1]
  collapsedSliceDims := [0]
  operandBatchingDims := []
  startIndicesBatchingDims := []
  startIndexMap := [0]
  indexVectorDim := 1
  sliceSizes := ![1, K]
  wf := wf

/-- THE ROW GATHER READ AT `(r, k)`: the operand at row `idx[r, 0]` (read signed, clamped into `[0, N − 1]`) and
    column `k`. -/
theorem rowGather_apply {N K R w : Nat} (hN : 0 < N)
    (wf : GatherDims.WF ⟨2, ![N, K]⟩ ⟨2, ![R, 1]⟩ ⟨2, ![R, K]⟩ [1] [0] [] [0] [] 1 ![1, K])
    (x : (⟨2, ![N, K]⟩ : Shape).Idx → α) (idx : IVec ⟨2, ![R, 1]⟩ w) (r : Fin R) (k : Fin K) :
    Host.gather (rowGatherDims N K R wf) x idx (ix2 r k)
      = x (ix2 (⟨min (idx (ix2 r (0 : Fin 1))).toInt.toNat (N - 1), by omega⟩ : Fin N) k) := by
  have h0 : ((rowGatherDims N K R wf).operandIdx (ix2 r k) idx (0 : Fin 2)).val
      = min (idx (ix2 r (0 : Fin 1))).toInt.toNat (N - 1) := by
    show (rowGatherDims N K R wf).start (ix2 r k) idx 0 + (rowGatherDims N K R wf).batchCoord (ix2 r k) 0
      + (rowGatherDims N K R wf).offCoord (ix2 r k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N K R wf).startIndexMap from List.mem_singleton.mpr rfl)]
    have hsi : (rowGatherDims N K R wf).siIdx (ix2 r k) ⟨List.idxOf (0 : Fin 2) (rowGatherDims N K R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  have h1 : ((rowGatherDims N K R wf).operandIdx (ix2 r k) idx (1 : Fin 2)).val = k.val := by
    show (rowGatherDims N K R wf).start (ix2 r k) idx 1 + (rowGatherDims N K R wf).batchCoord (ix2 r k) 1
      + (rowGatherDims N K R wf).offCoord (ix2 r k) 1 = _
    rw [GatherDims.batchCoord_eq_zero _ _ _ List.not_mem_nil]
    unfold GatherDims.start
    rw [dif_neg (show (1 : Fin 2) ∉ (rowGatherDims N K R wf).startIndexMap from
      fun h => absurd (List.mem_singleton.mp h) one_ne_zero2)]
    unfold GatherDims.offCoord
    rw [dif_pos ((GatherDims.mem_sKept _ _).mpr
      ⟨fun h => absurd (List.mem_singleton.mp h) one_ne_zero2, List.not_mem_nil⟩)]
    simp only [Nat.zero_add]
    rfl
  unfold Host.gather
  congr 1
  funext a
  refine Fin.ext ?_
  match a with
  | ⟨0, _⟩ => exact h0
  | ⟨1, _⟩ => exact h1

/-- The dimension numbers of an entry gather: operand `[N]`, start indices `[R, 1]`, result `[R]`; the conditions
    `wf` are decided on a program's literal shapes. -/
abbrev vecGatherDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE ENTRY GATHER READ AT `r`: the operand at the start index `idx[r, 0]`, read signed and clamped into
    `[0, N − 1]`. -/
theorem vecGather_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (vecGatherDims N R wf) x idx (ix1 r)
      = x (ix1 (⟨min (idx (ix2 r (0 : Fin 1))).toInt.toNat (N - 1), by omega⟩ : Fin N)) := by
  unfold Host.gather
  congr 1
  funext a
  obtain rfl : a = 0 := Subsingleton.elim _ _
  refine Fin.ext ?_
  show (vecGatherDims N R wf).start (ix1 r) idx 0 + (vecGatherDims N R wf).batchCoord (ix1 r) 0
    + (vecGatherDims N R wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N R wf).startIndexMap from List.mem_singleton.mpr rfl)]
  have hsi : (vecGatherDims N R wf).siIdx (ix1 r) ⟨List.idxOf (0 : Fin 1) (vecGatherDims N R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

end Cert.Lib.RowGather

end
-- ==== Proof.LibIndexNorm.lean ====
/-
  Index normalisation and broadcasts, read at an index.

  `x[i]` in jnp first wraps a negative index: `select(i < 0, i + n, i)`. On a non-negative index (read signed) the wrap
  is the identity. And the broadcasts that surround a gather or scatter — a vector as a one-column matrix, a one-column
  matrix spread over `K` columns, a vector as a one-row matrix, a one-row matrix spread over `R` rows — each read one
  element of their operand.
-/
import Idealize.ShloMosaic.Lib.ValueIdx
import Idealize.ShloMosaic.Lib.Pipeline.Value

noncomputable section

open Idealize.ShloMosaic Idealize.ShloMosaic.ValueIdx

namespace Cert.Lib.IndexNorm

/-! ## The negative-index wrap on a non-negative index -/

/-- A 32-bit word that is non-negative read signed is not signed-less-than zero. -/
theorem slt_zero_of_nonneg (x : BitVec 32) (h : 0 ≤ x.toInt) : IntOp.cmpi .slt x 0#32 = 0#1 := by
  have hs : x.slt 0#32 = false := by
    unfold BitVec.slt
    exact decide_eq_false (by simpa using h)
  show BitVec.ofBool (x.slt 0#32) = 0#1
  rw [hs]
  rfl

/-- A select on "the word is negative" takes its second branch on a non-negative word. -/
theorem select_slt_zero_of_nonneg {α : Type} (x : BitVec 32) (a b : α) (h : 0 ≤ x.toInt) :
    Scalar.select (IntOp.cmpi .slt x 0#32) a b = b := by
  rw [slt_zero_of_nonneg x h]
  exact select_zero a b

/-- THE WRAP ON A NON-NEGATIVE INDEX is the index: `select(x < 0, x + n, x) = x`. -/
theorem wrap_of_nonneg (x n : BitVec 32) (h : 0 ≤ x.toInt) :
    Scalar.select (IntOp.cmpi .slt x 0#32) (IntOp.addi x n) x = x :=
  select_slt_zero_of_nonneg x _ _ h

/-- The vector form, at an index `i` where the compared vector `z` is `0` and `x` is non-negative. -/
theorem select_wrap_apply {s : Shape} (x z n : IVec s 32) (i : s.Idx) (hz : z i = 0#32) (h : 0 ≤ (x i).toInt) :
    select (cmpi .slt x z) (addi x n) x i = x i := by
  show Scalar.select (IntOp.cmpi .slt (x i) (z i)) (IntOp.addi (x i) (n i)) (x i) = x i
  rw [hz]
  exact wrap_of_nonneg (x i) (n i) h

/-! ## Broadcasts at an index -/

section Broadcast
variable {α : Type}

/-- A vector `[R]` as a one-column matrix `[R, 1]`: element `(r, 0)` is the vector's element `r`. -/
theorem bcast_col_apply {R : Nat} (x : (⟨1, ![R]⟩ : Shape).Idx → α)
    (h : (⟨1, ![R]⟩ : Shape).BroadcastsInDim ⟨2, ![R, 1]⟩ ![0]) (r : Fin R) :
    broadcastInDim ⟨2, ![R, 1]⟩ ![0] h x (ix2 r (0 : Fin 1)) = x (ix1 r) := by
  refine broadcastInDim_apply _ h x _ (ix1 r) (fun a => ?_)
  obtain rfl : a = 0 := Subsingleton.elim _ _
  show r.val = if R = 1 then 0 else r.val
  split
  · have := r.isLt; omega
  · rfl

/-- A one-column matrix `[R, 1]` spread over `K` columns: element `(r, k)` is the column's element `(r, 0)`. -/
theorem bcast_cols_apply {R K : Nat} (x : (⟨2, ![R, 1]⟩ : Shape).Idx → α)
    (h : (⟨2, ![R, 1]⟩ : Shape).BroadcastsInDim ⟨2, ![R, K]⟩ ![0, 1]) (r : Fin R) (k : Fin K) :
    broadcastInDim ⟨2, ![R, K]⟩ ![0, 1] h x (ix2 r k) = x (ix2 r (0 : Fin 1)) := by
  refine broadcastInDim_apply _ h x _ (ix2 r (0 : Fin 1)) (fun a => ?_)
  match a with
  | ⟨0, _⟩ =>
    show r.val = if R = 1 then 0 else r.val
    split
    · have := r.isLt; omega
    · rfl
  | ⟨1, _⟩ =>
    show 0 = if (1 : Nat) = 1 then 0 else k.val
    rw [if_pos rfl]

/-- A vector `[K]` as a one-row matrix `[1, K]`: element `(0, k)` is the vector's element `k`. -/
theorem bcast_row_apply {K : Nat} (x : (⟨1, ![K]⟩ : Shape).Idx → α)
    (h : (⟨1, ![K]⟩ : Shape).BroadcastsInDim ⟨2, ![1, K]⟩ ![1]) (k : Fin K) :
    broadcastInDim ⟨2, ![1, K]⟩ ![1] h x (ix2 (0 : Fin 1) k) = x (ix1 k) := by
  refine broadcastInDim_apply _ h x _ (ix1 k) (fun a => ?_)
  obtain rfl : a = 0 := Subsingleton.elim _ _
  show k.val = if K = 1 then 0 else k.val
  split
  · have := k.isLt; omega
  · rfl

/-- A one-row matrix `[1, K]` spread over `R` rows: element `(r, k)` is the row's element `(0, k)`. -/
theorem bcast_rows_apply {R K : Nat} (x : (⟨2, ![1, K]⟩ : Shape).Idx → α)
    (h : (⟨2, ![1, K]⟩ : Shape).BroadcastsInDim ⟨2, ![R, K]⟩ ![0, 1]) (r : Fin R) (k : Fin K) :
    broadcastInDim ⟨2, ![R, K]⟩ ![0, 1] h x (ix2 r k) = x (ix2 (0 : Fin 1) k) := by
  refine broadcastInDim_apply _ h x _ (ix2 (0 : Fin 1) k) (fun a => ?_)
  match a with
  | ⟨0, _⟩ =>
    show 0 = if (1 : Nat) = 1 then 0 else r.val
    rw [if_pos rfl]
  | ⟨1, _⟩ =>
    show k.val = if K = 1 then 0 else k.val
    split
    · have := k.isLt; omega
    · rfl

/-- A vector `[K]` as a row spread over `R` rows (the two broadcasts composed): element `(r, k)` is the vector's `k`. -/
theorem bcast_row_rows_apply {R K : Nat} (x : (⟨1, ![K]⟩ : Shape).Idx → α)
    (h₁ : (⟨1, ![K]⟩ : Shape).BroadcastsInDim ⟨2, ![1, K]⟩ ![1])
    (h₂ : (⟨2, ![1, K]⟩ : Shape).BroadcastsInDim ⟨2, ![R, K]⟩ ![0, 1]) (r : Fin R) (k : Fin K) :
    broadcastInDim ⟨2, ![R, K]⟩ ![0, 1] h₂ (broadcastInDim ⟨2, ![1, K]⟩ ![1] h₁ x) (ix2 r k) = x (ix1 k) :=
  (bcast_rows_apply _ h₂ r k).trans (bcast_row_apply x h₁ k)

/-- A vector `[R]` as a column spread over `K` columns (the two broadcasts composed): element `(r, k)` is the
    vector's `r`. -/
theorem bcast_col_cols_apply {R K : Nat} (x : (⟨1, ![R]⟩ : Shape).Idx → α)
    (h₁ : (⟨1, ![R]⟩ : Shape).BroadcastsInDim ⟨2, ![R, 1]⟩ ![0])
    (h₂ : (⟨2, ![R, 1]⟩ : Shape).BroadcastsInDim ⟨2, ![R, K]⟩ ![0, 1]) (r : Fin R) (k : Fin K) :
    broadcastInDim ⟨2, ![R, K]⟩ ![0, 1] h₂ (broadcastInDim ⟨2, ![R, 1]⟩ ![0] h₁ x) (ix2 r k) = x (ix1 r) :=
  (bcast_cols_apply _ h₂ r k).trans (bcast_col_apply x h₁ r)

end Broadcast

end Cert.Lib.IndexNorm

end
-- ==== Proof.LibRowScatterAdd.lean ====
/-
  `stablehlo.scatter` with an `add` body of ROWS into a matrix at a column of scatter indices, read at an index.

  `zeros((N, K)).at[idx].add(u)` with `idx : [E]` and `u : [E, K]` lowers to a scatter over the indices reshaped to
  `[E, 1]`: update_window_dims `[1]`, inserted_window_dims `[0]`, scatter_dims_to_operand_dims `[0]`,
  index_vector_dim 1. Update element `(e, k)` lands on operand element `(v, k)` exactly when the scatter index
  `idx[e, 0]`, read as a signed integer and NOT clamped, is `v`. At the ideal instance the result element is the sum
  of the updates landing on it, so scaling every update that can land on a row by a non-negative real scales that row.
-/
import Idealize.ShloMosaic.Lib.ValueIdx
import Idealize.ShloMosaic.PureOps.Ideal

noncomputable section

open scoped BigOperators

open Idealize.ShloMosaic Idealize.ShloMosaic.ValueIdx

namespace Cert.Lib.RowScatterAdd

/-- The second axis is not the first. -/
private theorem one_ne_zero2 : ¬ ((1 : Fin 2) = 0) := by decide

/-- The dimension numbers of a row scatter: operand `[N, K]`, scatter indices `[E, 1]`, updates `[E, K]`; the
    conditions `wf` are decided on a program's literal shapes. -/
abbrev rowScatterDims (N K E : Nat) (wf : ScatterDims.WF ⟨2, ![N, K]⟩ ⟨2, ![E, 1]⟩ ⟨2, ![E, K]⟩ [1] [0] [0] 1) :
    ScatterDims ⟨2, ![N, K]⟩ ⟨2, ![E, 1]⟩ ⟨2, ![E, K]⟩ where
  updateWindowDims := [1]
  insertedWindowDims := [0]
  scatterDimsToOperandDims := [0]
  indexVectorDim := 1
  wf := wf

section Coordinates
variable {N K E w : Nat} (wf : ScatterDims.WF ⟨2, ![N, K]⟩ ⟨2, ![E, 1]⟩ ⟨2, ![E, K]⟩ [1] [0] [0] 1)
  (idx : IVec ⟨2, ![E, 1]⟩ w) (j : (⟨2, ![E, K]⟩ : Shape).Idx)

/-- On the row axis the window starts at the update row's scatter index, read signed. -/
theorem start_row : (rowScatterDims N K E wf).start j idx (0 : Fin 2) = (idx (ix2 (j 0) (0 : Fin 1))).toInt := by
  unfold ScatterDims.start
  rw [dif_pos (show (0 : Fin 2) ∈ (rowScatterDims N K E wf).scatterDimsToOperandDims from List.mem_singleton.mpr rfl)]
  have hsi : (rowScatterDims N K E wf).siIdx j ⟨List.idxOf (0 : Fin 2) (rowScatterDims N K E wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the column axis the window starts at 0. -/
theorem start_col : (rowScatterDims N K E wf).start j idx (1 : Fin 2) = 0 := by
  unfold ScatterDims.start
  rw [dif_neg (show (1 : Fin 2) ∉ (rowScatterDims N K E wf).scatterDimsToOperandDims from
    fun h => absurd (List.mem_singleton.mp h) one_ne_zero2)]

/-- The row axis is inserted: its window coordinate is 0. -/
theorem window_row : (rowScatterDims N K E wf).window j (0 : Fin 2) = 0 := by
  unfold ScatterDims.window
  rw [dif_neg (show (0 : Fin 2) ∉ (rowScatterDims N K E wf).sKept from by
    simp [ScatterDims.sKept, Shape.kept, List.mem_filter])]

/-- The column axis's window coordinate is the update's column. -/
theorem window_col : (rowScatterDims N K E wf).window j (1 : Fin 2) = (j 1).val := by
  unfold ScatterDims.window
  rw [dif_pos (show (1 : Fin 2) ∈ (rowScatterDims N K E wf).sKept from by
    simp [ScatterDims.sKept, Shape.kept, List.mem_filter, List.mem_finRange])]
  rfl

end Coordinates

/-- An update element lands on operand element `i` only if its row's scatter index, read SIGNED and unclamped, is
    exactly `i`'s row; its column is kept. -/
theorem rowScatter_resultIdx_some {N K E w : Nat} (wf : ScatterDims.WF ⟨2, ![N, K]⟩ ⟨2, ![E, 1]⟩ ⟨2, ![E, K]⟩ [1] [0] [0] 1)
    (idx : IVec ⟨2, ![E, 1]⟩ w) (j : (⟨2, ![E, K]⟩ : Shape).Idx) (i : (⟨2, ![N, K]⟩ : Shape).Idx)
    (h : (rowScatterDims N K E wf).resultIdx? j idx = some i) :
    (idx (ix2 (j 0) (0 : Fin 1))).toInt = ((i 0).val : Int) ∧ (j 1).val = (i 1).val := by
  unfold ScatterDims.resultIdx? at h
  split at h
  · rename_i hc
    obtain rfl := Option.some.inj h
    have h0 := (hc (0 : Fin 2)).1
    rw [start_row, window_row] at h0
    refine ⟨?_, ?_⟩
    · show _ = (((((rowScatterDims N K E wf).start j idx (0 : Fin 2)
        + ((rowScatterDims N K E wf).window j (0 : Fin 2) : Int)).toNat : Nat)) : Int)
      rw [start_row, window_row]
      omega
    · show _ = ((rowScatterDims N K E wf).start j idx (1 : Fin 2)
        + ((rowScatterDims N K E wf).window j (1 : Fin 2) : Int)).toNat
      rw [start_col, window_col]
      omega
  · exact absurd h (by simp)

/-- Conversely, an update element whose row's scatter index, read signed, is `i`'s row and whose column is `i`'s
    column lands on `i`. -/
theorem rowScatter_resultIdx_of_eq {N K E w : Nat} (wf : ScatterDims.WF ⟨2, ![N, K]⟩ ⟨2, ![E, 1]⟩ ⟨2, ![E, K]⟩ [1] [0] [0] 1)
    (idx : IVec ⟨2, ![E, 1]⟩ w) (j : (⟨2, ![E, K]⟩ : Shape).Idx) (i : (⟨2, ![N, K]⟩ : Shape).Idx)
    (h0 : (idx (ix2 (j 0) (0 : Fin 1))).toInt = ((i 0).val : Int)) (h1 : (j 1).val = (i 1).val) :
    (rowScatterDims N K E wf).resultIdx? j idx = some i := by
  have hi0 : (i 0).val < N := idx2_lt0 i
  have hi1 : (i 1).val < K := idx2_lt1 i
  have hc : ∀ a : Fin 2, 0 ≤ (rowScatterDims N K E wf).start j idx a + ((rowScatterDims N K E wf).window j a : Int)
      ∧ (rowScatterDims N K E wf).start j idx a + ((rowScatterDims N K E wf).window j a : Int)
        < ((⟨2, ![N, K]⟩ : Shape).size a : Int) := by
    intro a
    match a with
    | ⟨0, _⟩ =>
      show 0 ≤ (rowScatterDims N K E wf).start j idx (0 : Fin 2) + ((rowScatterDims N K E wf).window j (0 : Fin 2) : Int)
        ∧ (rowScatterDims N K E wf).start j idx (0 : Fin 2) + ((rowScatterDims N K E wf).window j (0 : Fin 2) : Int) < (N : Int)
      rw [start_row, window_row, h0]; omega
    | ⟨1, _⟩ =>
      show 0 ≤ (rowScatterDims N K E wf).start j idx (1 : Fin 2) + ((rowScatterDims N K E wf).window j (1 : Fin 2) : Int)
        ∧ (rowScatterDims N K E wf).start j idx (1 : Fin 2) + ((rowScatterDims N K E wf).window j (1 : Fin 2) : Int) < (K : Int)
      rw [start_col, window_col, h1]; omega
  unfold ScatterDims.resultIdx?
  rw [dif_pos hc]
  congr 1
  funext a
  refine Fin.ext ?_
  match a with
  | ⟨0, _⟩ =>
    show ((rowScatterDims N K E wf).start j idx (0 : Fin 2)
      + ((rowScatterDims N K E wf).window j (0 : Fin 2) : Int)).toNat = (i 0).val
    rw [start_row, window_row, h0]; omega
  | ⟨1, _⟩ =>
    show ((rowScatterDims N K E wf).start j idx (1 : Fin 2)
      + ((rowScatterDims N K E wf).window j (1 : Fin 2) : Int)).toNat = (i 1).val
    rw [start_col, window_col, h1]; omega

/-- Multiplication by a non-negative real distributes over a finite sum of extended reals, infinities included. -/
theorem sum_mul_coe_of_nonneg {ι : Type} (s : Finset ι) (f : ι → EReal) (c : ℝ) (hc : 0 ≤ c) :
    ∑ j ∈ s, f j * (c : EReal) = (∑ j ∈ s, f j) * (c : EReal) := by
  classical
  induction s using Finset.induction_on with
  | empty => simp
  | insert a s ha ih =>
    rw [Finset.sum_insert ha, Finset.sum_insert ha, ih,
      EReal.right_distrib_of_nonneg_of_ne_top (EReal.coe_nonneg.mpr hc) (EReal.coe_ne_top c)]

/-- SCALING A ROW OF A SCATTER-ADD INTO ZEROS: if every update element whose row's scatter index is `i`'s row is a
    non-negative real `c` times the corresponding element of a second update array, the accumulated element `i` is
    `c` times the second scatter-add's element `i`. -/
theorem rowScatterAdd_scale {N K E w : Nat} (wf : ScatterDims.WF ⟨2, ![N, K]⟩ ⟨2, ![E, 1]⟩ ⟨2, ![E, K]⟩ [1] [0] [0] 1)
    (idx : IVec ⟨2, ![E, 1]⟩ w) (u₁ u₂ : (⟨2, ![E, K]⟩ : Shape).Idx → EReal) (c : ℝ) (hc : 0 ≤ c)
    (i : (⟨2, ![N, K]⟩ : Shape).Idx)
    (h : ∀ j : (⟨2, ![E, K]⟩ : Shape).Idx, (idx (ix2 (j 0) (0 : Fin 1))).toInt = ((i 0).val : Int) → u₁ j = u₂ j * (c : EReal)) :
    Ideal.hostScatterAdd (rowScatterDims N K E wf) (fun _ => (0 : EReal)) idx u₁ i
      = Ideal.hostScatterAdd (rowScatterDims N K E wf) (fun _ => (0 : EReal)) idx u₂ i * (c : EReal) := by
  unfold Ideal.hostScatterAdd
  simp only [zero_add]
  rw [← sum_mul_coe_of_nonneg _ _ c hc]
  refine Finset.sum_congr rfl fun j hj => ?_
  exact h j (rowScatter_resultIdx_some wf idx j i (Finset.mem_filter.mp hj).2).1

end Cert.Lib.RowScatterAdd

end
-- ==== Proof.LibScatterLinear.lean ====
/-
  A row scatter-add into zeros read as a sum over the update rows that land on a row, and the linear-algebra fact
  that lets a matrix product move across such a weighted sum.

  For a scatter index column `idx : [E, 1]`, the scatter-add of update rows `u : [E, K]` into the zero matrix has,
  at `(v, k)`, the sum of `u (e, k)` over the update rows `e` whose scatter index, read as a signed integer, is `v`.
  And for real families `a e k`, `n e`, `w k`:
  `Σ k, (Σ e ∈ S, a e k * n e) * w k = Σ e ∈ S, (Σ k, a e k * w k) * n e` — both are the double sum of
  `a e k * n e * w k`. Over the extended reals this needs every entry to be a real number (at infinities a product
  does not distribute over a sum), which is how it is stated.
-/
import Idealize.ShloMosaic.Lib.ValueIdx
import Idealize.ShloMosaic.PureOps.Ideal
import proofs.«177900_j35081292874064_2_alg».proof.Proof.LibRowScatterAdd

noncomputable section

open scoped BigOperators

open Idealize.ShloMosaic Idealize.ShloMosaic.ValueIdx Cert.Lib.RowScatterAdd

namespace Cert.Lib.ScatterLinear

/-- At the ideal instance the host's float scatter-add is the sum of the landing updates (one value at every schedule). -/
theorem scatterAdd_ideal {s si su : Shape} {w : Nat} {φ : FTy} (d : ScatterDims s si su) (x : FVec Ideal s φ) (idx : IVec si w)
    (u : FVec Ideal su φ) : Host.scatterAdd d x idx u = Ideal.hostScatterAdd d x idx u := rfl

/-- THE ROW SCATTER-ADD INTO ZEROS READ AT `(v, k)`: the sum of the updates' column `k` over the update rows whose
    scatter index, read signed, is `v`. -/
theorem rowScatterAdd_zero_apply {N K E w : Nat}
    (wf : ScatterDims.WF ⟨2, ![N, K]⟩ ⟨2, ![E, 1]⟩ ⟨2, ![E, K]⟩ [1] [0] [0] 1)
    (idx : IVec ⟨2, ![E, 1]⟩ w) (u : (⟨2, ![E, K]⟩ : Shape).Idx → EReal) (v : Fin N) (k : Fin K) :
    Ideal.hostScatterAdd (rowScatterDims N K E wf) (fun _ => (0 : EReal)) idx u (ix2 v k)
      = ∑ e ∈ Finset.univ.filter (fun e : Fin E => (idx (ix2 e (0 : Fin 1))).toInt = ((v.val : Nat) : Int)),
          u (ix2 e k) := by
  unfold Ideal.hostScatterAdd
  simp only [zero_add]
  refine Finset.sum_nbij' (fun j => (j 0 : Fin E)) (fun e => ix2 e k) ?_ ?_ ?_ ?_ ?_
  · intro j hj
    have h := rowScatter_resultIdx_some wf idx j (ix2 v k) (Finset.mem_filter.mp hj).2
    exact Finset.mem_filter.mpr ⟨Finset.mem_univ _, h.1⟩
  · intro e he
    exact Finset.mem_filter.mpr ⟨Finset.mem_univ _,
      rowScatter_resultIdx_of_eq wf idx (ix2 e k) (ix2 v k) (Finset.mem_filter.mp he).2 rfl⟩
  · intro j hj
    have h := rowScatter_resultIdx_some wf idx j (ix2 v k) (Finset.mem_filter.mp hj).2
    have hk : (j 1 : Fin K) = k := Fin.ext h.2
    rw [← hk]
    exact (eq_ix2 j).symm
  · intro e _
    rfl
  · intro j hj
    have h := rowScatter_resultIdx_some wf idx j (ix2 v k) (Finset.mem_filter.mp hj).2
    have hk : (j 1 : Fin K) = k := Fin.ext h.2
    rw [← hk]
    exact congrArg u (eq_ix2 j)

/-- The coercion of a finite sum of reals is the sum of the coercions. -/
theorem coe_finset_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Moving a matrix product across a weighted sum, for real entries. -/
theorem sum_mul_sum_comm_real {ι κ : Type} [Fintype κ] (S : Finset ι) (a : ι → κ → ℝ) (n : ι → ℝ) (w : κ → ℝ) :
    ∑ k : κ, (∑ e ∈ S, ((a e k : ℝ) : EReal) * ((n e : ℝ) : EReal)) * ((w k : ℝ) : EReal)
      = ∑ e ∈ S, (∑ k : κ, ((a e k : ℝ) : EReal) * ((w k : ℝ) : EReal)) * ((n e : ℝ) : EReal) := by
  simp only [← EReal.coe_mul, ← coe_finset_sum]
  refine congrArg _ ?_
  simp only [Finset.sum_mul]
  rw [Finset.sum_comm]
  refine Finset.sum_congr rfl fun e _ => Finset.sum_congr rfl fun k _ => ?_
  ring

/-- THE SAME over the extended reals, for entries each of which is a real number. -/
theorem sum_mul_sum_comm {ι κ : Type} [Fintype κ] (S : Finset ι) (a : ι → κ → EReal) (n : ι → EReal) (w : κ → EReal)
    (ha : ∀ e k, ∃ r : ℝ, a e k = (r : EReal)) (hn : ∀ e, ∃ r : ℝ, n e = (r : EReal))
    (hw : ∀ k, ∃ r : ℝ, w k = (r : EReal)) :
    ∑ k : κ, (∑ e ∈ S, a e k * n e) * w k = ∑ e ∈ S, (∑ k : κ, a e k * w k) * n e := by
  choose ar har using ha
  choose nr hnr using hn
  choose wr hwr using hw
  simp only [har, hnr, hwr]
  exact sum_mul_sum_comm_real S ar nr wr

end Cert.Lib.ScatterLinear

end
-- ==== Proof.EdgeSum.lean ====
/-
  The names shared by the two sides of the graph convolution: which node row an agent selects, which node row an
  edge reads, and which edges land on a node.

  All three are read off the reference's integer stages (the agent indices, the edge sources and the edge destinations
  after jnp's negative-index wrap, each as a one-column matrix): a gather reads its start index signed and clamped
  into the node range, a scatter reads its index signed and not clamped.
-/
import proofs.«177900_j35081292874064_2_alg».proof.Proof.RefReadPatched

noncomputable section

open Idealize.ShloMosaic Idealize.ShloMosaic.ValueIdx Cert.ReferenceIdeal Cert.ReferenceIdeal.Read

namespace Cert.EdgeSum

/-- The node row agent `a` selects. -/
abbrev agentRow (x2 : (⟨S8192, .i32⟩ : BufTy).Contents (Elt Ideal)) (a : Fin 8192) : Fin 50000 :=
  ⟨min (val_main_v54 (F := Ideal) x2 (ix2 a (0 : Fin 1))).toInt.toNat (50000 - 1), by omega⟩

/-- The node row edge `e` reads its features from. -/
abbrev srcRow (x1 : (⟨S2x800000, .i32⟩ : BufTy).Contents (Elt Ideal)) (e : Fin 850000) : Fin 50000 :=
  ⟨min (val_main_v38 (F := Ideal) x1 (ix2 e (0 : Fin 1))).toInt.toNat (50000 - 1), by omega⟩

/-- The edges whose destination is node `v`. -/
abbrev landing (x1 : (⟨S2x800000, .i32⟩ : BufTy).Contents (Elt Ideal)) (v : Fin 50000) : Finset (Fin 850000) :=
  Finset.univ.filter (fun e : Fin 850000 => (val_main_v44 (F := Ideal) x1 (ix2 e (0 : Fin 1))).toInt = ((v.val : Nat) : Int))

end Cert.EdgeSum

end
-- ==== Proof.KernelAgg.lean ====
/-
  The kernel's aggregated raw features read at an index.

  Before its fused dense call the kernel's program gathers the 128 raw features of each edge's source node, scales
  them by the edge's weight, accumulates them per destination node (a row scatter-add into zeros) and gathers the
  rows the agents select. `aggregated` is that composition as one term over the argument arrays, with the integer
  index columns and the edge-weight vector named by the reference's stages (both programs compute them by the same
  operations on the edge list). Row `a`, column `k` of it is the sum, over the edges `e` whose destination is the node
  agent `a` selects, of `x[src e, k]` times the edge's weight.
-/
import proofs.«177900_j35081292874064_2_alg».proof.Proof.Gen.KernelIdeal
import proofs.«177900_j35081292874064_2_alg».proof.Proof.RefReadPatched
import proofs.«177900_j35081292874064_2_alg».proof.Proof.LibRowGather
import proofs.«177900_j35081292874064_2_alg».proof.Proof.LibIndexNorm
import proofs.«177900_j35081292874064_2_alg».proof.Proof.LibScatterLinear
import proofs.«177900_j35081292874064_2_alg».proof.Proof.EdgeSum
import Idealize.ShloMosaic.PureOps.Ideal.Laws

noncomputable section

open scoped BigOperators
open Idealize.ShloMosaic Idealize.ShloMosaic.ValueIdx Cert.EdgeSum
open Cert.ReferenceIdeal.Read (val_main_v31 val_main_v38 val_main_v44 val_main_v54)

namespace Cert.KernelAgg

variable (x0 : FVec Ideal Cert.KernelIdeal.S50000x128 .f32) (x1 : IVec Cert.KernelIdeal.S2x800000 32)
  (x2 : IVec Cert.KernelIdeal.S8192 32)

/-- The scaled source features of every edge: the updates of the accumulation. -/
def messages : FVec Ideal Cert.KernelIdeal.S850000x128 .f32 :=
  mulf (Host.gather Cert.KernelIdeal.gather_S50000x128_S850000x1_S850000x128_1_0_n_n_0_1_1128 x0 (val_main_v38 (F := Ideal) x1))
    (broadcastInDim Cert.KernelIdeal.S850000x128 ![0, 1] Cert.KernelIdeal.Facts₀.bcast_S850000x1_S850000x128_0_1
      (broadcastInDim Cert.KernelIdeal.S850000x1 ![0] Cert.KernelIdeal.Facts₀.bcast_S850000_S850000x1_0 (val_main_v31 (F := Ideal) x1)))

/-- The per-node accumulation of the messages. -/
def accumulated : FVec Ideal Cert.KernelIdeal.S50000x128 .f32 :=
  Host.scatterAdd Cert.KernelIdeal.scatter_S50000x128_S850000x1_S850000x128_1_0_0_1
    (broadcastInDim Cert.KernelIdeal.S50000x128 ![] Cert.KernelIdeal.Facts₀.bcast_S_S50000x128 (constant (F := Ideal) Cert.KernelIdeal.S_ .f32 0x00000000#32))
    (val_main_v44 (F := Ideal) x1) (messages x0 x1)

/-- The rows of the accumulation the agents select: the dense call's first operand. -/
def aggregated : FVec Ideal Cert.KernelIdeal.S8192x128 .f32 :=
  Host.gather Cert.KernelIdeal.gather_S50000x128_S8192x1_S8192x128_1_0_n_n_0_1_1128 (accumulated x0 x1) (val_main_v54 (F := Ideal) x2)

/-- One message element. -/
theorem messages_apply (e : Fin 850000) (k : Fin 128) :
    messages x0 x1 (ix2 e k) = x0 (ix2 (srcRow x1 e) k) * val_main_v31 (F := Ideal) x1 (ix1 e) := by
  have hg : Host.gather Cert.KernelIdeal.gather_S50000x128_S850000x1_S850000x128_1_0_n_n_0_1_1128 x0 (val_main_v38 (F := Ideal) x1) (ix2 e k)
      = x0 (ix2 (srcRow x1 e) k) :=
    Cert.Lib.RowGather.rowGather_apply (by decide) Cert.KernelIdeal.Facts₀.gather_S50000x128_S850000x1_S850000x128_1_0_n_n_0_1_1128_wf
      x0 (val_main_v38 (F := Ideal) x1) e k
  have hb : broadcastInDim Cert.KernelIdeal.S850000x128 ![0, 1] Cert.KernelIdeal.Facts₀.bcast_S850000x1_S850000x128_0_1
      (broadcastInDim Cert.KernelIdeal.S850000x1 ![0] Cert.KernelIdeal.Facts₀.bcast_S850000_S850000x1_0 (val_main_v31 (F := Ideal) x1)) (ix2 e k)
      = val_main_v31 (F := Ideal) x1 (ix1 e) :=
    Cert.Lib.IndexNorm.bcast_col_cols_apply (val_main_v31 (F := Ideal) x1) Cert.KernelIdeal.Facts₀.bcast_S850000_S850000x1_0
      Cert.KernelIdeal.Facts₀.bcast_S850000x1_S850000x128_0_1 e k
  show FloatOps.mulf _ _ = _
  rw [hg, hb]
  rfl

/-- The accumulation's operand is the zero matrix. -/
theorem zeros_eq :
    (broadcastInDim Cert.KernelIdeal.S50000x128 ![] Cert.KernelIdeal.Facts₀.bcast_S_S50000x128 (constant (F := Ideal) Cert.KernelIdeal.S_ .f32 0x00000000#32)
      : Cert.KernelIdeal.S50000x128.Idx → EReal) = fun _ => (0 : EReal) := by
  funext i
  refine (broadcastInDim_apply _ Cert.KernelIdeal.Facts₀.bcast_S_S50000x128 _ i (fun a => a.elim0) (fun a => a.elim0)).trans ?_
  exact Ideal.ofBits_zero_f32

/-- The printed scatter's dimension numbers are a row scatter's. -/
theorem scatterDims_eq : Cert.KernelIdeal.scatter_S50000x128_S850000x1_S850000x128_1_0_0_1
    = Cert.Lib.RowScatterAdd.rowScatterDims 50000 128 850000 Cert.KernelIdeal.Facts₀.scatter_S50000x128_S850000x1_S850000x128_1_0_0_1_wf := rfl

/-- The accumulation at node `v`, column `k`. -/
theorem accumulated_apply (v : Fin 50000) (k : Fin 128) :
    accumulated x0 x1 (ix2 v k) = ∑ e ∈ landing x1 v, x0 (ix2 (srcRow x1 e) k) * val_main_v31 (F := Ideal) x1 (ix1 e) := by
  unfold accumulated
  rw [zeros_eq, Cert.Lib.ScatterLinear.scatterAdd_ideal, scatterDims_eq, Cert.Lib.ScatterLinear.rowScatterAdd_zero_apply]
  exact Finset.sum_congr rfl fun e _ => messages_apply x0 x1 e k

/-- THE AGGREGATED FEATURES of agent `a`, column `k`. -/
theorem aggregated_apply (a : Fin 8192) (k : Fin 128) :
    aggregated x0 x1 x2 (ix2 a k)
      = ∑ e ∈ landing x1 (agentRow x2 a), x0 (ix2 (srcRow x1 e) k) * val_main_v31 (F := Ideal) x1 (ix1 e) := by
  have hg : aggregated x0 x1 x2 (ix2 a k) = accumulated x0 x1 (ix2 (agentRow x2 a) k) :=
    Cert.Lib.RowGather.rowGather_apply (by decide) Cert.KernelIdeal.Facts₀.gather_S50000x128_S8192x1_S8192x128_1_0_n_n_0_1_1128_wf
      (accumulated x0 x1) (val_main_v54 (F := Ideal) x2) a k
  rw [hg, accumulated_apply]

end Cert.KernelAgg

end
-- ==== Proof.ActorNet.lean ====
/-
  The whole network as one function of the argument arrays.

  Entry `(a, o)` of the result is the dense head (ActorHead) of agent `a`'s row of graph-convolution
  pre-activations: the aggregated raw features of the node the agent selects (KernelAgg), projected by `W_gcn` with its
  bias, then the two normalised hidden layers and the logistic output layer with the remaining arguments as weights.
-/
import proofs.«177900_j35081292874064_2_alg».proof.Proof.ActorHead
import proofs.«177900_j35081292874064_2_alg».proof.Proof.KernelAgg

noncomputable section

open Idealize.ShloMosaic Idealize.ShloMosaic.ValueIdx

namespace Cert.ActorNet

/-- THE NETWORK'S OUTPUT at agent `a`, action `o`. -/
def outAt (a0 : (⟨2, ![50000, 128]⟩ : Shape).Idx → EReal) (a1 : IVec ⟨2, ![2, 800000]⟩ 32) (a2 : IVec ⟨1, ![8192]⟩ 32)
    (a3 : (⟨2, ![128, 256]⟩ : Shape).Idx → EReal) (a4 : (⟨1, ![256]⟩ : Shape).Idx → EReal)
    (a5 : (⟨2, ![256, 1024]⟩ : Shape).Idx → EReal) (a6 a7 a8 : (⟨1, ![1024]⟩ : Shape).Idx → EReal)
    (a9 : (⟨2, ![1024, 512]⟩ : Shape).Idx → EReal) (a10 a11 a12 : (⟨1, ![512]⟩ : Shape).Idx → EReal)
    (a13 : (⟨2, ![512, 16]⟩ : Shape).Idx → EReal) (a14 : (⟨1, ![16]⟩ : Shape).Idx → EReal)
    (a : Fin 8192) (o : Fin 16) : EReal :=
  Cert.ActorHead.head
    (Cert.ActorHead.dense (fun k : Fin 128 => Cert.KernelAgg.aggregated a0 a1 a2 (ix2 a k)) (fun k j => a3 (ix2 k j))
      (fun j => a4 (ix1 j)))
    (fun k n => a5 (ix2 k n)) (fun n => a6 (ix1 n)) (fun n => a7 (ix1 n)) (fun n => a8 (ix1 n))
    (fun n r => a9 (ix2 n r)) (fun r => a10 (ix1 r)) (fun r => a11 (ix1 r)) (fun r => a12 (ix1 r))
    (fun r o' => a13 (ix2 r o')) (fun o' => a14 (ix1 o')) o

/-- The network's output as an array. -/
def out (a0 : (⟨2, ![50000, 128]⟩ : Shape).Idx → EReal) (a1 : IVec ⟨2, ![2, 800000]⟩ 32) (a2 : IVec ⟨1, ![8192]⟩ 32)
    (a3 : (⟨2, ![128, 256]⟩ : Shape).Idx → EReal) (a4 : (⟨1, ![256]⟩ : Shape).Idx → EReal)
    (a5 : (⟨2, ![256, 1024]⟩ : Shape).Idx → EReal) (a6 a7 a8 : (⟨1, ![1024]⟩ : Shape).Idx → EReal)
    (a9 : (⟨2, ![1024, 512]⟩ : Shape).Idx → EReal) (a10 a11 a12 : (⟨1, ![512]⟩ : Shape).Idx → EReal)
    (a13 : (⟨2, ![512, 16]⟩ : Shape).Idx → EReal) (a14 : (⟨1, ![16]⟩ : Shape).Idx → EReal) :
    (⟨2, ![8192, 16]⟩ : Shape).Idx → EReal :=
  fun i => outAt a0 a1 a2 a3 a4 a5 a6 a7 a8 a9 a10 a11 a12 a13 a14 (i 0) (i 1)

end Cert.ActorNet

end
-- ==== Proof.KernelHostParams.lean ====
/-
  The dense call's parameter operands as the region finds them.

  The three weight matrices reach the call through a change of float format, which is the identity on extended reals,
  and the eight bias / gain / shift vectors through a reshape `[n] → [1, n]`, whose entry `(0, j)` is the vector's
  entry `j`.
-/
import proofs.«177900_j35081292874064_2_alg».proof.Proof.Gen.KernelIdeal.Frame
import Idealize.ShloMosaic.Lib.StableHlo.Run
import Idealize.ShloMosaic.Lib.ValueLayout
import Idealize.ShloMosaic.Lib.Pipeline.Value

noncomputable section

open Idealize.ShloMosaic Idealize.ShloMosaic.ValueIdx Idealize.ShloMosaic.StableHlo Idealize.ShloMosaic.TcCoe Idealize.SL.Sem
open Cert.KernelIdeal Cert.KernelIdeal.Gen

namespace Cert.KernelHostParams

variable (m : (ℓ : Loc nD τ sig) → Buf (Elt Ideal) ℓ)

set_option maxHeartbeats 4000000 in
/-- The first hidden layer's weights. -/
theorem w1_eq (c : Dev nD) :
    (V m c main_v52 : S256x1024.Idx → EReal) = (m ((c : Thread nD τ).loc main_arg5) : S256x1024.Idx → EReal) := by
  dsimp only [V]
  simp only [hostOps0, hostOps0_1, hostOps0_2, List.flatten_cons, List.flatten_nil, List.append_nil, List.cons_append, List.nil_append]
  after_results_simp
  rfl

set_option maxHeartbeats 4000000 in
/-- The second hidden layer's weights. -/
theorem w2_eq (c : Dev nD) :
    (V m c main_v53 : S1024x512.Idx → EReal) = (m ((c : Thread nD τ).loc main_arg9) : S1024x512.Idx → EReal) := by
  dsimp only [V]
  simp only [hostOps0, hostOps0_1, hostOps0_2, List.flatten_cons, List.flatten_nil, List.append_nil, List.cons_append, List.nil_append]
  after_results_simp
  rfl

set_option maxHeartbeats 4000000 in
/-- The output layer's weights. -/
theorem wmu_eq (c : Dev nD) :
    (V m c main_v54 : S512x16.Idx → EReal) = (m ((c : Thread nD τ).loc main_arg13) : S512x16.Idx → EReal) := by
  dsimp only [V]
  simp only [hostOps0, hostOps0_1, hostOps0_2, List.flatten_cons, List.flatten_nil, List.append_nil, List.cons_append, List.nil_append]
  after_results_simp
  rfl

set_option maxHeartbeats 4000000 in
/-- The convolution's bias as a row. -/
theorem bgcn_eq (c : Dev nD) :
    (V m c main_v55 : S1x256.Idx → EReal) = shapeCast S1x256 (m ((c : Thread nD τ).loc main_arg4) : S256.Idx → EReal) shapeCasts_S256_S1x256 := by
  dsimp only [V]
  simp only [hostOps0, hostOps0_1, hostOps0_2, List.flatten_cons, List.flatten_nil, List.append_nil, List.cons_append, List.nil_append]
  after_results_simp
  rfl

/-- Its entry `(0, j)` is the vector's entry `j`. -/
theorem bgcn_apply (c : Dev nD) (j : Fin 256) :
    (V m c main_v55 : S1x256.Idx → EReal) (ix2 (0 : Fin 1) j) = (m ((c : Thread nD τ).loc main_arg4) : S256.Idx → EReal) (ix1 j) := by
  rw [bgcn_eq]
  exact shapeCast_a_1a_apply _ shapeCasts_S256_S1x256 (0 : Fin 1) j

set_option maxHeartbeats 4000000 in
/-- The first hidden layer's bias as a row. -/
theorem b1_eq (c : Dev nD) :
    (V m c main_v56 : S1x1024.Idx → EReal) = shapeCast S1x1024 (m ((c : Thread nD τ).loc main_arg6) : S1024.Idx → EReal) shapeCasts_S1024_S1x1024 := by
  dsimp only [V]
  simp only [hostOps0, hostOps0_1, hostOps0_2, List.flatten_cons, List.flatten_nil, List.append_nil, List.cons_append, List.nil_append]
  after_results_simp
  rfl

/-- Its entry `(0, j)` is the vector's entry `j`. -/
theorem b1_apply (c : Dev nD) (j : Fin 1024) :
    (V m c main_v56 : S1x1024.Idx → EReal) (ix2 (0 : Fin 1) j) = (m ((c : Thread nD τ).loc main_arg6) : S1024.Idx → EReal) (ix1 j) := by
  rw [b1_eq]
  exact shapeCast_a_1a_apply _ shapeCasts_S1024_S1x1024 (0 : Fin 1) j

set_option maxHeartbeats 4000000 in
/-- The first normalisation's gain as a row. -/
theorem g1_eq (c : Dev nD) :
    (V m c main_v57 : S1x1024.Idx → EReal) = shapeCast S1x1024 (m ((c : Thread nD τ).loc main_arg7) : S1024.Idx → EReal) shapeCasts_S1024_S1x1024 := by
  dsimp only [V]
  simp only [hostOps0, hostOps0_1, hostOps0_2, List.flatten_cons, List.flatten_nil, List.append_nil, List.cons_append, List.nil_append]
  after_results_simp
  rfl

/-- Its entry `(0, j)` is the vector's entry `j`. -/
theorem g1_apply (c : Dev nD) (j : Fin 1024) :
    (V m c main_v57 : S1x1024.Idx → EReal) (ix2 (0 : Fin 1) j) = (m ((c : Thread nD τ).loc main_arg7) : S1024.Idx → EReal) (ix1 j) := by
  rw [g1_eq]
  exact shapeCast_a_1a_apply _ shapeCasts_S1024_S1x1024 (0 : Fin 1) j

set_option maxHeartbeats 4000000 in
/-- The first normalisation's shift as a row. -/
theorem be1_eq (c : Dev nD) :
    (V m c main_v58 : S1x1024.Idx → EReal) = shapeCast S1x1024 (m ((c : Thread nD τ).loc main_arg8) : S1024.Idx → EReal) shapeCasts_S1024_S1x1024 := by
  dsimp only [V]
  simp only [hostOps0, hostOps0_1, hostOps0_2, List.flatten_cons, List.flatten_nil, List.append_nil, List.cons_append, List.nil_append]
  after_results_simp
  rfl

/-- Its entry `(0, j)` is the vector's entry `j`. -/
theorem be1_apply (c : Dev nD) (j : Fin 1024) :
    (V m c main_v58 : S1x1024.Idx → EReal) (ix2 (0 : Fin 1) j) = (m ((c : Thread nD τ).loc main_arg8) : S1024.Idx → EReal) (ix1 j) := by
  rw [be1_eq]
  exact shapeCast_a_1a_apply _ shapeCasts_S1024_S1x1024 (0 : Fin 1) j

set_option maxHeartbeats 4000000 in
/-- The second hidden layer's bias as a row. -/
theorem b2_eq (c : Dev nD) :
    (V m c main_v59 : S1x512.Idx → EReal) = shapeCast S1x512 (m ((c : Thread nD τ).loc main_arg10) : S512.Idx → EReal) shapeCasts_S512_S1x512 := by
  dsimp only [V]
  simp only [hostOps0, hostOps0_1, hostOps0_2, List.flatten_cons, List.flatten_nil, List.append_nil, List.cons_append, List.nil_append]
  after_results_simp
  rfl

/-- Its entry `(0, j)` is the vector's entry `j`. -/
theorem b2_apply (c : Dev nD) (j : Fin 512) :
    (V m c main_v59 : S1x512.Idx → EReal) (ix2 (0 : Fin 1) j) = (m ((c : Thread nD τ).loc main_arg10) : S512.Idx → EReal) (ix1 j) := by
  rw [b2_eq]
  exact shapeCast_a_1a_apply _ shapeCasts_S512_S1x512 (0 : Fin 1) j

set_option maxHeartbeats 4000000 in
/-- The second normalisation's gain as a row. -/
theorem g2_eq (c : Dev nD) :
    (V m c main_v60 : S1x512.Idx → EReal) = shapeCast S1x512 (m ((c : Thread nD τ).loc main_arg11) : S512.Idx → EReal) shapeCasts_S512_S1x512 := by
  dsimp only [V]
  simp only [hostOps0, hostOps0_1, hostOps0_2, List.flatten_cons, List.flatten_nil, List.append_nil, List.cons_append, List.nil_append]
  after_results_simp
  rfl

/-- Its entry `(0, j)` is the vector's entry `j`. -/
theorem g2_apply (c : Dev nD) (j : Fin 512) :
    (V m c main_v60 : S1x512.Idx → EReal) (ix2 (0 : Fin 1) j) = (m ((c : Thread nD τ).loc main_arg11) : S512.Idx → EReal) (ix1 j) := by
  rw [g2_eq]
  exact shapeCast_a_1a_apply _ shapeCasts_S512_S1x512 (0 : Fin 1) j

set_option maxHeartbeats 4000000 in
/-- The second normalisation's shift as a row. -/
theorem be2_eq (c : Dev nD) :
    (V m c main_v61 : S1x512.Idx → EReal) = shapeCast S1x512 (m ((c : Thread nD τ).loc main_arg12) : S512.Idx → EReal) shapeCasts_S512_S1x512 := by
  dsimp only [V]
  simp only [hostOps0, hostOps0_1, hostOps0_2, List.flatten_cons, List.flatten_nil, List.append_nil, List.cons_append, List.nil_append]
  after_results_simp
  rfl

/-- Its entry `(0, j)` is the vector's entry `j`. -/
theorem be2_apply (c : Dev nD) (j : Fin 512) :
    (V m c main_v61 : S1x512.Idx → EReal) (ix2 (0 : Fin 1) j) = (m ((c : Thread nD τ).loc main_arg12) : S512.Idx → EReal) (ix1 j) := by
  rw [be2_eq]
  exact shapeCast_a_1a_apply _ shapeCasts_S512_S1x512 (0 : Fin 1) j

set_option maxHeartbeats 4000000 in
/-- The output layer's bias as a row. -/
theorem bmu_eq (c : Dev nD) :
    (V m c main_v62 : S1x16.Idx → EReal) = shapeCast S1x16 (m ((c : Thread nD τ).loc main_arg14) : S16.Idx → EReal) shapeCasts_S16_S1x16 := by
  dsimp only [V]
  simp only [hostOps0, hostOps0_1, hostOps0_2, List.flatten_cons, List.flatten_nil, List.append_nil, List.cons_append, List.nil_append]
  after_results_simp
  rfl

/-- Its entry `(0, j)` is the vector's entry `j`. -/
theorem bmu_apply (c : Dev nD) (j : Fin 16) :
    (V m c main_v62 : S1x16.Idx → EReal) (ix2 (0 : Fin 1) j) = (m ((c : Thread nD τ).loc main_arg14) : S16.Idx → EReal) (ix1 j) := by
  rw [bmu_eq]
  exact shapeCast_a_1a_apply _ shapeCasts_S16_S1x16 (0 : Fin 1) j

end Cert.KernelHostParams

end
-- ==== Proof.KernelHostAgg.lean ====
/-
  The dense call's first operand as the region finds it: the aggregated raw features.

  The kernel's program computes it by the host operations before the call — the edge list's sources and destinations
  with self-loops appended, the degree count, the edge weights, the gather of source features, their scaling, the
  per-node accumulation and the gather of the agents' rows. Those are exactly the operations `KernelAgg.aggregated`
  composes, its integer columns and its weight vector being the reference's stages, which the reference's program
  computes by the same operations on the edge list. The comparison goes stage by stage: the gathered rows, the
  accumulated matrix, its destination column, the messages' source column and the weight vector (two gathers of the
  vector `dis`, itself a selection between the reciprocal square root of the clamped degree and zero).
-/
import proofs.«177900_j35081292874064_2_alg».proof.Proof.Gen.KernelIdeal.Frame
import proofs.«177900_j35081292874064_2_alg».proof.Proof.KernelAgg
import Idealize.ShloMosaic.Lib.StableHlo.Run
import Idealize.ShloMosaic.Lib.ValueLayout
import Idealize.ShloMosaic.Lib.Pipeline.Value

noncomputable section

open Idealize.ShloMosaic Idealize.ShloMosaic.ValueIdx Idealize.ShloMosaic.StableHlo Idealize.ShloMosaic.TcCoe Idealize.SL.Sem
open Cert.KernelIdeal Cert.KernelIdeal.Gen

namespace Cert.KernelHostAgg

/-- Congruence of a ternary operation. -/
theorem congrArg₃ {α β γ δ : Sort _} (f : α → β → γ → δ) {a a' : α} {b b' : β} {c c' : γ}
    (ha : a = a') (hb : b = b') (hc : c = c') : f a b c = f a' b' c' := by
  subst ha hb hc; rfl

/-- The vector `dis` is the same selection on both sides — the reciprocal square root of the degree clamped below at
    one where the degree is positive, zero elsewhere —; a value stored in a buffer and read back at the buffer's own
    type is the value. -/
local macro "dis_stage" : tactic => `(tactic| (
  refine (cast_eq _ _).trans ?_
  unfold Cert.ReferenceIdeal.Read.val_main_v16
  refine congrArg₃ select ?_ ?_ ?_
  · refine (cast_eq _ _).trans ?_
    rfl
  · refine (cast_eq _ _).trans ?_
    rfl
  · rfl))

variable (m : (ℓ : Loc nD τ sig) → Buf (Elt Ideal) ℓ)

set_option maxRecDepth 65536 in
set_option maxHeartbeats 16000000 in
/-- The region finds the aggregated features in the call's first operand. -/
theorem agg_eq (c : Dev nD) :
    (V m c main_v51 : S8192x128.Idx → EReal)
      = Cert.KernelAgg.aggregated (m ((c : Thread nD τ).loc main_arg0)) (m ((c : Thread nD τ).loc main_arg1))
          (m ((c : Thread nD τ).loc main_arg2)) := by
  dsimp only [V]
  simp only [hostOps0, hostOps0_1, hostOps0_2, List.flatten_cons, List.flatten_nil, List.append_nil, List.cons_append, List.nil_append]
  after_results_simp
  -- the two halves of each joined index vector (the given edges, then one self-loop per node) are what the earlier lines left in their buffers
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  unfold Cert.KernelAgg.aggregated Cert.KernelAgg.accumulated Cert.KernelAgg.messages
  refine congrArg₂ (Host.gather _) ?_ ?_
  · refine congrArg₂ (Host.scatterAdd _ _) ?_ ?_
    · rfl
    · refine congrArg₂ mulf ?_ ?_
      · exact congrArg (Host.gather _ _) rfl
      · refine congrArg (broadcastInDim _ _ _) (congrArg (broadcastInDim _ _ _) ?_)
        unfold Cert.ReferenceIdeal.Read.val_main_v31 Cert.ReferenceIdeal.Read.val_main_v23 Cert.ReferenceIdeal.Read.val_main_v30
        refine congrArg₂ mulf (congrArg₂ (Host.gather _) ?_ ?_) (congrArg₂ (Host.gather _) ?_ ?_)
        · dis_stage
        · rfl
        · dis_stage
        · rfl
  · rfl

end Cert.KernelHostAgg

end
-- ==== Proof.KernelValue.lean ====
/-
  From the blocks to the whole output array, and the kernel's run.

  The dense call runs on a grid of four points. At point t the feature window and the output window sit at row block t
  (2048 rows each, all columns); the twelve parameter windows are whole arrays at every point. So what point t writes
  back — the body's stored value over the thirteen blocks, which KernelHead reads at an index as the specification's
  head of the projected row — is, entry by entry, the network's output at agent (2048 t + p) and action q: block t of
  the output array as one function of the argument arrays. The four blocks cover all 8192 rows, so after the run the
  array IS that function.
-/
import proofs.«177900_j35081292874064_2_alg».proof.Proof.Gen.KernelIdeal.Value
import proofs.«177900_j35081292874064_2_alg».proof.Proof.KernelHead
import proofs.«177900_j35081292874064_2_alg».proof.Proof.ActorNet
import proofs.«177900_j35081292874064_2_alg».proof.Proof.KernelHostParams
import proofs.«177900_j35081292874064_2_alg».proof.Proof.KernelHostAgg

noncomputable section

open Cert.KernelIdeal Cert.KernelIdeal.Gen Idealize.ShloMosaic Idealize.ShloMosaic.TcCoe Idealize.SL.Sem Idealize.ShloMosaic.ValueIdx
open Idealize.ShloMosaic.Pipeline (Dat)

namespace Cert.KernelValue

variable (m : (ℓ : Loc nD τ sig) → Buf (Elt Ideal) ℓ) (ρ : Dev nD → PrngReg)

theorem zeros2 : (![0, 0] : Fin 2 → Nat) = fun _ => 0 := funext fun a => by fin_cases a <;> rfl

/-! ## Where each window's block sits in its array -/

/-- The index maps, decided over the four grid points: the feature window moves with the output window along the rows,
    both stay at column block 0, the output's row block is at most 3, and every parameter window stays at block (0, 0). -/
theorem idx_facts : ∀ t : Fin cfg0.N, win0_0.index t (0 : Fin 2) = win0_13.index t (0 : Fin 2)
    ∧ win0_0.index t (1 : Fin 2) = 0
    ∧ win0_13.index t (1 : Fin 2) = 0
    ∧ win0_13.index t (0 : Fin 2) ≤ 3
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0 :=
  (by decide +kernel : ∀ t : Fin grid0.N, _)

/-- Every row block of the output is some point's. -/
theorem idx_onto : ∀ q0 : Fin 4, ∃ t : Fin cfg0.N, win0_13.index t = ![q0.val, 0] :=
  (by decide +kernel : ∀ q0 : Fin 4, ∃ t : Fin grid0.N, win0_13.index t = ![q0.val, 0])

/-- The feature window at point `t`: a read through its block at row `p` is the array at row (block index × 2048 + p). -/
theorem read0 (t : Fin cfg0.N) (X : S8192x128.Idx → EReal) (p : Fin 2048) (k : Fin 128) (a : Fin 8192)
    (ha : a.val = win0_13.index t (0 : Fin 2) * 2048 + p.val) :
    ((cfg0.win 0).blk t).view.read (Elt Ideal) X (ix2 p k) = X (ix2 a k) := by
  obtain ⟨e0, e1, e2, e3, z1a, z1b, z2a, z2b, z3a, z3b, z4a, z4b, z5a, z5b, z6a, z6b, z7a, z7b, z8a, z8b, z9a, z9b, z10a, z10b, z11a, z11b, z12a, z12b⟩ := idx_facts t
  have hemb : (((cfg0.win 0).blk t).view.emb (ix2 p k) : S8192x128.Idx) = ix2 a k := by
    funext ax; apply Fin.ext
    match ax with
    | ⟨0, _⟩ => show win0_0.index t (0 : Fin 2) * 2048 + 1 * p.val = a.val; rw [e0, ha]; omega
    | ⟨1, _⟩ => show win0_0.index t (1 : Fin 2) * 128 + 1 * k.val = k.val; rw [e1]; omega
  show X (((cfg0.win 0).blk t).view.emb (ix2 p k)) = X (ix2 a k)
  rw [hemb]

theorem blk0_apply (c : Dev nD) (t : Fin cfg0.N) (p : Fin 2048) (k : Fin 128) (a : Fin 8192)
    (ha : a.val = win0_13.index t (0 : Fin 2) * 2048 + p.val) :
    (iblk m c 0 t : Vec Ideal S2048x128 .f32) (ix2 p k) = (V m c main_v51 : S8192x128.Idx → EReal) (ix2 a k) := by
  unfold iblk
  exact read0 t (V m c main_v51) p k a ha

/-- Window 1 is the whole array at every point: a read through its block is the array, entry for entry. -/
theorem read1 (t : Fin cfg0.N) (X : S128x256.Idx → EReal) (y : S128x256.Idx) :
    ((cfg0.win 1).blk t).view.read (Elt Ideal) X y = X y := by
  obtain ⟨e0, e1, e2, e3, z1a, z1b, z2a, z2b, z3a, z3b, z4a, z4b, z5a, z5b, z6a, z6b, z7a, z7b, z8a, z8b, z9a, z9b, z10a, z10b, z11a, z11b, z12a, z12b⟩ := idx_facts t
  have hemb : (((cfg0.win 1).blk t).view.emb y : S128x256.Idx) = y := by
    funext a; apply Fin.ext
    match a with
    | ⟨0, _⟩ => show win0_1.index t (0 : Fin 2) * 128 + 1 * (y 0).val = (y 0).val; rw [z1a]; omega
    | ⟨1, _⟩ => show win0_1.index t (1 : Fin 2) * 256 + 1 * (y 1).val = (y 1).val; rw [z1b]; omega
  show X (((cfg0.win 1).blk t).view.emb y) = X y
  rw [hemb]

theorem blk1_apply (c : Dev nD) (t : Fin cfg0.N) (y : S128x256.Idx) :
    (iblk m c 1 t : Vec Ideal S128x256 .f32) y = (V m c main_arg3 : S128x256.Idx → EReal) y := by
  unfold iblk
  exact read1 t (V m c main_arg3) y

/-- Window 2 is the whole array at every point: a read through its block is the array, entry for entry. -/
theorem read2 (t : Fin cfg0.N) (X : S1x256.Idx → EReal) (y : S1x256.Idx) :
    ((cfg0.win 2).blk t).view.read (Elt Ideal) X y = X y := by
  obtain ⟨e0, e1, e2, e3, z1a, z1b, z2a, z2b, z3a, z3b, z4a, z4b, z5a, z5b, z6a, z6b, z7a, z7b, z8a, z8b, z9a, z9b, z10a, z10b, z11a, z11b, z12a, z12b⟩ := idx_facts t
  have hemb : (((cfg0.win 2).blk t).view.emb y : S1x256.Idx) = y := by
    funext a; apply Fin.ext
    match a with
    | ⟨0, _⟩ => show win0_2.index t (0 : Fin 2) * 1 + 1 * (y 0).val = (y 0).val; rw [z2a]; omega
    | ⟨1, _⟩ => show win0_2.index t (1 : Fin 2) * 256 + 1 * (y 1).val = (y 1).val; rw [z2b]; omega
  show X (((cfg0.win 2).blk t).view.emb y) = X y
  rw [hemb]

theorem blk2_apply (c : Dev nD) (t : Fin cfg0.N) (y : S1x256.Idx) :
    (iblk m c 2 t : Vec Ideal S1x256 .f32) y = (V m c main_v55 : S1x256.Idx → EReal) y := by
  unfold iblk
  exact read2 t (V m c main_v55) y

/-- Window 3 is the whole array at every point: a read through its block is the array, entry for entry. -/
theorem read3 (t : Fin cfg0.N) (X : S256x1024.Idx → EReal) (y : S256x1024.Idx) :
    ((cfg0.win 3).blk t).view.read (Elt Ideal) X y = X y := by
  obtain ⟨e0, e1, e2, e3, z1a, z1b, z2a, z2b, z3a, z3b, z4a, z4b, z5a, z5b, z6a, z6b, z7a, z7b, z8a, z8b, z9a, z9b, z10a, z10b, z11a, z11b, z12a, z12b⟩ := idx_facts t
  have hemb : (((cfg0.win 3).blk t).view.emb y : S256x1024.Idx) = y := by
    funext a; apply Fin.ext
    match a with
    | ⟨0, _⟩ => show win0_3.index t (0 : Fin 2) * 256 + 1 * (y 0).val = (y 0).val; rw [z3a]; omega
    | ⟨1, _⟩ => show win0_3.index t (1 : Fin 2) * 1024 + 1 * (y 1).val = (y 1).val; rw [z3b]; omega
  show X (((cfg0.win 3).blk t).view.emb y) = X y
  rw [hemb]

theorem blk3_apply (c : Dev nD) (t : Fin cfg0.N) (y : S256x1024.Idx) :
    (iblk m c 3 t : Vec Ideal S256x1024 .bf16) y = (V m c main_v52 : S256x1024.Idx → EReal) y := by
  unfold iblk
  exact read3 t (V m c main_v52) y

/-- Window 4 is the whole array at every point: a read through its block is the array, entry for entry. -/
theorem read4 (t : Fin cfg0.N) (X : S1x1024.Idx → EReal) (y : S1x1024.Idx) :
    ((cfg0.win 4).blk t).view.read (Elt Ideal) X y = X y := by
  obtain ⟨e0, e1, e2, e3, z1a, z1b, z2a, z2b, z3a, z3b, z4a, z4b, z5a, z5b, z6a, z6b, z7a, z7b, z8a, z8b, z9a, z9b, z10a, z10b, z11a, z11b, z12a, z12b⟩ := idx_facts t
  have hemb : (((cfg0.win 4).blk t).view.emb y : S1x1024.Idx) = y := by
    funext a; apply Fin.ext
    match a with
    | ⟨0, _⟩ => show win0_4.index t (0 : Fin 2) * 1 + 1 * (y 0).val = (y 0).val; rw [z4a]; omega
    | ⟨1, _⟩ => show win0_4.index t (1 : Fin 2) * 1024 + 1 * (y 1).val = (y 1).val; rw [z4b]; omega
  show X (((cfg0.win 4).blk t).view.emb y) = X y
  rw [hemb]

theorem blk4_apply (c : Dev nD) (t : Fin cfg0.N) (y : S1x1024.Idx) :
    (iblk m c 4 t : Vec Ideal S1x1024 .f32) y = (V m c main_v56 : S1x1024.Idx → EReal) y := by
  unfold iblk
  exact read4 t (V m c main_v56) y

/-- Window 5 is the whole array at every point: a read through its block is the array, entry for entry. -/
theorem read5 (t : Fin cfg0.N) (X : S1x1024.Idx → EReal) (y : S1x1024.Idx) :
    ((cfg0.win 5).blk t).view.read (Elt Ideal) X y = X y := by
  obtain ⟨e0, e1, e2, e3, z1a, z1b, z2a, z2b, z3a, z3b, z4a, z4b, z5a, z5b, z6a, z6b, z7a, z7b, z8a, z8b, z9a, z9b, z10a, z10b, z11a, z11b, z12a, z12b⟩ := idx_facts t
  have hemb : (((cfg0.win 5).blk t).view.emb y : S1x1024.Idx) = y := by
    funext a; apply Fin.ext
    match a with
    | ⟨0, _⟩ => show win0_5.index t (0 : Fin 2) * 1 + 1 * (y 0).val = (y 0).val; rw [z5a]; omega
    | ⟨1, _⟩ => show win0_5.index t (1 : Fin 2) * 1024 + 1 * (y 1).val = (y 1).val; rw [z5b]; omega
  show X (((cfg0.win 5).blk t).view.emb y) = X y
  rw [hemb]

theorem blk5_apply (c : Dev nD) (t : Fin cfg0.N) (y : S1x1024.Idx) :
    (iblk m c 5 t : Vec Ideal S1x1024 .f32) y = (V m c main_v57 : S1x1024.Idx → EReal) y := by
  unfold iblk
  exact read5 t (V m c main_v57) y

/-- Window 6 is the whole array at every point: a read through its block is the array, entry for entry. -/
theorem read6 (t : Fin cfg0.N) (X : S1x1024.Idx → EReal) (y : S1x1024.Idx) :
    ((cfg0.win 6).blk t).view.read (Elt Ideal) X y = X y := by
  obtain ⟨e0, e1, e2, e3, z1a, z1b, z2a, z2b, z3a, z3b, z4a, z4b, z5a, z5b, z6a, z6b, z7a, z7b, z8a, z8b, z9a, z9b, z10a, z10b, z11a, z11b, z12a, z12b⟩ := idx_facts t
  have hemb : (((cfg0.win 6).blk t).view.emb y : S1x1024.Idx) = y := by
    funext a; apply Fin.ext
    match a with
    | ⟨0, _⟩ => show win0_6.index t (0 : Fin 2) * 1 + 1 * (y 0).val = (y 0).val; rw [z6a]; omega
    | ⟨1, _⟩ => show win0_6.index t (1 : Fin 2) * 1024 + 1 * (y 1).val = (y 1).val; rw [z6b]; omega
  show X (((cfg0.win 6).blk t).view.emb y) = X y
  rw [hemb]

theorem blk6_apply (c : Dev nD) (t : Fin cfg0.N) (y : S1x1024.Idx) :
    (iblk m c 6 t : Vec Ideal S1x1024 .f32) y = (V m c main_v58 : S1x1024.Idx → EReal) y := by
  unfold iblk
  exact read6 t (V m c main_v58) y

/-- Window 7 is the whole array at every point: a read through its block is the array, entry for entry. -/
theorem read7 (t : Fin cfg0.N) (X : S1024x512.Idx → EReal) (y : S1024x512.Idx) :
    ((cfg0.win 7).blk t).view.read (Elt Ideal) X y = X y := by
  obtain ⟨e0, e1, e2, e3, z1a, z1b, z2a, z2b, z3a, z3b, z4a, z4b, z5a, z5b, z6a, z6b, z7a, z7b, z8a, z8b, z9a, z9b, z10a, z10b, z11a, z11b, z12a, z12b⟩ := idx_facts t
  have hemb : (((cfg0.win 7).blk t).view.emb y : S1024x512.Idx) = y := by
    funext a; apply Fin.ext
    match a with
    | ⟨0, _⟩ => show win0_7.index t (0 : Fin 2) * 1024 + 1 * (y 0).val = (y 0).val; rw [z7a]; omega
    | ⟨1, _⟩ => show win0_7.index t (1 : Fin 2) * 512 + 1 * (y 1).val = (y 1).val; rw [z7b]; omega
  show X (((cfg0.win 7).blk t).view.emb y) = X y
  rw [hemb]

theorem blk7_apply (c : Dev nD) (t : Fin cfg0.N) (y : S1024x512.Idx) :
    (iblk m c 7 t : Vec Ideal S1024x512 .bf16) y = (V m c main_v53 : S1024x512.Idx → EReal) y := by
  unfold iblk
  exact read7 t (V m c main_v53) y

/-- Window 8 is the whole array at every point: a read through its block is the array, entry for entry. -/
theorem read8 (t : Fin cfg0.N) (X : S1x512.Idx → EReal) (y : S1x512.Idx) :
    ((cfg0.win 8).blk t).view.read (Elt Ideal) X y = X y := by
  obtain ⟨e0, e1, e2, e3, z1a, z1b, z2a, z2b, z3a, z3b, z4a, z4b, z5a, z5b, z6a, z6b, z7a, z7b, z8a, z8b, z9a, z9b, z10a, z10b, z11a, z11b, z12a, z12b⟩ := idx_facts t
  have hemb : (((cfg0.win 8).blk t).view.emb y : S1x512.Idx) = y := by
    funext a; apply Fin.ext
    match a with
    | ⟨0, _⟩ => show win0_8.index t (0 : Fin 2) * 1 + 1 * (y 0).val = (y 0).val; rw [z8a]; omega
    | ⟨1, _⟩ => show win0_8.index t (1 : Fin 2) * 512 + 1 * (y 1).val = (y 1).val; rw [z8b]; omega
  show X (((cfg0.win 8).blk t).view.emb y) = X y
  rw [hemb]

theorem blk8_apply (c : Dev nD) (t : Fin cfg0.N) (y : S1x512.Idx) :
    (iblk m c 8 t : Vec Ideal S1x512 .f32) y = (V m c main_v59 : S1x512.Idx → EReal) y := by
  unfold iblk
  exact read8 t (V m c main_v59) y

/-- Window 9 is the whole array at every point: a read through its block is the array, entry for entry. -/
theorem read9 (t : Fin cfg0.N) (X : S1x512.Idx → EReal) (y : S1x512.Idx) :
    ((cfg0.win 9).blk t).view.read (Elt Ideal) X y = X y := by
  obtain ⟨e0, e1, e2, e3, z1a, z1b, z2a, z2b, z3a, z3b, z4a, z4b, z5a, z5b, z6a, z6b, z7a, z7b, z8a, z8b, z9a, z9b, z10a, z10b, z11a, z11b, z12a, z12b⟩ := idx_facts t
  have hemb : (((cfg0.win 9).blk t).view.emb y : S1x512.Idx) = y := by
    funext a; apply Fin.ext
    match a with
    | ⟨0, _⟩ => show win0_9.index t (0 : Fin 2) * 1 + 1 * (y 0).val = (y 0).val; rw [z9a]; omega
    | ⟨1, _⟩ => show win0_9.index t (1 : Fin 2) * 512 + 1 * (y 1).val = (y 1).val; rw [z9b]; omega
  show X (((cfg0.win 9).blk t).view.emb y) = X y
  rw [hemb]

theorem blk9_apply (c : Dev nD) (t : Fin cfg0.N) (y : S1x512.Idx) :
    (iblk m c 9 t : Vec Ideal S1x512 .f32) y = (V m c main_v60 : S1x512.Idx → EReal) y := by
  unfold iblk
  exact read9 t (V m c main_v60) y

/-- Window 10 is the whole array at every point: a read through its block is the array, entry for entry. -/
theorem read10 (t : Fin cfg0.N) (X : S1x512.Idx → EReal) (y : S1x512.Idx) :
    ((cfg0.win 10).blk t).view.read (Elt Ideal) X y = X y := by
  obtain ⟨e0, e1, e2, e3, z1a, z1b, z2a, z2b, z3a, z3b, z4a, z4b, z5a, z5b, z6a, z6b, z7a, z7b, z8a, z8b, z9a, z9b, z10a, z10b, z11a, z11b, z12a, z12b⟩ := idx_facts t
  have hemb : (((cfg0.win 10).blk t).view.emb y : S1x512.Idx) = y := by
    funext a; apply Fin.ext
    match a with
    | ⟨0, _⟩ => show win0_10.index t (0 : Fin 2) * 1 + 1 * (y 0).val = (y 0).val; rw [z10a]; omega
    | ⟨1, _⟩ => show win0_10.index t (1 : Fin 2) * 512 + 1 * (y 1).val = (y 1).val; rw [z10b]; omega
  show X (((cfg0.win 10).blk t).view.emb y) = X y
  rw [hemb]

theorem blk10_apply (c : Dev nD) (t : Fin cfg0.N) (y : S1x512.Idx) :
    (iblk m c 10 t : Vec Ideal S1x512 .f32) y = (V m c main_v61 : S1x512.Idx → EReal) y := by
  unfold iblk
  exact read10 t (V m c main_v61) y

/-- Window 11 is the whole array at every point: a read through its block is the array, entry for entry. -/
theorem read11 (t : Fin cfg0.N) (X : S512x16.Idx → EReal) (y : S512x16.Idx) :
    ((cfg0.win 11).blk t).view.read (Elt Ideal) X y = X y := by
  obtain ⟨e0, e1, e2, e3, z1a, z1b, z2a, z2b, z3a, z3b, z4a, z4b, z5a, z5b, z6a, z6b, z7a, z7b, z8a, z8b, z9a, z9b, z10a, z10b, z11a, z11b, z12a, z12b⟩ := idx_facts t
  have hemb : (((cfg0.win 11).blk t).view.emb y : S512x16.Idx) = y := by
    funext a; apply Fin.ext
    match a with
    | ⟨0, _⟩ => show win0_11.index t (0 : Fin 2) * 512 + 1 * (y 0).val = (y 0).val; rw [z11a]; omega
    | ⟨1, _⟩ => show win0_11.index t (1 : Fin 2) * 16 + 1 * (y 1).val = (y 1).val; rw [z11b]; omega
  show X (((cfg0.win 11).blk t).view.emb y) = X y
  rw [hemb]

theorem blk11_apply (c : Dev nD) (t : Fin cfg0.N) (y : S512x16.Idx) :
    (iblk m c 11 t : Vec Ideal S512x16 .bf16) y = (V m c main_v54 : S512x16.Idx → EReal) y := by
  unfold iblk
  exact read11 t (V m c main_v54) y

/-- Window 12 is the whole array at every point: a read through its block is the array, entry for entry. -/
theorem read12 (t : Fin cfg0.N) (X : S1x16.Idx → EReal) (y : S1x16.Idx) :
    ((cfg0.win 12).blk t).view.read (Elt Ideal) X y = X y := by
  obtain ⟨e0, e1, e2, e3, z1a, z1b, z2a, z2b, z3a, z3b, z4a, z4b, z5a, z5b, z6a, z6b, z7a, z7b, z8a, z8b, z9a, z9b, z10a, z10b, z11a, z11b, z12a, z12b⟩ := idx_facts t
  have hemb : (((cfg0.win 12).blk t).view.emb y : S1x16.Idx) = y := by
    funext a; apply Fin.ext
    match a with
    | ⟨0, _⟩ => show win0_12.index t (0 : Fin 2) * 1 + 1 * (y 0).val = (y 0).val; rw [z12a]; omega
    | ⟨1, _⟩ => show win0_12.index t (1 : Fin 2) * 16 + 1 * (y 1).val = (y 1).val; rw [z12b]; omega
  show X (((cfg0.win 12).blk t).view.emb y) = X y
  rw [hemb]

theorem blk12_apply (c : Dev nD) (t : Fin cfg0.N) (y : S1x16.Idx) :
    (iblk m c 12 t : Vec Ideal S1x16 .f32) y = (V m c main_v62 : S1x16.Idx → EReal) y := by
  unfold iblk
  exact read12 t (V m c main_v62) y

/-! ## Each block as the argument arrays -/

/-- The feature window's block: row `p` of it is row (block index × 2048 + p) of the aggregated features. -/
theorem feat_read (c : Dev nD) (t : Fin cfg0.N) (p : Fin 2048) (k : Fin 128) (a : Fin 8192)
    (ha : a.val = win0_13.index t (0 : Fin 2) * 2048 + p.val) :
    (iblk m c 0 t : Vec Ideal S2048x128 .f32) (ix2 p k)
      = Cert.KernelAgg.aggregated (m ((c : Thread nD τ).loc main_arg0)) (m ((c : Thread nD τ).loc main_arg1)) (m ((c : Thread nD τ).loc main_arg2)) (ix2 a k) :=
  (blk0_apply m c t p k a ha).trans (congrFun (Cert.KernelHostAgg.agg_eq m c) (ix2 a k))

/-- Window 1's block is the argument array `main_arg3`. -/
theorem wgcn_read (c : Dev nD) (t : Fin cfg0.N) (y : S128x256.Idx) :
    (iblk m c 1 t : Vec Ideal S128x256 .f32) y = (m ((c : Thread nD τ).loc main_arg3) : S128x256.Idx → EReal) y :=
  (blk1_apply m c t y).trans (congrFun (V_main_arg3 m c) y)

/-- Window 2's block is the argument vector `main_arg4` as a row. -/
theorem bgcn_read (c : Dev nD) (t : Fin cfg0.N) (j : Fin 256) :
    (iblk m c 2 t : Vec Ideal S1x256 .f32) (ix2 (0 : Fin 1) j) = (m ((c : Thread nD τ).loc main_arg4) : S256.Idx → EReal) (ix1 j) :=
  (blk2_apply m c t (ix2 (0 : Fin 1) j)).trans (Cert.KernelHostParams.bgcn_apply m c j)

/-- Window 3's block is the argument array `main_arg5`. -/
theorem w1_read (c : Dev nD) (t : Fin cfg0.N) (y : S256x1024.Idx) :
    (iblk m c 3 t : Vec Ideal S256x1024 .bf16) y = (m ((c : Thread nD τ).loc main_arg5) : S256x1024.Idx → EReal) y :=
  (blk3_apply m c t y).trans (congrFun (Cert.KernelHostParams.w1_eq m c) y)

/-- Window 4's block is the argument vector `main_arg6` as a row. -/
theorem b1_read (c : Dev nD) (t : Fin cfg0.N) (j : Fin 1024) :
    (iblk m c 4 t : Vec Ideal S1x1024 .f32) (ix2 (0 : Fin 1) j) = (m ((c : Thread nD τ).loc main_arg6) : S1024.Idx → EReal) (ix1 j) :=
  (blk4_apply m c t (ix2 (0 : Fin 1) j)).trans (Cert.KernelHostParams.b1_apply m c j)

/-- Window 5's block is the argument vector `main_arg7` as a row. -/
theorem g1_read (c : Dev nD) (t : Fin cfg0.N) (j : Fin 1024) :
    (iblk m c 5 t : Vec Ideal S1x1024 .f32) (ix2 (0 : Fin 1) j) = (m ((c : Thread nD τ).loc main_arg7) : S1024.Idx → EReal) (ix1 j) :=
  (blk5_apply m c t (ix2 (0 : Fin 1) j)).trans (Cert.KernelHostParams.g1_apply m c j)

/-- Window 6's block is the argument vector `main_arg8` as a row. -/
theorem be1_read (c : Dev nD) (t : Fin cfg0.N) (j : Fin 1024) :
    (iblk m c 6 t : Vec Ideal S1x1024 .f32) (ix2 (0 : Fin 1) j) = (m ((c : Thread nD τ).loc main_arg8) : S1024.Idx → EReal) (ix1 j) :=
  (blk6_apply m c t (ix2 (0 : Fin 1) j)).trans (Cert.KernelHostParams.be1_apply m c j)

/-- Window 7's block is the argument array `main_arg9`. -/
theorem w2_read (c : Dev nD) (t : Fin cfg0.N) (y : S1024x512.Idx) :
    (iblk m c 7 t : Vec Ideal S1024x512 .bf16) y = (m ((c : Thread nD τ).loc main_arg9) : S1024x512.Idx → EReal) y :=
  (blk7_apply m c t y).trans (congrFun (Cert.KernelHostParams.w2_eq m c) y)

/-- Window 8's block is the argument vector `main_arg10` as a row. -/
theorem b2_read (c : Dev nD) (t : Fin cfg0.N) (j : Fin 512) :
    (iblk m c 8 t : Vec Ideal S1x512 .f32) (ix2 (0 : Fin 1) j) = (m ((c : Thread nD τ).loc main_arg10) : S512.Idx → EReal) (ix1 j) :=
  (blk8_apply m c t (ix2 (0 : Fin 1) j)).trans (Cert.KernelHostParams.b2_apply m c j)

/-- Window 9's block is the argument vector `main_arg11` as a row. -/
theorem g2_read (c : Dev nD) (t : Fin cfg0.N) (j : Fin 512) :
    (iblk m c 9 t : Vec Ideal S1x512 .f32) (ix2 (0 : Fin 1) j) = (m ((c : Thread nD τ).loc main_arg11) : S512.Idx → EReal) (ix1 j) :=
  (blk9_apply m c t (ix2 (0 : Fin 1) j)).trans (Cert.KernelHostParams.g2_apply m c j)

/-- Window 10's block is the argument vector `main_arg12` as a row. -/
theorem be2_read (c : Dev nD) (t : Fin cfg0.N) (j : Fin 512) :
    (iblk m c 10 t : Vec Ideal S1x512 .f32) (ix2 (0 : Fin 1) j) = (m ((c : Thread nD τ).loc main_arg12) : S512.Idx → EReal) (ix1 j) :=
  (blk10_apply m c t (ix2 (0 : Fin 1) j)).trans (Cert.KernelHostParams.be2_apply m c j)

/-- Window 11's block is the argument array `main_arg13`. -/
theorem wmu_read (c : Dev nD) (t : Fin cfg0.N) (y : S512x16.Idx) :
    (iblk m c 11 t : Vec Ideal S512x16 .bf16) y = (m ((c : Thread nD τ).loc main_arg13) : S512x16.Idx → EReal) y :=
  (blk11_apply m c t y).trans (congrFun (Cert.KernelHostParams.wmu_eq m c) y)

/-- Window 12's block is the argument vector `main_arg14` as a row. -/
theorem bmu_read (c : Dev nD) (t : Fin cfg0.N) (j : Fin 16) :
    (iblk m c 12 t : Vec Ideal S1x16 .f32) (ix2 (0 : Fin 1) j) = (m ((c : Thread nD τ).loc main_arg14) : S16.Idx → EReal) (ix1 j) :=
  (blk12_apply m c t (ix2 (0 : Fin 1) j)).trans (Cert.KernelHostParams.bmu_apply m c j)

/-! ## What a point writes back -/

/-- ONE ENTRY of what point `t` computes: entry `(p, q)` of the body's stored value over the thirteen blocks is the
    network's output at agent (block index × 2048 + p), action `q`. -/
theorem point_apply (c : Dev nD) (t : Fin cfg0.N) (y : S2048x16.Idx) (a : Fin 8192)
    (ha : a.val = win0_13.index t (0 : Fin 2) * 2048 + (y 0).val) :
    k0_pay1 (k0_pay4 (k0_pay2 (iblk m c 0 t) (iblk m c 1 t) (iblk m c 2 t) (iblk m c 3 t) (iblk m c 4 t)) (k0_pay3 (iblk m c 5 t))
        (iblk m c 6 t) (iblk m c 7 t) (iblk m c 8 t) (iblk m c 9 t) (iblk m c 10 t)) (k0_pay5 (F := Ideal)) (iblk m c 11 t) (iblk m c 12 t) y
      = Cert.ActorNet.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (ix2 a (y 1)) := by
  obtain ⟨p, q, rfl⟩ : ∃ (p : Fin 2048) (q : Fin 16), y = ix2 p q := ⟨y 0, y 1, eq_ix2 y⟩
  refine (Cert.KernelHead.payload_apply (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t) p q).trans ?_
  show _ = Cert.ActorNet.outAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) a q
  unfold Cert.ActorNet.outAt
  simp only [feat_read m c t p _ a ha, wgcn_read m c t, bgcn_read m c t, w1_read m c t, b1_read m c t, g1_read m c t, be1_read m c t,
    w2_read m c t, b2_read m c t, g2_read m c t, be2_read m c t, wmu_read m c t, bmu_read m c t]

/-- The output window at point `t`: a read through its block at row `p` is the array at row (block index × 2048 + p), same column. -/
theorem read13 (t : Fin cfg0.N) (G : S8192x16.Idx → EReal) (y : S2048x16.Idx) (a : Fin 8192)
    (ha : a.val = win0_13.index t (0 : Fin 2) * 2048 + (y 0).val) :
    ((cfg0.win 13).blk t).view.read (Elt Ideal) G y = G (ix2 a (y 1)) := by
  obtain ⟨e0, e1, e2, e3, z1a, z1b, z2a, z2b, z3a, z3b, z4a, z4b, z5a, z5b, z6a, z6b, z7a, z7b, z8a, z8b, z9a, z9b, z10a, z10b, z11a, z11b, z12a, z12b⟩ := idx_facts t
  have hemb : (((cfg0.win 13).blk t).view.emb y : S8192x16.Idx) = ix2 a (y 1) := by
    funext ax; apply Fin.ext
    match ax with
    | ⟨0, _⟩ => show win0_13.index t (0 : Fin 2) * 2048 + 1 * (y 0).val = a.val; rw [ha]; omega
    | ⟨1, _⟩ => show win0_13.index t (1 : Fin 2) * 16 + 1 * (y 1).val = (y 1).val; rw [e2]; omega
  show G (((cfg0.win 13).blk t).view.emb y) = G (ix2 a (y 1))
  exact congrArg G hemb

/-- WHAT POINT `t` WRITES BACK is block `t` of the network's output array. -/
theorem flushed_eq (c : Dev nD) (t : Fin cfg0.N) :
    (dats m 0 c).flushed 13 t = ((cfg0.win 13).blk t).view.read (Elt Ideal)
      (Cert.ActorNet.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) := by
  rw [Value.flushed13]
  unfold out0_13
  rw [View.canon_unit_zero zeros2]
  simp only [View.ld_unit_zero (S := S2048x128) zeros2, View.ld_unit_zero (S := S128x256) zeros2, View.ld_unit_zero (S := S1x256) zeros2,
    View.ld_unit_zero (S := S256x1024) zeros2, View.ld_unit_zero (S := S1x1024) zeros2, View.ld_unit_zero (S := S1024x512) zeros2,
    View.ld_unit_zero (S := S1x512) zeros2, View.ld_unit_zero (S := S512x16) zeros2, View.ld_unit_zero (S := S1x16) zeros2]
  obtain ⟨e0, e1, e2, e3, z1a, z1b, z2a, z2b, z3a, z3b, z4a, z4b, z5a, z5b, z6a, z6b, z7a, z7b, z8a, z8b, z9a, z9b, z10a, z10b, z11a, z11b, z12a, z12b⟩ := idx_facts t
  funext j
  have hj0 : (j 0).val < 2048 := (j 0).isLt
  exact (point_apply m c t j ⟨win0_13.index t (0 : Fin 2) * 2048 + (j 0).val, by omega⟩ rfl).trans
    (read13 t (Cert.ActorNet.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) j ⟨win0_13.index t (0 : Fin 2) * 2048 + (j 0).val, by omega⟩ rfl).symm

/-! ## The whole array -/

/-- An index of the output array is in point `t`'s block iff each coordinate is in the block's range on its axis. -/
theorem mem_blk (t : Fin cfg0.N) (i : S8192x16.Idx) :
    i ∈ ((cfg0.win 13).blk t).view.set ↔ ∀ a : Fin 2, win0_13.index t a * S2048x16.size a ≤ (i a).val ∧ (i a).val < win0_13.index t a * S2048x16.size a + S2048x16.size a := by
  show i ∈ ((View.whole main_v63).slice (win0_13.rect t)).set ↔ _
  rw [View.set_slice_whole, Rect.mem_set_unit]
  exact Iff.rfl

/-- Every index of the output array is in some point's block: row `r` is in the block of the point whose row block is `r / 2048`. -/
theorem cover (i : S8192x16.Idx) : ∃ t : Fin cfg0.N, (cfg0.win 13).flush t = true ∧ i ∈ ((cfg0.win 13).blk t).view.set := by
  have hi0 : (i 0).val < 8192 := (i 0).isLt
  have hi1 : (i 1).val < 16 := (i 1).isLt
  obtain ⟨t, ht⟩ := idx_onto ⟨(i 0).val / 2048, by omega⟩
  have q0 : win0_13.index t (0 : Fin 2) = (i 0).val / 2048 := congrFun ht 0
  have q1 : win0_13.index t (1 : Fin 2) = 0 := congrFun ht 1
  refine ⟨t, flush0_13 t, ?_⟩
  rw [mem_blk]
  intro a
  match a with
  | ⟨0, _⟩ => show win0_13.index t (0 : Fin 2) * 2048 ≤ (i 0).val ∧ (i 0).val < win0_13.index t (0 : Fin 2) * 2048 + 2048; omega
  | ⟨1, _⟩ => show win0_13.index t (1 : Fin 2) * 16 ≤ (i 1).val ∧ (i 1).val < win0_13.index t (1 : Fin 2) * 16 + 16; omega

/-- THE OUTPUT ARRAY after the run is the network's output as a function of the argument arrays. -/
theorem final (c : Dev nD) : (dats m 0 c).arrAt 13 cfg0.N
    = Cert.ActorNet.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) :=
  (dats m 0 c).arrAt_eq_of_cover 13 (Cert.ActorNet.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)))
    (fun t _ => flushed_eq m c t) cover

/-- The run, read: the result array at the network's output, the arguments unchanged. -/
theorem run : θ_run defs (onTc (τ := τ) (main (F := Ideal))) ⟨m, fun _ => 0, ρ⟩ fun r => ∀ c : Dev nD,
      r.2.mem ((c : Thread nD τ).loc main_v63) = Cert.ActorNet.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(h c).1.trans (final m c), (h c).2⟩) (Value.run_blocks m ρ)

end Cert.KernelValue

end
-- ==== Proof.RefHead.lean ====
/-
  The reference program's dense head, read at an entry.

  The reference computes the head of the actor network on all 8192 rows at once, one array operation after another:
  the positive part of the 256 pre-activations, a matrix product with the first weight matrix plus a bias, the
  row's mean and variance as sums over the row divided by the row length, the normalised row times a gain plus a
  shift, the positive part, the same again at width 512, a last matrix product plus a bias, and the quotient
  `1 / (1 + exp (−z))`. Read at row `a`, every one of these operations only looks at row `a` of its operands,
  so the last stage at `(a, o)` is the specification's `head` of row `a` of the pre-activations. Each lemma below
  reads one group of operations at an entry, stated over the previous group's stage so that nothing is opened twice;
  the index functions the array operations compute are identified with the coordinates they stand for.
-/
import proofs.«177900_j35081292874064_2_alg».proof.Proof.RefReadPatched
import proofs.«177900_j35081292874064_2_alg».proof.Proof.ActorHead
import Idealize.ShloMosaic.Lib.IdealHost

noncomputable section

open scoped BigOperators
open Idealize.ShloMosaic Idealize.ShloMosaic.ValueIdx Cert.ReferenceIdeal Cert.ReferenceIdeal.Read

namespace Cert.RefHead

open Cert.ActorHead

variable (x0 : (⟨S50000x128, .f32⟩ : BufTy).Contents (Elt Ideal)) (x1 : (⟨S2x800000, .i32⟩ : BufTy).Contents (Elt Ideal))
  (x2 : (⟨S8192, .i32⟩ : BufTy).Contents (Elt Ideal)) (x3 : (⟨S128x256, .f32⟩ : BufTy).Contents (Elt Ideal))
  (x4 : (⟨S256, .f32⟩ : BufTy).Contents (Elt Ideal)) (x5 : (⟨S256x1024, .f32⟩ : BufTy).Contents (Elt Ideal))
  (x6 x7 x8 : (⟨S1024, .f32⟩ : BufTy).Contents (Elt Ideal)) (x9 : (⟨S1024x512, .f32⟩ : BufTy).Contents (Elt Ideal))
  (x10 x11 x12 : (⟨S512, .f32⟩ : BufTy).Contents (Elt Ideal)) (x13 : (⟨S512x16, .f32⟩ : BufTy).Contents (Elt Ideal))
  (x14 : (⟨S16, .f32⟩ : BufTy).Contents (Elt Ideal))

/-- The first positive part, at an entry of a row. -/
theorem v56_at (a : Fin 8192) (j : Fin 256) :
    val_main_v56 (F := Ideal) x0 x1 x2 x3 x4 (ix2 a j) = max (val_main_v55 (F := Ideal) x0 x1 x2 x3 x4 (ix2 a j)) 0 := by
  rw [val_main_v56_apply, val_main_call1_v0_apply, val_main_call1_cst_apply, Ideal.maximumf_def, Ideal.ofBits_def,
    Ideal.ofBits_zero_f32]

/-- The first affine map, at an entry of a row. -/
theorem v60_at (a : Fin 8192) (n : Fin 1024) :
    val_main_v60 (F := Ideal) x0 x1 x2 x3 x4 x5 x6 (ix2 a n)
      = dense (fun j => max (val_main_v55 (F := Ideal) x0 x1 x2 x3 x4 (ix2 a j)) 0) (fun k n => x5 (ix2 k n))
          (fun n => x6 (ix1 n)) n := by
  have el : ∀ k : Fin 256, lidx_main_v57 (ix2 a n) k = ix2 a k := fun k =>
    funext fun b => Fin.ext (by match b with | ⟨0, _⟩ => rfl | ⟨1, _⟩ => rfl)
  have er : ∀ k : Fin 256, ridx_main_v57 (ix2 a n) k = ix2 k n := fun k =>
    funext fun b => Fin.ext (by match b with | ⟨0, _⟩ => rfl | ⟨1, _⟩ => rfl)
  have eb : idx_main_v58 (idx_main_v59 (ix2 a n)) = ix1 n :=
    funext fun b => Fin.ext (by match b with | ⟨0, _⟩ => rfl)
  rw [val_main_v60_apply, val_main_v57_apply, val_main_v59_apply, val_main_v58_apply, eb, Ideal.addf_def]
  unfold dense
  refine congrArg₂ (· + ·) (Finset.sum_congr rfl fun k _ => ?_) rfl
  rw [el, er, v56_at]

/-- The mean of the first affine map's row. -/
theorem v64_at (a : Fin 8192) :
    val_main_v64 (F := Ideal) x0 x1 x2 x3 x4 x5 x6 (ix2 a (0 : Fin 1))
      = mean c1024 (fun l => val_main_v60 (F := Ideal) x0 x1 x2 x3 x4 x5 x6 (ix2 a l)) := by
  have e1 : idx_main_v62 (ix2 a (0 : Fin 1)) = ix1 a := funext fun b => Fin.ext (by match b with | ⟨0, _⟩ => rfl)
  have e2 : ∀ k : Fin 1024, idx_main_v61 (ix1 a) k = ix2 a k := fun k =>
    funext fun b => Fin.ext (by match b with | ⟨0, _⟩ => rfl | ⟨1, _⟩ => rfl)
  rw [val_main_v64_apply, val_main_v62_apply, val_main_v63_apply, val_main_cst_13_apply, e1, val_main_v61_apply,
    val_main_cst_12_apply]
  simp only [Ideal.hostDivf_def, Ideal.ofBits_def, Ideal.ofBits_zero_f32, zero_add]
  unfold mean
  exact congrArg₂ Ideal.div (Finset.sum_congr rfl fun k _ => by rw [e2]) rfl

/-- The variance of the first affine map's row. -/
theorem v71_at (a : Fin 8192) :
    val_main_v71 (F := Ideal) x0 x1 x2 x3 x4 x5 x6 (ix2 a (0 : Fin 1))
      = variance c1024 (fun l => val_main_v60 (F := Ideal) x0 x1 x2 x3 x4 x5 x6 (ix2 a l)) := by
  have e1 : idx_main_v69 (ix2 a (0 : Fin 1)) = ix1 a := funext fun b => Fin.ext (by match b with | ⟨0, _⟩ => rfl)
  have e2 : ∀ k : Fin 1024, idx_main_v68 (ix1 a) k = ix2 a k := fun k =>
    funext fun b => Fin.ext (by match b with | ⟨0, _⟩ => rfl | ⟨1, _⟩ => rfl)
  have e3 : ∀ k : Fin 1024, idx_main_v65 (ix2 a k) = ix2 a (0 : Fin 1) := fun k =>
    funext fun b => Fin.ext (by match b with | ⟨0, _⟩ => rfl | ⟨1, _⟩ => rfl)
  rw [val_main_v71_apply, val_main_v69_apply, val_main_v70_apply, val_main_cst_15_apply, e1, val_main_v68_apply,
    val_main_cst_14_apply]
  simp only [Ideal.hostDivf_def, Ideal.ofBits_def, Ideal.ofBits_zero_f32, zero_add]
  unfold variance
  refine congrArg₂ Ideal.div (Finset.sum_congr rfl fun k _ => ?_) rfl
  rw [e2, val_main_v67_apply, val_main_v66_apply, val_main_v65_apply, e3, v64_at, Ideal.mulf_def, Ideal.subf_def]

/-- The first layer normalisation, at an entry of a row. -/
theorem v84_at (a : Fin 8192) (n : Fin 1024) :
    val_main_v84 (F := Ideal) x0 x1 x2 x3 x4 x5 x6 x7 x8 (ix2 a n)
      = layerNorm c1024 epsLN (fun l => val_main_v60 (F := Ideal) x0 x1 x2 x3 x4 x5 x6 (ix2 a l))
          (fun n => x7 (ix1 n)) (fun n => x8 (ix1 n)) n := by
  have e72 : idx_main_v72 (ix2 a n) = ix2 a (0 : Fin 1) :=
    funext fun b => Fin.ext (by match b with | ⟨0, _⟩ => rfl | ⟨1, _⟩ => rfl)
  have e77 : idx_main_v77 (ix2 a n) = ix2 a (0 : Fin 1) :=
    funext fun b => Fin.ext (by match b with | ⟨0, _⟩ => rfl | ⟨1, _⟩ => rfl)
  have e80 : idx_main_v79 (idx_main_v80 (ix2 a n)) = ix1 n := funext fun b => Fin.ext (by match b with | ⟨0, _⟩ => rfl)
  have e83 : idx_main_v82 (idx_main_v83 (ix2 a n)) = ix1 n := funext fun b => Fin.ext (by match b with | ⟨0, _⟩ => rfl)
  rw [val_main_v84_apply, val_main_v81_apply, val_main_v78_apply, val_main_v73_apply, val_main_v72_apply, e72,
    val_main_v77_apply, e77, val_main_v76_apply, val_main_v75_apply, val_main_v74_apply, val_main_cst_16_apply,
    val_main_v80_apply, val_main_v79_apply, e80, val_main_v83_apply, val_main_v82_apply, e83, v64_at, v71_at]
  simp only [Ideal.addf_def, Ideal.mulf_def, Ideal.subf_def, Ideal.hostUnary_rsqrt_def, Ideal.ofBits_def]
  rfl

/-- The first hidden layer, at an entry of a row: the specification's `hidden1` of the row of pre-activations. -/
theorem v85_at (a : Fin 8192) (n : Fin 1024) :
    val_main_v85 (F := Ideal) x0 x1 x2 x3 x4 x5 x6 x7 x8 (ix2 a n)
      = hidden1 (fun j => val_main_v55 (F := Ideal) x0 x1 x2 x3 x4 (ix2 a j)) (fun k n => x5 (ix2 k n))
          (fun n => x6 (ix1 n)) (fun n => x7 (ix1 n)) (fun n => x8 (ix1 n)) n := by
  rw [val_main_v85_apply, val_main_call2_v0_apply, val_main_call2_cst_apply, v84_at, Ideal.maximumf_def, Ideal.ofBits_def,
    Ideal.ofBits_zero_f32]
  unfold hidden1
  rw [show (fun l => val_main_v60 (F := Ideal) x0 x1 x2 x3 x4 x5 x6 (ix2 a l))
      = dense (fun j => max (val_main_v55 (F := Ideal) x0 x1 x2 x3 x4 (ix2 a j)) 0) (fun k n => x5 (ix2 k n))
          (fun n => x6 (ix1 n)) from funext fun l => v60_at x0 x1 x2 x3 x4 x5 x6 a l]

/-- The second affine map, at an entry of a row, over the first hidden layer's row. -/
theorem v89_at (a : Fin 8192) (p : Fin 512) :
    val_main_v89 (F := Ideal) x0 x1 x2 x3 x4 x5 x6 x7 x8 x9 x10 (ix2 a p)
      = dense (fun n => val_main_v85 (F := Ideal) x0 x1 x2 x3 x4 x5 x6 x7 x8 (ix2 a n)) (fun n p => x9 (ix2 n p))
          (fun p => x10 (ix1 p)) p := by
  have el : ∀ k : Fin 1024, lidx_main_v86 (ix2 a p) k = ix2 a k := fun k =>
    funext fun b => Fin.ext (by match b with | ⟨0, _⟩ => rfl | ⟨1, _⟩ => rfl)
  have er : ∀ k : Fin 1024, ridx_main_v86 (ix2 a p) k = ix2 k p := fun k =>
    funext fun b => Fin.ext (by match b with | ⟨0, _⟩ => rfl | ⟨1, _⟩ => rfl)
  have eb : idx_main_v87 (idx_main_v88 (ix2 a p)) = ix1 p :=
    funext fun b => Fin.ext (by match b with | ⟨0, _⟩ => rfl)
  rw [val_main_v89_apply, val_main_v86_apply, val_main_v88_apply, val_main_v87_apply, eb, Ideal.addf_def]
  unfold dense
  refine congrArg₂ (· + ·) (Finset.sum_congr rfl fun k _ => ?_) rfl
  rw [el, er]

/-- The mean of the second affine map's row. -/
theorem v93_at (a : Fin 8192) :
    val_main_v93 (F := Ideal) x0 x1 x2 x3 x4 x5 x6 x7 x8 x9 x10 (ix2 a (0 : Fin 1))
      = mean c512 (fun l => val_main_v89 (F := Ideal) x0 x1 x2 x3 x4 x5 x6 x7 x8 x9 x10 (ix2 a l)) := by
  have e1 : idx_main_v91 (ix2 a (0 : Fin 1)) = ix1 a := funext fun b => Fin.ext (by match b with | ⟨0, _⟩ => rfl)
  have e2 : ∀ k : Fin 512, idx_main_v90 (ix1 a) k = ix2 a k := fun k =>
    funext fun b => Fin.ext (by match b with | ⟨0, _⟩ => rfl | ⟨1, _⟩ => rfl)
  rw [val_main_v93_apply, val_main_v91_apply, val_main_v92_apply, val_main_cst_18_apply, e1, val_main_v90_apply,
    val_main_cst_17_apply]
  simp only [Ideal.hostDivf_def, Ideal.ofBits_def, Ideal.ofBits_zero_f32, zero_add]
  unfold mean
  exact congrArg₂ Ideal.div (Finset.sum_congr rfl fun k _ => by rw [e2]) rfl

/-- The variance of the second affine map's row. -/
theorem v100_at (a : Fin 8192) :
    val_main_v100 (F := Ideal) x0 x1 x2 x3 x4 x5 x6 x7 x8 x9 x10 (ix2 a (0 : Fin 1))
      = variance c512 (fun l => val_main_v89 (F := Ideal) x0 x1 x2 x3 x4 x5 x6 x7 x8 x9 x10 (ix2 a l)) := by
  have e1 : idx_main_v98 (ix2 a (0 : Fin 1)) = ix1 a := funext fun b => Fin.ext (by match b with | ⟨0, _⟩ => rfl)
  have e2 : ∀ k : Fin 512, idx_main_v97 (ix1 a) k = ix2 a k := fun k =>
    funext fun b => Fin.ext (by match b with | ⟨0, _⟩ => rfl | ⟨1, _⟩ => rfl)
  have e3 : ∀ k : Fin 512, idx_main_v94 (ix2 a k) = ix2 a (0 : Fin 1) := fun k =>
    funext fun b => Fin.ext (by match b with | ⟨0, _⟩ => rfl | ⟨1, _⟩ => rfl)
  rw [val_main_v100_apply, val_main_v98_apply, val_main_v99_apply, val_main_cst_20_apply, e1, val_main_v97_apply,
    val_main_cst_19_apply]
  simp only [Ideal.hostDivf_def, Ideal.ofBits_def, Ideal.ofBits_zero_f32, zero_add]
  unfold variance
  refine congrArg₂ Ideal.div (Finset.sum_congr rfl fun k _ => ?_) rfl
  rw [e2, val_main_v96_apply, val_main_v95_apply, val_main_v94_apply, e3, v93_at, Ideal.mulf_def, Ideal.subf_def]

/-- The second layer normalisation, at an entry of a row. -/
theorem v113_at (a : Fin 8192) (n : Fin 512) :
    val_main_v113 (F := Ideal) x0 x1 x2 x3 x4 x5 x6 x7 x8 x9 x10 x11 x12 (ix2 a n)
      = layerNorm c512 epsLN (fun l => val_main_v89 (F := Ideal) x0 x1 x2 x3 x4 x5 x6 x7 x8 x9 x10 (ix2 a l))
          (fun n => x11 (ix1 n)) (fun n => x12 (ix1 n)) n := by
  have e101 : idx_main_v101 (ix2 a n) = ix2 a (0 : Fin 1) :=
    funext fun b => Fin.ext (by match b with | ⟨0, _⟩ => rfl | ⟨1, _⟩ => rfl)
  have e106 : idx_main_v106 (ix2 a n) = ix2 a (0 : Fin 1) :=
    funext fun b => Fin.ext (by match b with | ⟨0, _⟩ => rfl | ⟨1, _⟩ => rfl)
  have e109 : idx_main_v108 (idx_main_v109 (ix2 a n)) = ix1 n := funext fun b => Fin.ext (by match b with | ⟨0, _⟩ => rfl)
  have e112 : idx_main_v111 (idx_main_v112 (ix2 a n)) = ix1 n := funext fun b => Fin.ext (by match b with | ⟨0, _⟩ => rfl)
  rw [val_main_v113_apply, val_main_v110_apply, val_main_v107_apply, val_main_v102_apply, val_main_v101_apply, e101,
    val_main_v106_apply, e106, val_main_v105_apply, val_main_v104_apply, val_main_v103_apply, val_main_cst_21_apply,
    val_main_v109_apply, val_main_v108_apply, e109, val_main_v112_apply, val_main_v111_apply, e112, v93_at, v100_at]
  simp only [Ideal.addf_def, Ideal.mulf_def, Ideal.subf_def, Ideal.hostUnary_rsqrt_def, Ideal.ofBits_def]
  rfl

/-- The second hidden layer, at an entry of a row: the specification's `hidden2` of the first hidden layer's row. -/
theorem v114_at (a : Fin 8192) (p : Fin 512) :
    val_main_v114 (F := Ideal) x0 x1 x2 x3 x4 x5 x6 x7 x8 x9 x10 x11 x12 (ix2 a p)
      = hidden2 (fun n => val_main_v85 (F := Ideal) x0 x1 x2 x3 x4 x5 x6 x7 x8 (ix2 a n)) (fun n p => x9 (ix2 n p))
          (fun p => x10 (ix1 p)) (fun p => x11 (ix1 p)) (fun p => x12 (ix1 p)) p := by
  rw [val_main_v114_apply, val_main_call3_v0_apply, val_main_call3_cst_apply, v113_at, Ideal.maximumf_def, Ideal.ofBits_def,
    Ideal.ofBits_zero_f32]
  unfold hidden2
  rw [show (fun l => val_main_v89 (F := Ideal) x0 x1 x2 x3 x4 x5 x6 x7 x8 x9 x10 (ix2 a l))
      = dense (fun n => val_main_v85 (F := Ideal) x0 x1 x2 x3 x4 x5 x6 x7 x8 (ix2 a n)) (fun n p => x9 (ix2 n p))
          (fun p => x10 (ix1 p)) from funext fun l => v89_at x0 x1 x2 x3 x4 x5 x6 x7 x8 x9 x10 a l]

/-- The last affine map, at an entry of a row, over the second hidden layer's row. -/
theorem v118_at (a : Fin 8192) (o : Fin 16) :
    val_main_v118 (F := Ideal) x0 x1 x2 x3 x4 x5 x6 x7 x8 x9 x10 x11 x12 x13 x14 (ix2 a o)
      = dense (fun p => val_main_v114 (F := Ideal) x0 x1 x2 x3 x4 x5 x6 x7 x8 x9 x10 x11 x12 (ix2 a p))
          (fun p o' => x13 (ix2 p o')) (fun o' => x14 (ix1 o')) o := by
  have el : ∀ k : Fin 512, lidx_main_v115 (ix2 a o) k = ix2 a k := fun k =>
    funext fun b => Fin.ext (by match b with | ⟨0, _⟩ => rfl | ⟨1, _⟩ => rfl)
  have er : ∀ k : Fin 512, ridx_main_v115 (ix2 a o) k = ix2 k o := fun k =>
    funext fun b => Fin.ext (by match b with | ⟨0, _⟩ => rfl | ⟨1, _⟩ => rfl)
  have eb : idx_main_v116 (idx_main_v117 (ix2 a o)) = ix1 o :=
    funext fun b => Fin.ext (by match b with | ⟨0, _⟩ => rfl)
  rw [val_main_v118_apply, val_main_v115_apply, val_main_v117_apply, val_main_v116_apply, eb, Ideal.addf_def]
  unfold dense
  refine congrArg₂ (· + ·) (Finset.sum_congr rfl fun k _ => ?_) rfl
  rw [el, er]

/-- THE REFERENCE'S LAST STAGE AT AN ENTRY is the specification's head of the row of pre-activations: the quotient
    `1 / (1 + exp (−z))` the program spells out is the logistic function of the last affine map's entry. -/
theorem result_apply (a : Fin 8192) (o : Fin 16) :
    val_main_v124 (F := Ideal) x0 x1 x2 x3 x4 x5 x6 x7 x8 x9 x10 x11 x12 x13 x14 (ix2 a o)
      = Cert.ActorHead.head (fun j => val_main_v55 (F := Ideal) x0 x1 x2 x3 x4 (ix2 a j))
          (fun k n => x5 (ix2 k n)) (fun n => x6 (ix1 n)) (fun n => x7 (ix1 n)) (fun n => x8 (ix1 n))
          (fun n p => x9 (ix2 n p)) (fun p => x10 (ix1 p)) (fun p => x11 (ix1 p)) (fun p => x12 (ix1 p))
          (fun p o' => x13 (ix2 p o')) (fun o' => x14 (ix1 o')) o := by
  rw [val_main_v124_apply, val_main_v123_apply, val_main_cst_23_apply, val_main_v122_apply, val_main_v121_apply,
    val_main_cst_22_apply, val_main_v120_apply, val_main_v119_apply, v118_at]
  simp only [Ideal.ofBits_def, Ideal.ofBits_one_f32, Ideal.hostDivf_def, Ideal.addf_def, Ideal.hostUnary_exp_def,
    Ideal.hostNegf_def, Ideal.negf_def]
  unfold head
  rw [show (fun p => val_main_v114 (F := Ideal) x0 x1 x2 x3 x4 x5 x6 x7 x8 x9 x10 x11 x12 (ix2 a p))
      = hidden2 (fun n => val_main_v85 (F := Ideal) x0 x1 x2 x3 x4 x5 x6 x7 x8 (ix2 a n)) (fun n p => x9 (ix2 n p))
          (fun p => x10 (ix1 p)) (fun p => x11 (ix1 p)) (fun p => x12 (ix1 p))
      from funext fun p => v114_at x0 x1 x2 x3 x4 x5 x6 x7 x8 x9 x10 x11 x12 a p,
    show (fun n => val_main_v85 (F := Ideal) x0 x1 x2 x3 x4 x5 x6 x7 x8 (ix2 a n))
      = hidden1 (fun j => val_main_v55 (F := Ideal) x0 x1 x2 x3 x4 (ix2 a j)) (fun k n => x5 (ix2 k n))
          (fun n => x6 (ix1 n)) (fun n => x7 (ix1 n)) (fun n => x8 (ix1 n))
      from funext fun n => v85_at x0 x1 x2 x3 x4 x5 x6 x7 x8 a n]
  rfl

end Cert.RefHead

end
-- ==== Proof.RefGcn.lean ====
/-
  The reference's graph convolution read at an index.

  Row `a`, column `j` of the gathered convolution output is the bias `b[j]` plus the sum, over the edges `e` whose
  destination is the node agent `a` selects, of the projected source features `Σ k, x[src e, k] * W[k, j]` times the
  edge's weight: a row gather of (a row scatter-add into zeros plus a broadcast bias), the updates being a row gather of
  the matrix product scaled by the weight column.
-/
import proofs.«177900_j35081292874064_2_alg».proof.Proof.RefReadPatched
import proofs.«177900_j35081292874064_2_alg».proof.Proof.LibRowGather
import proofs.«177900_j35081292874064_2_alg».proof.Proof.LibScatterLinear
import proofs.«177900_j35081292874064_2_alg».proof.Proof.EdgeSum

noncomputable section

open scoped BigOperators
open Idealize.ShloMosaic Idealize.ShloMosaic.ValueIdx Cert.ReferenceIdeal Cert.ReferenceIdeal.Read Cert.EdgeSum

namespace Cert.RefGcn

variable (x0 : (⟨S50000x128, .f32⟩ : BufTy).Contents (Elt Ideal)) (x1 : (⟨S2x800000, .i32⟩ : BufTy).Contents (Elt Ideal))
  (x2 : (⟨S8192, .i32⟩ : BufTy).Contents (Elt Ideal)) (x3 : (⟨S128x256, .f32⟩ : BufTy).Contents (Elt Ideal))
  (x4 : (⟨S256, .f32⟩ : BufTy).Contents (Elt Ideal))

/-- The scatter's operand is the zero matrix. -/
theorem zeros_eq : val_main_v43 (F := Ideal) = fun _ => (0 : EReal) := by
  funext i
  rw [val_main_v43_apply, val_main_cst_9_apply]
  exact Ideal.ofBits_zero_f32

/-- The projected features of node `s`, column `j`. -/
theorem proj_apply (s : Fin 50000) (j : Fin 256) :
    val_main_v32 (F := Ideal) x0 x3 (ix2 s j) = ∑ k : Fin 128, x0 (ix2 s k) * x3 (ix2 k j) := by
  rw [val_main_v32_apply]
  refine Finset.sum_congr rfl fun k _ => ?_
  have el : lidx_main_v32 (ix2 s j) k = ix2 s k :=
    funext fun b => Fin.ext (by match b with | ⟨0, _⟩ => rfl | ⟨1, _⟩ => rfl)
  have er : ridx_main_v32 (ix2 s j) k = ix2 k j :=
    funext fun b => Fin.ext (by match b with | ⟨0, _⟩ => rfl | ⟨1, _⟩ => rfl)
  rw [el, er]

/-- One update element: edge `e`'s projected source features times its weight. -/
theorem update_apply (e : Fin 850000) (j : Fin 256) :
    val_main_v42 (F := Ideal) x0 x1 x3 (ix2 e j)
      = (∑ k : Fin 128, x0 (ix2 (srcRow x1 e) k) * x3 (ix2 k j)) * val_main_v31 (F := Ideal) x1 (ix1 e) := by
  rw [val_main_v42_apply, val_main_v41_apply, val_main_v40_apply]
  have hw : idx_main_v40 (idx_main_v41 (ix2 e j)) = ix1 e :=
    funext fun b => Fin.ext (by match b with | ⟨0, _⟩ => rfl)
  rw [hw]
  have hg : val_main_v39 (F := Ideal) x0 x1 x3 (ix2 e j) = val_main_v32 (F := Ideal) x0 x3 (ix2 (srcRow x1 e) j) :=
    Cert.Lib.RowGather.rowGather_apply (by decide) Facts₀.gather_S50000x256_S850000x1_S850000x256_1_0_n_n_0_1_1256_wf
      (val_main_v32 (F := Ideal) x0 x3) (val_main_v38 (F := Ideal) x1) e j
  rw [hg, proj_apply]
  rfl

/-- The printed scatter's dimension numbers are a row scatter's. -/
theorem scatterDims_eq : scatter_S50000x256_S850000x1_S850000x256_1_0_0_1
    = Cert.Lib.RowScatterAdd.rowScatterDims 50000 256 850000 Facts₀.scatter_S50000x256_S850000x1_S850000x256_1_0_0_1_wf := rfl

/-- The accumulated matrix at node `v`, column `j`. -/
theorem scattered_apply (v : Fin 50000) (j : Fin 256) :
    val_main_v45 (F := Ideal) x0 x1 x3 (ix2 v j)
      = ∑ e ∈ landing x1 v, (∑ k : Fin 128, x0 (ix2 (srcRow x1 e) k) * x3 (ix2 k j)) * val_main_v31 (F := Ideal) x1 (ix1 e) := by
  unfold val_main_v45
  rw [zeros_eq, Cert.Lib.ScatterLinear.scatterAdd_ideal, scatterDims_eq, Cert.Lib.ScatterLinear.rowScatterAdd_zero_apply]
  exact Finset.sum_congr rfl fun e _ => update_apply x0 x1 x3 e j

/-- THE REFERENCE'S CONVOLUTION OUTPUT for agent `a`, column `j`. -/
theorem gcn_apply (a : Fin 8192) (j : Fin 256) :
    val_main_v55 (F := Ideal) x0 x1 x2 x3 x4 (ix2 a j)
      = (∑ e ∈ landing x1 (agentRow x2 a),
            (∑ k : Fin 128, x0 (ix2 (srcRow x1 e) k) * x3 (ix2 k j)) * val_main_v31 (F := Ideal) x1 (ix1 e))
          + x4 (ix1 j) := by
  have hg : val_main_v55 (F := Ideal) x0 x1 x2 x3 x4 (ix2 a j)
      = val_main_v48 (F := Ideal) x0 x1 x3 x4 (ix2 (agentRow x2 a) j) :=
    Cert.Lib.RowGather.rowGather_apply (by decide) Facts₀.gather_S50000x256_S8192x1_S8192x256_1_0_n_n_0_1_1256_wf
      (val_main_v48 (F := Ideal) x0 x1 x3 x4) (val_main_v54 (F := Ideal) x2) a j
  rw [hg, val_main_v48_apply, val_main_v47_apply, val_main_v46_apply, scattered_apply]
  have hb : idx_main_v46 (idx_main_v47 (ix2 (agentRow x2 a) j)) = ix1 j :=
    funext fun b => Fin.ext (by match b with | ⟨0, _⟩ => rfl)
  rw [hb]
  rfl

end Cert.RefGcn

end
-- ==== Proof.EdgeWeight.lean ====
/-
  Every edge's normalisation weight is a real number.

  The weight of edge `e` is `dis[src e] * dis[dst e]`, two entries of the vector
  `dis[v] = if deg[v] > 0 then rsqrt (max deg[v] 1) else 0`. Whatever extended real `deg[v]` is, `max deg[v] 1` is
  positive, the ideal reciprocal square root of a positive extended real is a real number (`0` at `+∞`), and the other
  branch is `0`: so each `dis[v]`, each gathered entry of it, and each product of two of them is a real number.
-/
import proofs.«177900_j35081292874064_2_alg».proof.Proof.RefReadPatched
import proofs.«177900_j35081292874064_2_alg».proof.Proof.LibRowGather
import Idealize.ShloMosaic.PureOps.Ideal.Laws

noncomputable section

open Idealize.ShloMosaic Idealize.ShloMosaic.ValueIdx Cert.ReferenceIdeal Cert.ReferenceIdeal.Read

namespace Cert.EdgeWeight

/-- The float `1.0` denotes the real `1`. -/
theorem ofBits_one : Ideal.ofBits .f32 0x3F800000#32 = 1 := by
  simp [Ideal.ofBits, Ideal.ieee, -EReal.coe_mul]; norm_num

/-- The ideal reciprocal square root of a positive extended real is a real number. -/
theorem rsqrt_real_of_pos (y : EReal) (hy : 0 < y) : ∃ r : ℝ, Ideal.rsqrt y = (r : EReal) := by
  induction y using EReal.rec with
  | bot => exact absurd hy (not_lt_of_ge bot_le)
  | top => exact ⟨0, rfl⟩
  | coe r =>
    have hr : 0 < r := EReal.coe_pos.mp hy
    refine ⟨(Real.sqrt r)⁻¹, ?_⟩
    show (if r < 0 then (⊥ : EReal) else if r = 0 then ⊤ else ((Real.sqrt r)⁻¹ : ℝ)) = _
    rw [if_neg (not_lt.mpr hr.le), if_neg hr.ne']

/-- A selection between two real numbers is a real number. -/
theorem select_real (c : BitVec 1) (a b : EReal) (ha : ∃ r : ℝ, a = (r : EReal)) (hb : ∃ r : ℝ, b = (r : EReal)) :
    ∃ r : ℝ, Scalar.select c a b = (r : EReal) := by
  unfold Scalar.select
  split
  · exact ha
  · exact hb

/-- Each entry of `dis` is a real number. -/
theorem dis_real (x1 : (⟨S2x800000, .i32⟩ : BufTy).Contents (Elt Ideal)) (i : S50000.Idx) :
    ∃ r : ℝ, val_main_v16 (F := Ideal) x1 i = (r : EReal) := by
  rw [val_main_v16_apply]
  refine select_real _ _ _ ?_ ?_
  · rw [val_main_v15_apply, val_main_v14_apply, val_main_v13_apply, val_main_cst_2_apply]
    generalize val_main_v10 (F := Ideal) x1 i = d
    simp only [Ideal.hostUnary_rsqrt_def, Ideal.maximumf_def, Ideal.ofBits_def, ofBits_one]
    exact rsqrt_real_of_pos _ (lt_of_lt_of_le zero_lt_one (le_max_right _ _))
  · rw [val_main_call0_v1_apply, val_main_call0_v0_apply, val_main_cst_3_apply]
    exact ⟨0, by rw [Ideal.ofBits_def, Ideal.ofBits_zero_f32, EReal.coe_zero]⟩

/-- The source-side factor of edge `e`'s weight is an entry of `dis`. -/
theorem src_factor_apply (x1 : (⟨S2x800000, .i32⟩ : BufTy).Contents (Elt Ideal)) (e : Fin 850000) :
    val_main_v23 (F := Ideal) x1 (ix1 e)
      = val_main_v16 (F := Ideal) x1 (ix1 (⟨min (val_main_v22 (F := Ideal) x1 (ix2 e (0 : Fin 1))).toInt.toNat (50000 - 1), by omega⟩ : Fin 50000)) :=
  Cert.Lib.RowGather.vecGather_apply (by decide) Facts₀.gather_S50000_S850000x1_S850000_n_0_n_n_0_1_1_wf
    (val_main_v16 (F := Ideal) x1) (val_main_v22 (F := Ideal) x1) e

/-- The destination-side factor of edge `e`'s weight is an entry of `dis`. -/
theorem dst_factor_apply (x1 : (⟨S2x800000, .i32⟩ : BufTy).Contents (Elt Ideal)) (e : Fin 850000) :
    val_main_v30 (F := Ideal) x1 (ix1 e)
      = val_main_v16 (F := Ideal) x1 (ix1 (⟨min (val_main_v29 (F := Ideal) x1 (ix2 e (0 : Fin 1))).toInt.toNat (50000 - 1), by omega⟩ : Fin 50000)) :=
  Cert.Lib.RowGather.vecGather_apply (by decide) Facts₀.gather_S50000_S850000x1_S850000_n_0_n_n_0_1_1_wf
    (val_main_v16 (F := Ideal) x1) (val_main_v29 (F := Ideal) x1) e

/-- EVERY EDGE'S WEIGHT IS A REAL NUMBER. -/
theorem weight_real (x1 : (⟨S2x800000, .i32⟩ : BufTy).Contents (Elt Ideal)) (e : Fin 850000) :
    ∃ r : ℝ, val_main_v31 (F := Ideal) x1 (ix1 e) = (r : EReal) := by
  rw [val_main_v31_apply, src_factor_apply, dst_factor_apply]
  obtain ⟨a, ha⟩ := dis_real x1 (ix1 (⟨min (val_main_v22 (F := Ideal) x1 (ix2 e (0 : Fin 1))).toInt.toNat (50000 - 1), by omega⟩ : Fin 50000))
  obtain ⟨b, hb⟩ := dis_real x1 (ix1 (⟨min (val_main_v29 (F := Ideal) x1 (ix2 e (0 : Fin 1))).toInt.toNat (50000 - 1), by omega⟩ : Fin 50000))
  rw [ha, hb]
  exact ⟨a * b, (EReal.coe_mul a b).symm⟩

end Cert.EdgeWeight

end
-- ==== Proof.GcnCommute.lean ====
/-
  The graph convolution's projection commutes with the aggregation.

  The kernel aggregates the raw 128 features over each node's incoming edges and projects the selected rows to 256
  columns afterwards; the reference projects every node first and aggregates the 256 projected columns. For agent
  `a` and column `j` both are the double sum, over the incoming edges `e` of the selected node and the 128 features `k`,
  of `x[src e, k] * weight e * W[k, j]`, plus the bias `b[j]` — equal because every feature, every weight and every
  entry of `W` is a real number (for extended reals at an infinity, products do not distribute over sums).
-/
import proofs.«177900_j35081292874064_2_alg».proof.Proof.ActorHead
import proofs.«177900_j35081292874064_2_alg».proof.Proof.RefGcn
import proofs.«177900_j35081292874064_2_alg».proof.Proof.KernelAgg
import proofs.«177900_j35081292874064_2_alg».proof.Proof.EdgeWeight
import proofs.«177900_j35081292874064_2_alg».proof.Proof.LibScatterLinear

noncomputable section

open scoped BigOperators
open Idealize.ShloMosaic Idealize.ShloMosaic.ValueIdx Cert.ReferenceIdeal Cert.ReferenceIdeal.Read Cert.EdgeSum

namespace Cert.GcnCommute

/-- THE PROJECTED AGGREGATE IS THE REFERENCE'S CONVOLUTION OUTPUT, for real features and a real projection. -/
theorem projected_eq (x0 : (⟨S50000x128, .f32⟩ : BufTy).Contents (Elt Ideal)) (x1 : (⟨S2x800000, .i32⟩ : BufTy).Contents (Elt Ideal))
    (x2 : (⟨S8192, .i32⟩ : BufTy).Contents (Elt Ideal)) (x3 : (⟨S128x256, .f32⟩ : BufTy).Contents (Elt Ideal))
    (x4 : (⟨S256, .f32⟩ : BufTy).Contents (Elt Ideal))
    (hx0 : ∀ i, ∃ r : ℝ, x0 i = (r : EReal)) (hx3 : ∀ i, ∃ r : ℝ, x3 i = (r : EReal)) (a : Fin 8192) (j : Fin 256) :
    Cert.ActorHead.dense (fun k : Fin 128 => Cert.KernelAgg.aggregated x0 x1 x2 (ix2 a k)) (fun k j' => x3 (ix2 k j'))
        (fun j' => x4 (ix1 j')) j
      = val_main_v55 (F := Ideal) x0 x1 x2 x3 x4 (ix2 a j) := by
  unfold Cert.ActorHead.dense
  rw [Cert.RefGcn.gcn_apply]
  refine congrArg₂ (· + ·) ?_ rfl
  simp only [Cert.KernelAgg.aggregated_apply]
  exact Cert.Lib.ScatterLinear.sum_mul_sum_comm (landing x1 (agentRow x2 a))
    (fun e k => x0 (ix2 (srcRow x1 e) k)) (fun e => val_main_v31 (F := Ideal) x1 (ix1 e)) (fun k => x3 (ix2 k j))
    (fun e k => hx0 _) (fun e => Cert.EdgeWeight.weight_real x1 e) (fun k => hx3 _)

end Cert.GcnCommute

end
-- ==== Proof.RefOut.lean ====
/-
  The reference's result is the network function.

  The reference's last stage at `(a, o)` is the dense head of agent `a`'s row of its convolution output (RefHead), and
  that row is the projected aggregate the network function is stated with (GcnCommute) when the node features and the
  projection matrix are real-valued.
-/
import proofs.«177900_j35081292874064_2_alg».proof.Proof.RefHead
import proofs.«177900_j35081292874064_2_alg».proof.Proof.GcnCommute
import proofs.«177900_j35081292874064_2_alg».proof.Proof.ActorNet

noncomputable section

open Idealize.ShloMosaic Idealize.ShloMosaic.ValueIdx Cert.ReferenceIdeal Cert.ReferenceIdeal.Read

namespace Cert.RefOut

/-- THE REFERENCE'S RESULT ARRAY is the network function of the arguments. -/
theorem result_eq (x0 : (⟨S50000x128, .f32⟩ : BufTy).Contents (Elt Ideal)) (x1 : (⟨S2x800000, .i32⟩ : BufTy).Contents (Elt Ideal))
    (x2 : (⟨S8192, .i32⟩ : BufTy).Contents (Elt Ideal)) (x3 : (⟨S128x256, .f32⟩ : BufTy).Contents (Elt Ideal))
    (x4 : (⟨S256, .f32⟩ : BufTy).Contents (Elt Ideal)) (x5 : (⟨S256x1024, .f32⟩ : BufTy).Contents (Elt Ideal))
    (x6 x7 x8 : (⟨S1024, .f32⟩ : BufTy).Contents (Elt Ideal)) (x9 : (⟨S1024x512, .f32⟩ : BufTy).Contents (Elt Ideal))
    (x10 x11 x12 : (⟨S512, .f32⟩ : BufTy).Contents (Elt Ideal)) (x13 : (⟨S512x16, .f32⟩ : BufTy).Contents (Elt Ideal))
    (x14 : (⟨S16, .f32⟩ : BufTy).Contents (Elt Ideal))
    (hx0 : ∀ i, ∃ r : ℝ, x0 i = (r : EReal)) (hx3 : ∀ i, ∃ r : ℝ, x3 i = (r : EReal)) :
    val_main_v124 (F := Ideal) x0 x1 x2 x3 x4 x5 x6 x7 x8 x9 x10 x11 x12 x13 x14 = Cert.ActorNet.out x0 x1 x2 x3 x4 x5 x6 x7 x8 x9 x10 x11 x12 x13 x14 := by
  funext i
  obtain ⟨a, o, rfl⟩ : ∃ (a : Fin 8192) (o : Fin 16), i = ix2 a o := ⟨i 0, i 1, eq_ix2 i⟩
  rw [Cert.RefHead.result_apply]
  have h : (fun j : Fin 256 => val_main_v55 (F := Ideal) x0 x1 x2 x3 x4 (ix2 a j))
      = Cert.ActorHead.dense (fun k : Fin 128 => Cert.KernelAgg.aggregated x0 x1 x2 (ix2 a k)) (fun k j' => x3 (ix2 k j'))
          (fun j' => x4 (ix1 j')) :=
    funext fun j => (Cert.GcnCommute.projected_eq x0 x1 x2 x3 x4 hx0 hx3 a j).symm
  rw [h]
  rfl

end Cert.RefOut

end
-- ==== Proof.lean ====
/-
  The certificate of the actor network's fused dense head against its jnp reference.

  Both programs compute, for each of 8192 agents, sixteen action probabilities: a graph convolution over 50000 nodes
  and 850000 edges (800000 given edges and one self-loop per node) with symmetric degree normalisation, the rows of the
  agents' nodes, then two layer-normalised hidden layers and a logistic output layer. The kernel's program aggregates
  the RAW 128 features per node and applies the convolution's 128 × 256 projection only to the 8192 selected rows,
  inside its fused call, where the reference projects all 50000 nodes first; with real-valued features and projection
  the two orders give the same row (Proof/GcnCommute.lean). The rest of the chain is the same function row by row
  (Proof/ActorHead.lean), computed by the call on four blocks of 2048 rows (Proof/KernelHead.lean,
  Proof/KernelValue.lean) and by the reference on the whole array (Proof/RefHead.lean, Proof/RefOut.lean).
  The three frames are the generated frame certificates and the reference's run; the idealization rewrote nothing.
-/
import proofs.«177900_j35081292874064_2_alg».proof.Defs
import proofs.«177900_j35081292874064_2_alg».proof.Proof.Gen.Kernel
import proofs.«177900_j35081292874064_2_alg».proof.Proof.Gen.Kernel.Skeleton
import proofs.«177900_j35081292874064_2_alg».proof.Proof.Gen.Kernel.Launch
import proofs.«177900_j35081292874064_2_alg».proof.Proof.Gen.Kernel.Points
import proofs.«177900_j35081292874064_2_alg».proof.Proof.Gen.Kernel.Frame
import proofs.«177900_j35081292874064_2_alg».proof.Proof.Gen.KernelIdeal
import proofs.«177900_j35081292874064_2_alg».proof.Proof.Gen.KernelIdeal.Skeleton
import proofs.«177900_j35081292874064_2_alg».proof.Proof.Gen.KernelIdeal.Launch
import proofs.«177900_j35081292874064_2_alg».proof.Proof.Gen.KernelIdeal.Points
import proofs.«177900_j35081292874064_2_alg».proof.Proof.Gen.KernelIdeal.Frame
import proofs.«177900_j35081292874064_2_alg».proof.Proof.Gen.ReferenceIdeal
import proofs.«177900_j35081292874064_2_alg».proof.Proof.Gen.KernelIdeal.Value
import proofs.«177900_j35081292874064_2_alg».proof.Proof.RefReadPatched
import proofs.«177900_j35081292874064_2_alg».proof.Proof.Gen.Pre_finite_inputs
import proofs.«177900_j35081292874064_2_alg».proof.Proof.FiniteInputs
import proofs.«177900_j35081292874064_2_alg».proof.Proof.KernelValue
import proofs.«177900_j35081292874064_2_alg».proof.Proof.RefOut
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a host program: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the network function of the (agreeing, finite) arguments in their result. -/
theorem algebraic : Cert.algebraic_KernelIdeal_ReferenceIdeal := by
  intro m ρ m' ρ' hpre hagree
  refine ⟨fun c => Cert.ActorNet.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), Cert.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v124_eq]
  obtain ⟨h0, h1, h2, h3, h4, h5, h6, h7, h8, h9, h10, h11, h12, h13, h14⟩ := hagree c
  rw [h0, h1, h2, h3, h4, h5, h6, h7, h8, h9, h10, h11, h12, h13, h14]
  obtain ⟨hx0, hx3⟩ := Cert.FiniteInputs.features_and_projection_real _ _ _ _ _ _ _ _ _ _ _ _ _ _ _ (hpre c)
  exact Cert.RefOut.result_eq _ _ _ _ _ _ _ _ _ _ _ _ _ _ _ hx0 hx3

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
